-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v50)) (v1 : (c : Dev Cert.KernelIdeal.nD) → Buf (Elt Ideal) ((c.tc : Thread Cert.KernelIdeal.nD Cert.KernelIdeal.τ).loc Cert.KernelIdeal.main_v45_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x75 : Shape := ⟨2, ![100000, 75]⟩
abbrev S1600000x14 : Shape := ⟨2, ![1600000, 14]⟩
abbrev S89x32 : Shape := ⟨2, ![89, 32]⟩
abbrev S32 : Shape := ⟨1, ![32]⟩
abbrev S107x50 : Shape := ⟨2, ![107, 50]⟩
abbrev S50 : Shape := ⟨1, ![50]⟩
abbrev S75x50 : Shape := ⟨2, ![75, 50]⟩
abbrev S89x50 : Shape := ⟨2, ![89, 50]⟩
abbrev S14x50 : Shape := ⟨2, ![14, 50]⟩
abbrev S1600000 : Shape := ⟨1, ![1600000]⟩
abbrev S1600000x2 : Shape := ⟨2, ![1600000, 2]⟩
abbrev S_ : Shape := ⟨0, ![]⟩

class Facts : Prop where
  bcast_S_S100000x75 : S_.BroadcastsInDim S100000x75 (![] : Fin 0 → Fin S100000x75.rank)
  reducesTo_S100000x75_S_d0_1 : S100000x75.ReducesTo [0, 1] S_
  h_S_ : 0 < S_.numel
  bcast_S_S1600000x14 : S_.BroadcastsInDim S1600000x14 (![] : Fin 0 → Fin S1600000x14.rank)
  reducesTo_S1600000x14_S_d0_1 : S1600000x14.ReducesTo [0, 1] S_
  bcast_S_S89x32 : S_.BroadcastsInDim S89x32 (![] : Fin 0 → Fin S89x32.rank)
  reducesTo_S89x32_S_d0_1 : S89x32.ReducesTo [0, 1] S_
  bcast_S_S32 : S_.BroadcastsInDim S32 (![] : Fin 0 → Fin S32.rank)
  reducesTo_S32_S_d0 : S32.ReducesTo [0] S_
  bcast_S_S107x50 : S_.BroadcastsInDim S107x50 (![] : Fin 0 → Fin S107x50.rank)
  reducesTo_S107x50_S_d0_1 : S107x50.ReducesTo [0, 1] S_
  bcast_S_S50 : S_.BroadcastsInDim S50 (![] : Fin 0 → Fin S50.rank)
  reducesTo_S50_S_d0 : S50.ReducesTo [0] S_
  bcast_S_S75x50 : S_.BroadcastsInDim S75x50 (![] : Fin 0 → Fin S75x50.rank)
  reducesTo_S75x50_S_d0_1 : S75x50.ReducesTo [0, 1] S_
  bcast_S_S89x50 : S_.BroadcastsInDim S89x50 (![] : Fin 0 → Fin S89x50.rank)
  reducesTo_S89x50_S_d0_1 : S89x50.ReducesTo [0, 1] S_
  bcast_S_S14x50 : S_.BroadcastsInDim S14x50 (![] : Fin 0 → Fin S14x50.rank)
  reducesTo_S14x50_S_d0_1 : S14x50.ReducesTo [0, 1] S_

variable [Facts]

def fn_part3 {F : FTy → Type} [FloatOps F] (main_arg11 : FVec F S50 .f32) (main_v48 : IVec S_ 1) (main_v49 : FVec F S14x50 .f32) (main_v50 : FVec F S14x50 .f32) : IVec S_ 1 :=
  let main_v51 : IVec S14x50 1 := cmpf .olt main_v49 main_v50
  let main_c_19 : IVec S_ 1 := constantI S_ 1 1#1
  let main_v52 : IVec S_ 1 := (fun x v => Host.reduce IntOp.andi x v reducesTo_S14x50_S_d0_1 h_S_) main_v51 main_c_19
  let main_v53 : IVec S_ 1 := andi main_v48 main_v52
  let main_v54 : FVec F S50 .f32 := Host.absf main_arg11
  let main_cst_20 : FVec F S_ .f32 := constant S_ .f32 0x7F800000#32
  let main_v55 : FVec F S50 .f32 := broadcastInDim S50 ![] bcast_S_S50 main_cst_20
  let main_v56 : IVec S50 1 := cmpf .olt main_v54 main_v55
  let main_c_21 : IVec S_ 1 := constantI S_ 1 1#1
  let main_v57 : IVec S_ 1 := (fun x v => Host.reduce IntOp.andi x v reducesTo_S50_S_d0 h_S_) main_v56 main_c_21
  let main_v58 : IVec S_ 1 := andi main_v53 main_v57
  main_v58

def fn_part2 {F : FTy → Type} [FloatOps F] (main_arg7 : FVec F S50 .f32) (main_arg8 : FVec F S89x50 .f32) (main_arg9 : FVec F S50 .f32) (main_arg10 : FVec F S14x50 .f32) (main_arg11 : FVec F S50 .f32) (main_v33 : IVec S_ 1) : IVec S_ 1 :=
  let main_v34 : FVec F S50 .f32 := Host.absf main_arg7
  let main_cst_12 : FVec F S_ .f32 := constant S_ .f32 0x7F800000#32
  let main_v35 : FVec F S50 .f32 := broadcastInDim S50 ![] bcast_S_S50 main_cst_12
  let main_v36 : IVec S50 1 := cmpf .olt main_v34 main_v35
  let main_c_13 : IVec S_ 1 := constantI S_ 1 1#1
  let main_v37 : IVec S_ 1 := (fun x v => Host.reduce IntOp.andi x v reducesTo_S50_S_d0 h_S_) main_v36 main_c_13
  let main_v38 : IVec S_ 1 := andi main_v33 main_v37
  let main_v39 : FVec F S89x50 .f32 := Host.absf main_arg8
  let main_cst_14 : FVec F S_ .f32 := constant S_ .f32 0x7F800000#32
  let main_v40 : FVec F S89x50 .f32 := broadcastInDim S89x50 ![] bcast_S_S89x50 main_cst_14
  let main_v41 : IVec S89x50 1 := cmpf .olt main_v39 main_v40
  let main_c_15 : IVec S_ 1 := constantI S_ 1 1#1
  let main_v42 : IVec S_ 1 := (fun x v => Host.reduce IntOp.andi x v reducesTo_S89x50_S_d0_1 h_S_) main_v41 main_c_15
  let main_v43 : IVec S_ 1 := andi main_v38 main_v42
  let main_v44 : FVec F S50 .f32 := Host.absf main_arg9
  let main_cst_16 : FVec F S_ .f32 := constant S_ .f32 0x7F800000#32
  let main_v45 : FVec F S50 .f32 := broadcastInDim S50 ![] bcast_S_S50 main_cst_16
  let main_v46 : IVec S50 1 := cmpf .olt main_v44 main_v45
  let main_c_17 : IVec S_ 1 := constantI S_ 1 1#1
  let main_v47 : IVec S_ 1 := (fun x v => Host.reduce IntOp.andi x v reducesTo_S50_S_d0 h_S_) main_v46 main_c_17
  let main_v48 : IVec S_ 1 := andi main_v43 main_v47
  let main_v49 : FVec F S14x50 .f32 := Host.absf main_arg10
  let main_cst_18 : FVec F S_ .f32 := constant S_ .f32 0x7F800000#32
  let main_v50 : FVec F S14x50 .f32 := broadcastInDim S14x50 ![] bcast_S_S14x50 main_cst_18
  fn_part3 (F := F) main_arg11 main_v48 main_v49 main_v50

def fn_part1 {F : FTy → Type} [FloatOps F] (main_arg4 : FVec F S107x50 .f32) (main_arg5 : FVec F S50 .f32) (main_arg6 : FVec F S75x50 .f32) (main_arg7 : FVec F S50 .f32) (main_arg8 : FVec F S89x50 .f32) (main_arg9 : FVec F S50 .f32) (main_arg10 : FVec F S14x50 .f32) (main_arg11 : FVec F S50 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S107x50 .f32 := Host.absf main_arg4
  let main_cst_6 : FVec F S_ .f32 := constant S_ .f32 0x7F800000#32
  let main_v20 : FVec F S107x50 .f32 := broadcastInDim S107x50 ![] bcast_S_S107x50 main_cst_6
  let main_v21 : IVec S107x50 1 := cmpf .olt main_v19 main_v20
  let main_c_7 : IVec S_ 1 := constantI S_ 1 1#1
  let main_v22 : IVec S_ 1 := (fun x v => Host.reduce IntOp.andi x v reducesTo_S107x50_S_d0_1 h_S_) main_v21 main_c_7
  let main_v23 : IVec S_ 1 := andi main_v18 main_v22
  let main_v24 : FVec F S50 .f32 := Host.absf main_arg5
  let main_cst_8 : FVec F S_ .f32 := constant S_ .f32 0x7F800000#32
  let main_v25 : FVec F S50 .f32 := broadcastInDim S50 ![] bcast_S_S50 main_cst_8
  let main_v26 : IVec S50 1 := cmpf .olt main_v24 main_v25
  let main_c_9 : IVec S_ 1 := constantI S_ 1 1#1
  let main_v27 : IVec S_ 1 := (fun x v => Host.reduce IntOp.andi x v reducesTo_S50_S_d0 h_S_) main_v26 main_c_9
  let main_v28 : IVec S_ 1 := andi main_v23 main_v27
  let main_v29 : FVec F S75x50 .f32 := Host.absf main_arg6
  let main_cst_10 : FVec F S_ .f32 := constant S_ .f32 0x7F800000#32
  let main_v30 : FVec F S75x50 .f32 := broadcastInDim S75x50 ![] bcast_S_S75x50 main_cst_10
  let main_v31 : IVec S75x50 1 := cmpf .olt main_v29 main_v30
  let main_c_11 : IVec S_ 1 := constantI S_ 1 1#1
  let main_v32 : IVec S_ 1 := (fun x v => Host.reduce IntOp.andi x v reducesTo_S75x50_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x75 .f32) (main_arg1 : FVec F S1600000x14 .f32) (main_arg2 : FVec F S89x32 .f32) (main_arg3 : FVec F S32 .f32) (main_arg4 : FVec F S107x50 .f32) (main_arg5 : FVec F S50 .f32) (main_arg6 : FVec F S75x50 .f32) (main_arg7 : FVec F S50 .f32) (main_arg8 : FVec F S89x50 .f32) (main_arg9 : FVec F S50 .f32) (main_arg10 : FVec F S14x50 .f32) (main_arg11 : FVec F S50 .f32) (main_arg12 : IVec S1600000 32) (main_arg13 : IVec S1600000x2 32) : IVec S_ 1 :=
  let main_v0 : FVec F S100000x75 .f32 := Host.absf main_arg0
  let main_cst : FVec F S_ .f32 := constant S_ .f32 0x7F800000#32
  let main_v1 : FVec F S100000x75 .f32 := broadcastInDim S100000x75 ![] bcast_S_S100000x75 main_cst
  let main_v2 : IVec S100000x75 1 := cmpf .olt main_v0 main_v1
  let main_c : IVec S_ 1 := constantI S_ 1 1#1
  let main_v3 : IVec S_ 1 := (fun x v => Host.reduce IntOp.andi x v reducesTo_S100000x75_S_d0_1 h_S_) main_v2 main_c
  let main_v4 : FVec F S1600000x14 .f32 := Host.absf main_arg1
  let main_cst_0 : FVec F S_ .f32 := constant S_ .f32 0x7F800000#32
  let main_v5 : FVec F S1600000x14 .f32 := broadcastInDim S1600000x14 ![] bcast_S_S1600000x14 main_cst_0
  let main_v6 : IVec S1600000x14 1 := cmpf .olt main_v4 main_v5
  let main_c_1 : IVec S_ 1 := constantI S_ 1 1#1
  let main_v7 : IVec S_ 1 := (fun x v => Host.reduce IntOp.andi x v reducesTo_S1600000x14_S_d0_1 h_S_) main_v6 main_c_1
  let main_v8 : IVec S_ 1 := andi main_v3 main_v7
  let main_v9 : FVec F S89x32 .f32 := Host.absf main_arg2
  let main_cst_2 : FVec F S_ .f32 := constant S_ .f32 0x7F800000#32
  let main_v10 : FVec F S89x32 .f32 := broadcastInDim S89x32 ![] bcast_S_S89x32 main_cst_2
  let main_v11 : IVec S89x32 1 := cmpf .olt main_v9 main_v10
  let main_c_3 : IVec S_ 1 := constantI S_ 1 1#1
  let main_v12 : IVec S_ 1 := (fun x v => Host.reduce IntOp.andi x v reducesTo_S89x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_v13 main_v16
-- ==== Kernel.lean ====
abbrev S100000x75 : Shape := ⟨2, ![100000, 75]⟩
abbrev S1600000x14 : Shape := ⟨2, ![1600000, 14]⟩
abbrev S89x32 : Shape := ⟨2, ![89, 32]⟩
abbrev S32 : Shape := ⟨1, ![32]⟩
abbrev S107x50 : Shape := ⟨2, ![107, 50]⟩
abbrev S50 : Shape := ⟨1, ![50]⟩
abbrev S75x50 : Shape := ⟨2, ![75, 50]⟩
abbrev S89x50 : Shape := ⟨2, ![89, 50]⟩
abbrev S14x50 : Shape := ⟨2, ![14, 50]⟩
abbrev S1600000 : Shape := ⟨1, ![1600000]⟩
abbrev S1600000x2 : Shape := ⟨2, ![1600000, 2]⟩
abbrev S1600000x1 : Shape := ⟨2, ![1600000, 1]⟩
abbrev S14x32 : Shape := ⟨2, ![14, 32]⟩
abbrev S75x32 : Shape := ⟨2, ![75, 32]⟩
abbrev S32x50 : Shape := ⟨2, ![32, 50]⟩
abbrev S1x32 : Shape := ⟨2, ![1, 32]⟩
abbrev S1x50 : Shape := ⟨2, ![1, 50]⟩
abbrev S100000x32 : Shape := ⟨2, ![100000, 32]⟩
abbrev S100000x50 : Shape := ⟨2, ![100000, 50]⟩
abbrev S5000x75 : Shape := ⟨2, ![5000, 75]⟩
abbrev S5000x32 : Shape := ⟨2, ![5000, 32]⟩
abbrev S5000x50 : Shape := ⟨2, ![5000, 50]⟩
abbrev S_ : Shape := ⟨0, ![]⟩
abbrev S1600000x32 : Shape := ⟨2, ![1600000, 32]⟩
abbrev S1600000x50 : Shape := ⟨2, ![1600000, 50]⟩
abbrev S4000x14 : Shape := ⟨2, ![4000, 14]⟩
abbrev S4000x32 : Shape := ⟨2, ![4000, 32]⟩
abbrev S4000x50 : Shape := ⟨2, ![4000, 50]⟩

abbrev nBuf : Space → Nat
  | .hbm => 74
  | .vmem => 37
  | .smem => 0
  | _ => 0

abbrev bufTy : (tb : Table) → Fin (tcTables nBuf tb) → BufTy
  | .hbm, ⟨0, _⟩ => ⟨S100000x75, .f32⟩
  | .hbm, ⟨1, _⟩ => ⟨S1600000x14, .f32⟩
  | .hbm, ⟨2, _⟩ => ⟨S89x32, .f32⟩
  | .hbm, ⟨3, _⟩ => ⟨S32, .f32⟩
  | .hbm, ⟨4, _⟩ => ⟨S107x50, .f32⟩
  | .hbm, ⟨5, _⟩ => ⟨S50, .f32⟩
  | .hbm, ⟨6, _⟩ => ⟨S75x50, .f32⟩
  | .hbm, ⟨7, _⟩ => ⟨S50, .f32⟩
  | .hbm, ⟨8, _⟩ => ⟨S89x50, .f32⟩
  | .hbm, ⟨9, _⟩ => ⟨S50, .f32⟩
  | .hbm, ⟨10, _⟩ => ⟨S14x50, .f32⟩
  | .hbm, ⟨11, _⟩ => ⟨S50, .f32⟩
  | .hbm, ⟨12, _⟩ => ⟨S1600000, .i32⟩
  | .hbm, ⟨13, _⟩ => ⟨S1600000x2, .i32⟩
  | .hbm, ⟨14, _⟩ => ⟨S1600000x1, .i32⟩
  | .hbm, ⟨15, _⟩ => ⟨S1600000, .i32⟩
  | .hbm, ⟨16, _⟩ => ⟨S1600000x1, .i32⟩
  | .hbm, ⟨17, _⟩ => ⟨S1600000, .i32⟩
  | .hbm, ⟨18, _⟩ => ⟨S14x32, .f32⟩
  | .hbm, ⟨19, _⟩ => ⟨S14x32, .bf16⟩
  | .hbm, ⟨20, _⟩ => ⟨S75x32, .f32⟩
  | .hbm, ⟨21, _⟩ => ⟨S75x32, .bf16⟩
  | .hbm, ⟨22, _⟩ => ⟨S14x50, .f32⟩
  | .hbm, ⟨23, _⟩ => ⟨S14x50, .bf16⟩
  | .hbm, ⟨24, _⟩ => ⟨S75x50, .f32⟩
  | .hbm, ⟨25, _⟩ => ⟨S75x50, .bf16⟩
  | .hbm, ⟨26, _⟩ => ⟨S14x50, .bf16⟩
  | .hbm, ⟨27, _⟩ => ⟨S75x50, .f32⟩
  | .hbm, ⟨28, _⟩ => ⟨S75x50, .bf16⟩
  | .hbm, ⟨29, _⟩ => ⟨S32x50, .f32⟩
  | .hbm, ⟨30, _⟩ => ⟨S32x50, .bf16⟩
  | .hbm, ⟨31, _⟩ => ⟨S75x50, .bf16⟩
  | .hbm, ⟨32, _⟩ => ⟨S1x32, .f32⟩
  | .hbm, ⟨33, _⟩ => ⟨S1x50, .f32⟩
  | .hbm, ⟨34, _⟩ => ⟨S1x50, .f32⟩
  | .hbm, ⟨35, _⟩ => ⟨S1x50, .f32⟩
  | .hbm, ⟨36, _⟩ => ⟨S1x50, .f32⟩
  | .hbm, ⟨37, _⟩ => ⟨S100000x32, .bf16⟩
  | .hbm, ⟨38, _⟩ => ⟨S100000x50, .bf16⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x32, .bf16⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x50, .bf16⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x50, .bf16⟩
  | .hbm, ⟨66, _⟩ => ⟨S1600000x32, .bf16⟩
  | .hbm, ⟨67, _⟩ => ⟨S1600000x50, .f32⟩
  | .hbm, ⟨68, _⟩ => ⟨S1600000x32, .f32⟩
  | .hbm, ⟨69, _⟩ => ⟨S_, .f32⟩
  | .hbm, ⟨70, _⟩ => ⟨S100000x32, .f32⟩
  | .hbm, ⟨71, _⟩ => ⟨S1600000x1, .i32⟩
  | .hbm, ⟨72, _⟩ => ⟨S100000x32, .f32⟩
  | .hbm, ⟨73, _⟩ => ⟨S100000x50, .f32⟩
  | .local _ .vmem, ⟨0, _⟩ => ⟨S5000x75, .f32⟩
  | .local _ .vmem, ⟨1, _⟩ => ⟨S5000x75, .f32⟩
  | .local _ .vmem, ⟨2, _⟩ => ⟨S75x32, .bf16⟩
  | .local _ .vmem, ⟨3, _⟩ => ⟨S75x50, .bf16⟩
  | .local _ .vmem, ⟨4, _⟩ => ⟨S5000x32, .bf16⟩
  | .local _ .vmem, ⟨5, _⟩ => ⟨S5000x32, .bf16⟩
  | .local _ .vmem, ⟨6, _⟩ => ⟨S5000x50, .bf16⟩
  | .local _ .vmem, ⟨7, _⟩ => ⟨S5000x50, .bf16⟩
  | .local _ .vmem, ⟨8, _⟩ => ⟨S4000x14, .f32⟩
  | .local _ .vmem, ⟨9, _⟩ => ⟨S4000x14, .f32⟩
  | .local _ .vmem, ⟨10, _⟩ => ⟨S4000x32, .bf16⟩
  | .local _ .vmem, ⟨11, _⟩ => ⟨S4000x32, .bf16⟩
  | .local _ .vmem, ⟨12, _⟩ => ⟨S4000x50, .bf16⟩
  | .local _ .vmem, ⟨13, _⟩ => ⟨S4000x50, .bf16⟩
  | .local _ .vmem, ⟨14, _⟩ => ⟨S4000x50, .bf16⟩
  | .local _ .vmem, ⟨15, _⟩ => ⟨S4000x50, .bf16⟩
  | .local _ .vmem, ⟨16, _⟩ => ⟨S14x32, .bf16⟩
  | .local _ .vmem, ⟨17, _⟩ => ⟨S1x32, .f32⟩
  | .local _ .vmem, ⟨18, _⟩ => ⟨S14x50, .bf16⟩
  | .local _ .vmem, ⟨19, _⟩ => ⟨S1x50, .f32⟩
  | .local _ .vmem, ⟨20, _⟩ => ⟨S14x50, .bf16⟩
  | .local _ .vmem, ⟨21, _⟩ => ⟨S1x50, .f32⟩
  | .local _ .vmem, ⟨22, _⟩ => ⟨S4000x32, .bf16⟩
  | .local _ .vmem, ⟨23, _⟩ => ⟨S4000x32, .bf16⟩
  | .local _ .vmem, ⟨24, _⟩ => ⟨S4000x50, .f32⟩
  | .local _ .vmem, ⟨25, _⟩ => ⟨S4000x50, .f32⟩
  | .local _ .vmem, ⟨26, _⟩ => ⟨S5000x75, .f32⟩
  | .local _ .vmem, ⟨27, _⟩ => ⟨S5000x75, .f32⟩
  | .local _ .vmem, ⟨28, _⟩ => ⟨S5000x32, .f32⟩
  | .local _ .vmem, ⟨29, _⟩ => ⟨S5000x32, .f32⟩
  | .local _ .vmem, ⟨30, _⟩ => ⟨S75x50, .bf16⟩
  | .local _ .vmem, ⟨31, _⟩ => ⟨S32x50, .bf16⟩
  | .local _ .vmem, ⟨32, _⟩ => ⟨S1x50, .f32⟩
  | .local _ .vmem, ⟨33, _⟩ => ⟨S75x50, .bf16⟩
  | .local _ .vmem, ⟨34, _⟩ => ⟨S1x50, .f32⟩
  | .local _ .vmem, ⟨35, _⟩ => ⟨S5000x50, .f32⟩
  | .local _ .vmem, ⟨36, _⟩ => ⟨S5000x50, .f32⟩
  | _, _ => ⟨S100000x75, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23_0 : Ref sig .tc := ⟨.hbm, 37, rfl⟩
abbrev main_v23_1 : Ref sig .tc := ⟨.hbm, 38, rfl⟩
abbrev main_c : Ref sig .tc := ⟨.hbm, 39, rfl⟩
abbrev main_v24 : Ref sig .tc := ⟨.hbm, 40, rfl⟩
abbrev main_v25 : Ref sig .tc := ⟨.hbm, 41, rfl⟩
abbrev main_c_0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_1 : Ref sig .tc := ⟨.hbm, 48, rfl⟩
abbrev main_v31 : Ref sig .tc := ⟨.hbm, 49, rfl⟩
abbrev main_v32 : Ref sig .tc := ⟨.hbm, 50, rfl⟩
abbrev main_c_2 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_3 : Ref sig .tc := ⟨.hbm, 57, rfl⟩
abbrev main_v38 : Ref sig .tc := ⟨.hbm, 58, rfl⟩
abbrev main_v39 : Ref sig .tc := ⟨.hbm, 59, rfl⟩
abbrev main_c_4 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45_0 : Ref sig .tc := ⟨.hbm, 66, rfl⟩
abbrev main_v45_1 : Ref sig .tc := ⟨.hbm, 67, rfl⟩
abbrev main_v46 : Ref sig .tc := ⟨.hbm, 68, rfl⟩
abbrev main_cst : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg10_1 : Ref sig .tc := ⟨.vmem, 23, rfl⟩
abbrev cc1_stg11_0 : Ref sig .tc := ⟨.vmem, 24, rfl⟩
abbrev cc1_stg11_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg7_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem10_1 : DmaSem sig := 23
abbrev cc1_sem11_0 : DmaSem sig := 24
abbrev cc1_sem11_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem7_1 : DmaSem sig := 36

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x75 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S75x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S75x50 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x50 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x14 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x32 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x50 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x50 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S14x32 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S14x50 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x50 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S14x50 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x50 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S4000x32 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S4000x50 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x75 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S75x50 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x50 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x50 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S75x50 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x50 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x50 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S1600000x2_S1600000x1_0_0 : S1600000x2.Slices ![0, 0] S1600000x1
  shapeCasts_S1600000x1_S1600000 : S1600000x1.ShapeCasts S1600000
  slices_S1600000x2_S1600000x1_0_1 : S1600000x2.Slices ![0, 1] S1600000x1
  slices_S89x32_S14x32_0_0 : S89x32.Slices ![0, 0] S14x32
  bitsLt_bf16_f32 : FTy.bits .bf16 < FTy.bits .f32
  slices_S89x32_S75x32_14_0 : S89x32.Slices ![14, 0] S75x32
  slices_S89x50_S14x50_0_0 : S89x50.Slices ![0, 0] S14x50
  slices_S89x50_S75x50_14_0 : S89x50.Slices ![14, 0] S75x50
  slices_S107x50_S75x50_0_0 : S107x50.Slices ![0, 0] S75x50
  slices_S107x50_S32x50_75_0 : S107x50.Slices ![75, 0] S32x50
  shapeCasts_S32_S1x32 : S32.ShapeCasts S1x32
  shapeCasts_S50_S1x50 : S50.ShapeCasts S1x50
  inb_S5000x75_S5000x75_0_0 : ∀ a, (![0, 0] : Fin 2 → Nat) a + S5000x75.size a ≤ S5000x75.size a
  h_S5000x75 : 0 < S5000x75.numel
  inb_S75x32_S75x32_0_0 : ∀ a, (![0, 0] : Fin 2 → Nat) a + S75x32.size a ≤ S75x32.size a
  h_S75x32 : 0 < S75x32.numel
  shapeCasts_S75x32_S75x32 : S75x32.ShapeCasts S75x32
  inb_S75x50_S75x50_0_0 : ∀ a, (![0, 0] : Fin 2 → Nat) a + S75x50.size a ≤ S75x50.size a
  h_S75x50 : 0 < S75x50.numel
  shapeCasts_S75x50_S75x50 : S75x50.ShapeCasts S75x50
  inb_S5000x32_S5000x32_0_0 : ∀ a, (![0, 0] : Fin 2 → Nat) a + S5000x32.size a ≤ S5000x32.size a
  h_S5000x32 : 0 < S5000x32.numel
  packedbf16_S5000x32_S5000x32_0_0 : (Rect.unit (s := S5000x32) ![0, 0] S5000x32.size inb_S5000x32_S5000x32_0_0).PackedRows (EltTy.packing .bf16)
  inb_S5000x50_S5000x50_0_0 : ∀ a, (![0, 0] : Fin 2 → Nat) a + S5000x50.size a ≤ S5000x50.size a
  h_S5000x50 : 0 < S5000x50.numel
  packedbf16_S5000x50_S5000x50_0_0 : (Rect.unit (s := S5000x50) ![0, 0] S5000x50.size inb_S5000x50_S5000x50_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S4000x14_S4000x14_0_0 : ∀ a, (![0, 0] : Fin 2 → Nat) a + S4000x14.size a ≤ S4000x14.size a
  h_S4000x14 : 0 < S4000x14.numel
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  inb_S4000x50_S4000x50_0_0 : ∀ a, (![0, 0] : Fin 2 → Nat) a + S4000x50.size a ≤ S4000x50.size a
  h_S4000x50 : 0 < S4000x50.numel
  shapeCasts_S4000x50_S4000x50 : S4000x50.ShapeCasts S4000x50
  inb_S14x32_S14x32_0_0 : ∀ a, (![0, 0] : Fin 2 → Nat) a + S14x32.size a ≤ S14x32.size a
  h_S14x32 : 0 < S14x32.numel
  shapeCasts_S14x32_S14x32 : S14x32.ShapeCasts S14x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S14x50_S14x50_0_0 : ∀ a, (![0, 0] : Fin 2 → Nat) a + S14x50.size a ≤ S14x50.size a
  h_S14x50 : 0 < S14x50.numel
  shapeCasts_S14x50_S14x50 : S14x50.ShapeCasts S14x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x32_S4000x32 : S1x32.Broadcasts S4000x32
  packedbf16_S4000x32_S4000x32_0_0 : (Rect.unit (s := S4000x32) ![0, 0] S4000x32.size inb_S4000x32_S4000x32_0_0).PackedRows (EltTy.packing .bf16)
  broadcasts_S1x50_S4000x50 : S1x50.Broadcasts S4000x50
  bcast_S_S100000x32 : S_.BroadcastsInDim S100000x32 (![] : Fin 0 → Fin S100000x32.rank)
  shapeCasts_S5000x32_S5000x32 : S5000x32.ShapeCasts S5000x32
  inb_S32x50_S32x50_0_0 : ∀ a, (![0, 0] : Fin 2 → Nat) a + S32x50.size a ≤ S32x50.size a
  h_S32x50 : 0 < S32x50.numel
  shapeCasts_S32x50_S32x50 : S32x50.ShapeCasts S32x50
  broadcasts_S1x50_S5000x50 : S1x50.Broadcasts S5000x50
  dot_S5000x75_S75x32_S5000x32_1_0_0_1_n_n_wf : DotDims.WF S5000x75 S75x32 S5000x32 [1] [0] [0] [1] [] []
  dot_S5000x75_S75x50_S5000x50_1_0_0_1_n_n_wf : DotDims.WF S5000x75 S75x50 S5000x50 [1] [0] [0] [1] [] []
  gather_S100000x32_S1600000x1_S1600000x32_1_0_n_n_0_1_132_wf : GatherDims.WF S100000x32 S1600000x1 S1600000x32 [1] [0] [] [0] [] 1 ![1, 32]
  gather_S100000x50_S1600000x1_S1600000x50_1_0_n_n_0_1_150_wf : GatherDims.WF S100000x50 S1600000x1 S1600000x50 [1] [0] [] [0] [] 1 ![1, 50]
  dot_S4000x14_S14x32_S4000x32_1_0_0_1_n_n_wf : DotDims.WF S4000x14 S14x32 S4000x32 [1] [0] [0] [1] [] []
  dot_S4000x14_S14x50_S4000x50_1_0_0_1_n_n_wf : DotDims.WF S4000x14 S14x50 S4000x50 [1] [0] [0] [1] [] []
  scatter_S100000x32_S1600000x1_S1600000x32_1_0_0_1_wf : ScatterDims.WF S100000x32 S1600000x1 S1600000x32 [1] [0] [0] 1
  dot_S5000x32_S32x50_S5000x50_1_0_0_1_n_n_wf : DotDims.WF S5000x32 S32x50 S5000x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x75.size a ≤ S100000x75.size a
  hwx0_0 : ∀ i : grid0.Coords, EltTy.bits .f32 = 32 ∨ (Rect.block (s := S100000x75) S5000x75.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S75x32.size a ≤ S75x32.size a
  hwx0_1 : ∀ i : grid0.Coords, EltTy.bits .bf16 = 32 ∨ (Rect.block (s := S75x32) S75x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S75x50.size a ≤ S75x50.size a
  hwx0_2 : ∀ i : grid0.Coords, EltTy.bits .bf16 = 32 ∨ (Rect.block (s := S75x50) S75x50.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .bf16 = 32 ∨ (Rect.block (s := S100000x32) S5000x32.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x50.size a ≤ S100000x50.size a
  hwx0_4 : ∀ i : grid0.Coords, EltTy.bits .bf16 = 32 ∨ (Rect.block (s := S100000x50) S5000x50.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x14.size a ≤ S1600000x14.size a
  hwx1_0 : ∀ i : grid1.Coords, EltTy.bits .f32 = 32 ∨ (Rect.block (s := S1600000x14) S4000x14.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x32.size a ≤ S1600000x32.size a
  hwx1_1 : ∀ i : grid1.Coords, EltTy.bits .bf16 = 32 ∨ (Rect.block (s := S1600000x32) S4000x32.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x50.size a ≤ S1600000x50.size a
  hwx1_2 : ∀ i : grid1.Coords, EltTy.bits .bf16 = 32 ∨ (Rect.block (s := S1600000x50) S4000x50.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x50.size a ≤ S1600000x50.size a
  hwx1_3 : ∀ i : grid1.Coords, EltTy.bits .bf16 = 32 ∨ (Rect.block (s := S1600000x50) S4000x50.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S14x32.size a ≤ S14x32.size a
  hwx1_4 : ∀ i : grid1.Coords, EltTy.bits .bf16 = 32 ∨ (Rect.block (s := S14x32) S14x32.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S14x50.size a ≤ S14x50.size a
  hwx1_6 : ∀ i : grid1.Coords, EltTy.bits .bf16 = 32 ∨ (Rect.block (s := S14x50) S14x50.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x50.size a ≤ S1x50.size a
  hwx1_7 : ∀ i : grid1.Coords, EltTy.bits .f32 = 32 ∨ (Rect.block (s := S1x50) S1x50.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S14x50.size a ≤ S14x50.size a
  hwx1_8 : ∀ i : grid1.Coords, EltTy.bits .bf16 = 32 ∨ (Rect.block (s := S14x50) S14x50.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x50.size a ≤ S1x50.size a
  hwx1_9 : ∀ i : grid1.Coords, EltTy.bits .f32 = 32 ∨ (Rect.block (s := S1x50) S1x50.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4000x32.size a ≤ S1600000x32.size a
  hwx1_10 : ∀ i : grid1.Coords, EltTy.bits .bf16 = 32 ∨ (Rect.block (s := S1600000x32) S4000x32.size (cc1_transform_10 i) (hinb1_10 i)).WholeWords (EltTy.packing .bf16)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S4000x50.size a ≤ S1600000x50.size a
  hwx1_11 : ∀ i : grid1.Coords, EltTy.bits .f32 = 32 ∨ (Rect.block (s := S1600000x50) S4000x50.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x75.size a ≤ S100000x75.size a
  hwx2_0 : ∀ i : grid2.Coords, EltTy.bits .f32 = 32 ∨ (Rect.block (s := S100000x75) S5000x75.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S100000x32.size a
  hwx2_1 : ∀ i : grid2.Coords, EltTy.bits .f32 = 32 ∨ (Rect.block (s := S100000x32) S5000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S75x50.size a ≤ S75x50.size a
  hwx2_2 : ∀ i : grid2.Coords, EltTy.bits .bf16 = 32 ∨ (Rect.block (s := S75x50) S75x50.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x50.size a ≤ S32x50.size a
  hwx2_3 : ∀ i : grid2.Coords, EltTy.bits .bf16 = 32 ∨ (Rect.block (s := S32x50) S32x50.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x50.size a ≤ S1x50.size a
  hwx2_4 : ∀ i : grid2.Coords, EltTy.bits .f32 = 32 ∨ (Rect.block (s := S1x50) S1x50.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S75x50.size a ≤ S75x50.size a
  hwx2_5 : ∀ i : grid2.Coords, EltTy.bits .bf16 = 32 ∨ (Rect.block (s := S75x50) S75x50.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x50.size a ≤ S1x50.size a
  hwx2_6 : ∀ i : grid2.Coords, EltTy.bits .f32 = 32 ∨ (Rect.block (s := S1x50) S1x50.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x50.size a ≤ S100000x50.size a
  hwx2_7 : ∀ i : grid2.Coords, EltTy.bits .f32 = 32 ∨ (Rect.block (s := S100000x50) S5000x50.size (cc2_transform_7 i) (hinb2_7 i)).WholeWords (EltTy.packing .f32)

variable [Facts₀]

def dot_S5000x75_S75x32_S5000x32_1_0_0_1_n_n : DotDims S5000x75 S75x32 S5000x32 where
  lhsContracting := [1]
  rhsContracting := [0]
  lhsNonContracting := [0]
  rhsNonContracting := [1]
  lhsBatch := []
  rhsBatch := []
  wf := dot_S5000x75_S75x32_S5000x32_1_0_0_1_n_n_wf
def dot_S5000x75_S75x50_S5000x50_1_0_0_1_n_n : DotDims S5000x75 S75x50 S5000x50 where
  lhsContracting := [1]
  rhsContracting := [0]
  lhsNonContracting := [0]
  rhsNonContracting := [1]
  lhsBatch := []
  rhsBatch := []
  wf := dot_S5000x75_S75x50_S5000x50_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def gather_S100000x50_S1600000x1_S1600000x50_1_0_n_n_0_1_150 : GatherDims S100000x50 S1600000x1 S1600000x50 where
  offsetDims := [1]
  collapsedSliceDims := [0]
  operandBatchingDims := []
  startIndicesBatchingDims := []
  startIndexMap := [0]
  indexVectorDim := 1
  sliceSizes := ![1, 50]
  wf := gather_S100000x50_S1600000x1_S1600000x50_1_0_n_n_0_1_150_wf
def dot_S4000x14_S14x32_S4000x32_1_0_0_1_n_n : DotDims S4000x14 S14x32 S4000x32 where
  lhsContracting := [1]
  rhsContracting := [0]
  lhsNonContracting := [0]
  rhsNonContracting := [1]
  lhsBatch := []
  rhsBatch := []
  wf := dot_S4000x14_S14x32_S4000x32_1_0_0_1_n_n_wf
def dot_S4000x14_S14x50_S4000x50_1_0_0_1_n_n : DotDims S4000x14 S14x50 S4000x50 where
  lhsContracting := [1]
  rhsContracting := [0]
  lhsNonContracting := [0]
  rhsNonContracting := [1]
  lhsBatch := []
  rhsBatch := []
  wf := dot_S4000x14_S14x50_S4000x50_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x50_S5000x50_1_0_0_1_n_n : DotDims S5000x32 S32x50 S5000x50 where
  lhsContracting := [1]
  rhsContracting := [0]
  lhsNonContracting := [0]
  rhsNonContracting := [1]
  lhsBatch := []
  rhsBatch := []
  wf := dot_S5000x32_S32x50_S5000x50_1_0_0_1_n_n_wf

abbrev win0_0 : Pipeline.Window sig grid0 :=
  Pipeline.Window.ofSpec (Memref.whole main_arg0) S5000x75.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S75x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S75x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23_0) S5000x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23_1) S5000x50.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S4000x14.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S4000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S4000x50.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S4000x50.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S14x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S14x50.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19) S1x50.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v12) S14x50.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v20) S1x50.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v45_0) S4000x32.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v45_1) S4000x50.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_arg0) S5000x75.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S75x50.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S32x50.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S1x50.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v17) S75x50.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v22) S1x50.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v50) S5000x50.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x75 : Shape := ⟨2, ![100000, 75]⟩
abbrev S1600000x14 : Shape := ⟨2, ![1600000, 14]⟩
abbrev S89x32 : Shape := ⟨2, ![89, 32]⟩
abbrev S32 : Shape := ⟨1, ![32]⟩
abbrev S107x50 : Shape := ⟨2, ![107, 50]⟩
abbrev S50 : Shape := ⟨1, ![50]⟩
abbrev S75x50 : Shape := ⟨2, ![75, 50]⟩
abbrev S89x50 : Shape := ⟨2, ![89, 50]⟩
abbrev S14x50 : Shape := ⟨2, ![14, 50]⟩
abbrev S1600000 : Shape := ⟨1, ![1600000]⟩
abbrev S1600000x2 : Shape := ⟨2, ![1600000, 2]⟩
abbrev S1600000x1 : Shape := ⟨2, ![1600000, 1]⟩
abbrev S_ : Shape := ⟨0, ![]⟩
abbrev S1600000x75 : Shape := ⟨2, ![1600000, 75]⟩
abbrev S1600000x89 : Shape := ⟨2, ![1600000, 89]⟩
abbrev S1600000x32 : Shape := ⟨2, ![1600000, 32]⟩
abbrev S1x32 : Shape := ⟨2, ![1, 32]⟩
abbrev S100000x32 : Shape := ⟨2, ![100000, 32]⟩
abbrev S100000x107 : Shape := ⟨2, ![100000, 107]⟩
abbrev S100000x50 : Shape := ⟨2, ![100000, 50]⟩
abbrev S1x50 : Shape := ⟨2, ![1, 50]⟩
abbrev S1600000x50 : Shape := ⟨2, ![1600000, 50]⟩

abbrev nBuf : Space → Nat
  | .hbm => 87
  | .vmem => 0
  | .smem => 0
  | _ => 0

abbrev bufTy : (tb : Table) → Fin (tcTables nBuf tb) → BufTy
  | .hbm, ⟨0, _⟩ => ⟨S100000x75, .f32⟩
  | .hbm, ⟨1, _⟩ => ⟨S1600000x14, .f32⟩
  | .hbm, ⟨2, _⟩ => ⟨S89x32, .f32⟩
  | .hbm, ⟨3, _⟩ => ⟨S32, .f32⟩
  | .hbm, ⟨4, _⟩ => ⟨S107x50, .f32⟩
  | .hbm, ⟨5, _⟩ => ⟨S50, .f32⟩
  | .hbm, ⟨6, _⟩ => ⟨S75x50, .f32⟩
  | .hbm, ⟨7, _⟩ => ⟨S50, .f32⟩
  | .hbm, ⟨8, _⟩ => ⟨S89x50, .f32⟩
  | .hbm, ⟨9, _⟩ => ⟨S50, .f32⟩
  | .hbm, ⟨10, _⟩ => ⟨S14x50, .f32⟩
  | .hbm, ⟨11, _⟩ => ⟨S50, .f32⟩
  | .hbm, ⟨12, _⟩ => ⟨S1600000, .i32⟩
  | .hbm, ⟨13, _⟩ => ⟨S1600000x2, .i32⟩
  | .hbm, ⟨14, _⟩ => ⟨S1600000x1, .i32⟩
  | .hbm, ⟨15, _⟩ => ⟨S1600000, .i32⟩
  | .hbm, ⟨16, _⟩ => ⟨S1600000x1, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x75, .f32⟩
  | .hbm, ⟨27, _⟩ => ⟨S1600000x89, .f32⟩
  | .hbm, ⟨28, _⟩ => ⟨S1600000x32, .f32⟩
  | .hbm, ⟨29, _⟩ => ⟨S1x32, .f32⟩
  | .hbm, ⟨30, _⟩ => ⟨S1600000x32, .f32⟩
  | .hbm, ⟨31, _⟩ => ⟨S1600000x32, .f32⟩
  | .hbm, ⟨32, _⟩ => ⟨S_, .f32⟩
  | .hbm, ⟨33, _⟩ => ⟨S1600000x32, .f32⟩
  | .hbm, ⟨34, _⟩ => ⟨S1600000x32, .f32⟩
  | .hbm, ⟨35, _⟩ => ⟨S_, .f32⟩
  | .hbm, ⟨36, _⟩ => ⟨S100000x32, .f32⟩
  | .hbm, ⟨37, _⟩ => ⟨S1600000x1, .i32⟩
  | .hbm, ⟨38, _⟩ => ⟨S100000x32, .f32⟩
  | .hbm, ⟨39, _⟩ => ⟨S100000x107, .f32⟩
  | .hbm, ⟨40, _⟩ => ⟨S100000x50, .f32⟩
  | .hbm, ⟨41, _⟩ => ⟨S1x50, .f32⟩
  | .hbm, ⟨42, _⟩ => ⟨S100000x50, .f32⟩
  | .hbm, ⟨43, _⟩ => ⟨S100000x50, .f32⟩
  | .hbm, ⟨44, _⟩ => ⟨S_, .f32⟩
  | .hbm, ⟨45, _⟩ => ⟨S100000x50, .f32⟩
  | .hbm, ⟨46, _⟩ => ⟨S100000x50, .f32⟩
  | .hbm, ⟨47, _⟩ => ⟨S100000x50, .f32⟩
  | .hbm, ⟨48, _⟩ => ⟨S1x50, .f32⟩
  | .hbm, ⟨49, _⟩ => ⟨S100000x50, .f32⟩
  | .hbm, ⟨50, _⟩ => ⟨S100000x50, .f32⟩
  | .hbm, ⟨51, _⟩ => ⟨S_, .f32⟩
  | .hbm, ⟨52, _⟩ => ⟨S100000x50, .f32⟩
  | .hbm, ⟨53, _⟩ => ⟨S100000x50, .f32⟩
  | .hbm, ⟨54, _⟩ => ⟨S100000x50, .f32⟩
  | .hbm, ⟨55, _⟩ => ⟨S_, .f32⟩
  | .hbm, ⟨56, _⟩ => ⟨S100000x50, .f32⟩
  | .hbm, ⟨57, _⟩ => ⟨S100000x50, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x75, .f32⟩
  | .hbm, ⟨67, _⟩ => ⟨S1600000x75, .f32⟩
  | .hbm, ⟨68, _⟩ => ⟨S1600000x89, .f32⟩
  | .hbm, ⟨69, _⟩ => ⟨S1600000x50, .f32⟩
  | .hbm, ⟨70, _⟩ => ⟨S1x50, .f32⟩
  | .hbm, ⟨71, _⟩ => ⟨S1600000x50, .f32⟩
  | .hbm, ⟨72, _⟩ => ⟨S1600000x50, .f32⟩
  | .hbm, ⟨73, _⟩ => ⟨S_, .f32⟩
  | .hbm, ⟨74, _⟩ => ⟨S1600000x50, .f32⟩
  | .hbm, ⟨75, _⟩ => ⟨S1600000x50, .f32⟩
  | .hbm, ⟨76, _⟩ => ⟨S1600000x50, .f32⟩
  | .hbm, ⟨77, _⟩ => ⟨S1x50, .f32⟩
  | .hbm, ⟨78, _⟩ => ⟨S1600000x50, .f32⟩
  | .hbm, ⟨79, _⟩ => ⟨S1600000x50, .f32⟩
  | .hbm, ⟨80, _⟩ => ⟨S_, .f32⟩
  | .hbm, ⟨81, _⟩ => ⟨S1600000x50, .f32⟩
  | .hbm, ⟨82, _⟩ => ⟨S1600000x50, .f32⟩
  | .hbm, ⟨83, _⟩ => ⟨S1600000x50, .f32⟩
  | .hbm, ⟨84, _⟩ => ⟨S_, .f32⟩
  | .hbm, ⟨85, _⟩ => ⟨S1600000x50, .f32⟩
  | .hbm, ⟨86, _⟩ => ⟨S1600000x50, .f32⟩
  | _, _ => ⟨S100000x75, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call0_cst : Ref sig .tc := ⟨.hbm, 32, rfl⟩
abbrev main_call0_v0 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call1_cst : Ref sig .tc := ⟨.hbm, 44, rfl⟩
abbrev main_call1_v0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call2_cst : Ref sig .tc := ⟨.hbm, 51, rfl⟩
abbrev main_call2_v0 : Ref sig .tc := ⟨.hbm, 52, rfl⟩
abbrev main_v30 : Ref sig .tc := ⟨.hbm, 53, rfl⟩
abbrev main_v31 : Ref sig .tc := ⟨.hbm, 54, rfl⟩
abbrev main_call3_cst : Ref sig .tc := ⟨.hbm, 55, rfl⟩
abbrev main_call3_v0 : Ref sig .tc := ⟨.hbm, 56, rfl⟩
abbrev main_v32 : Ref sig .tc := ⟨.hbm, 57, rfl⟩
abbrev main_c_1 : Ref sig .tc := ⟨.hbm, 58, rfl⟩
abbrev main_v33 : Ref sig .tc := ⟨.hbm, 59, rfl⟩
abbrev main_v34 : Ref sig .tc := ⟨.hbm, 60, rfl⟩
abbrev main_c_2 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call4_cst : Ref sig .tc := ⟨.hbm, 73, rfl⟩
abbrev main_call4_v0 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_call5_cst : Ref sig .tc := ⟨.hbm, 80, rfl⟩
abbrev main_call5_v0 : Ref sig .tc := ⟨.hbm, 81, rfl⟩
abbrev main_v51 : Ref sig .tc := ⟨.hbm, 82, rfl⟩
abbrev main_v52 : Ref sig .tc := ⟨.hbm, 83, rfl⟩
abbrev main_call6_cst : Ref sig .tc := ⟨.hbm, 84, rfl⟩
abbrev main_call6_v0 : Ref sig .tc := ⟨.hbm, 85, rfl⟩
abbrev main_v53 : Ref sig .tc := ⟨.hbm, 86, rfl⟩

abbrev nD : Nat := 1
abbrev τ : Topo := Topo.v7x

variable {F : FTy → Type} [FloatOps F]

class Facts₀ : Prop where
  slices_S1600000x2_S1600000x1_0_0 : S1600000x2.Slices ![0, 0] S1600000x1
  shapeCasts_S1600000x1_S1600000 : S1600000x1.ShapeCasts S1600000
  slices_S1600000x2_S1600000x1_0_1 : S1600000x2.Slices ![0, 1] S1600000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x14_S1600000x75_S1600000x89_d1 : Shape.Concatenates [S1600000x14, S1600000x75] S1600000x89 1
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S_S100000x32 : S_.BroadcastsInDim S100000x32 (![] : Fin 0 → Fin S100000x32.rank)
  concatenates_S100000x75_S100000x32_S100000x107_d1 : Shape.Concatenates [S100000x75, S100000x32] S100000x107 1
  bcast_S50_S1x50_1 : S50.BroadcastsInDim S1x50 (![1] : Fin 1 → Fin S1x50.rank)
  bcast_S1x50_S100000x50_0_1 : S1x50.BroadcastsInDim S100000x50 (![0, 1] : Fin 2 → Fin S100000x50.rank)
  bcast_S_S100000x50 : S_.BroadcastsInDim S100000x50 (![] : Fin 0 → Fin S100000x50.rank)
  bcast_S1x50_S1600000x50_0_1 : S1x50.BroadcastsInDim S1600000x50 (![0, 1] : Fin 2 → Fin S1600000x50.rank)
  bcast_S_S1600000x50 : S_.BroadcastsInDim S1600000x50 (![] : Fin 0 → Fin S1600000x50.rank)
  gather_S100000x75_S1600000x1_S1600000x75_1_0_n_n_0_1_175_wf : GatherDims.WF S100000x75 S1600000x1 S1600000x75 [1] [0] [] [0] [] 1 ![1, 75]
  dot_S1600000x89_S89x32_S1600000x32_1_0_0_1_n_n_wf : DotDims.WF S1600000x89 S89x32 S1600000x32 [1] [0] [0] [1] [] []
  scatter_S100000x32_S1600000x1_S1600000x32_1_0_0_1_wf : ScatterDims.WF S100000x32 S1600000x1 S1600000x32 [1] [0] [0] 1
  dot_S100000x107_S107x50_S100000x50_1_0_0_1_n_n_wf : DotDims.WF S100000x107 S107x50 S100000x50 [1] [0] [0] [1] [] []
  dot_S100000x75_S75x50_S100000x50_1_0_0_1_n_n_wf : DotDims.WF S100000x75 S75x50 S100000x50 [1] [0] [0] [1] [] []
  dot_S1600000x89_S89x50_S1600000x50_1_0_0_1_n_n_wf : DotDims.WF S1600000x89 S89x50 S1600000x50 [1] [0] [0] [1] [] []
  dot_S1600000x14_S14x50_S1600000x50_1_0_0_1_n_n_wf : DotDims.WF S1600000x14 S14x50 S1600000x50 [1] [0] [0] [1] [] []

variable [Facts₀]

def gather_S100000x75_S1600000x1_S1600000x75_1_0_n_n_0_1_175 : GatherDims S100000x75 S1600000x1 S1600000x75 where
  offsetDims := [1]
  collapsedSliceDims := [0]
  operandBatchingDims := []
  startIndicesBatchingDims := []
  startIndexMap := [0]
  indexVectorDim := 1
  sliceSizes := ![1, 75]
  wf := gather_S100000x75_S1600000x1_S1600000x75_1_0_n_n_0_1_175_wf
def dot_S1600000x89_S89x32_S1600000x32_1_0_0_1_n_n : DotDims S1600000x89 S89x32 S1600000x32 where
  lhsContracting := [1]
  rhsContracting := [0]
  lhsNonContracting := [0]
  rhsNonContracting := [1]
  lhsBatch := []
  rhsBatch := []
  wf := dot_S1600000x89_S89x32_S1600000x32_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x107_S107x50_S100000x50_1_0_0_1_n_n : DotDims S100000x107 S107x50 S100000x50 where
  lhsContracting := [1]
  rhsContracting := [0]
  lhsNonContracting := [0]
  rhsNonContracting := [1]
  lhsBatch := []
  rhsBatch := []
  wf := dot_S100000x107_S107x50_S100000x50_1_0_0_1_n_n_wf
def dot_S100000x75_S75x50_S100000x50_1_0_0_1_n_n : DotDims S100000x75 S75x50 S100000x50 where
  lhsContracting := [1]
  rhsContracting := [0]
  lhsNonContracting := [0]
  rhsNonContracting := [1]
  lhsBatch := []
  rhsBatch := []
  wf := dot_S100000x75_S75x50_S100000x50_1_0_0_1_n_n_wf
def dot_S1600000x89_S89x50_S1600000x50_1_0_0_1_n_n : DotDims S1600000x89 S89x50 S1600000x50 where
  lhsContracting := [1]
  rhsContracting := [0]
  lhsNonContracting := [0]
  rhsNonContracting := [1]
  lhsBatch := []
  rhsBatch := []
  wf := dot_S1600000x89_S89x50_S1600000x50_1_0_0_1_n_n_wf
def dot_S1600000x14_S14x50_S1600000x50_1_0_0_1_n_n : DotDims S1600000x14 S14x50 S1600000x50 where
  lhsContracting := [1]
  rhsContracting := [0]
  lhsNonContracting := [0]
  rhsNonContracting := [1]
  lhsBatch := []
  rhsBatch := []
  wf := dot_S1600000x14_S14x50_S1600000x50_1_0_0_1_n_n_wf

class Facts : Prop extends Facts₀ where

variable [Facts]
-- ==== Proof.KRun.lean ====
/-
  The idealized kernel's run, with every buffer it leaves NAMED.

  @main is six segments: a stretch of host operations, the projection kernel, a second stretch (the wrapped start
  indices and three row gathers), the pair kernel, a third stretch (the scatter-add of the messages) and the atom
  kernel. The contents of the TensorCore's buffers at each boundary are a fold from the launch memory: a host
  stretch applies its operations, a kernel region leaves each of its arrays at what its write-backs fold to and
  every other buffer as it found it. After the last segment every buffer that outlives a region holds the last
  fold's contents; the two results are among them.
-/
import proofs.«105599_j14705968022035_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every buffer that outlives a region at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.KRun

end
-- ==== Proof.Spec.lean ====
/-
  The layer's mathematics over plain arrays of extended reals, with no program in sight.

  An atom table `x0 : [N, 75]`, a pair table `x1 : [P, 14]` and two integer columns naming, for each pair, its two
  atoms. Every stage is a dense layer `relu (X · W + b)`; the layer's two outputs add two such stages and apply
  `relu` once more. The kernel computes the atom-side products BEFORE gathering rows (a row gather commutes with a
  product on the right, entry by entry) and splits each weight matrix along its contracted axis, so its sums are
  sums of two shorter sums where the reference has one sum over a concatenated row.

  This file fixes the vocabulary both sides are read into: matrices as functions on rank-2 indices, the product,
  a bias row added to every row, the three stage shapes, and the two
  laws that join the sides — a sum over `a + b` terms is the sum of its two stretches (true for all extended
  reals), and `(u + v) · w = u · w + v · w` summed over a finite index (true when the entries are real numbers,
  false at infinities of opposite sign).
-/
import Idealize.ShloMosaic.PureOps.Ideal
import Idealize.ShloMosaic.Lib.ValueIdx

noncomputable section

open scoped BigOperators

namespace Cert.AtomPair

open Idealize.ShloMosaic Idealize.ShloMosaic.ValueIdx

/-- A matrix of extended reals, as a function on rank-2 indices of literal extents. -/
abbrev Mat (r c : Nat) : Type := (⟨2, ![r, c]⟩ : Shape).Idx → EReal
/-- A vector of extended reals. -/
abbrev Vc (c : Nat) : Type := (⟨1, ![c]⟩ : Shape).Idx → EReal

/-- The row coordinate of a rank-2 index, typed by the literal extent. -/
abbrev rw0 {r c : Nat} (i : (⟨2, ![r, c]⟩ : Shape).Idx) : Fin r := ⟨(i 0).val, idx2_lt0 i⟩
/-- The column coordinate of a rank-2 index, typed by the literal extent. -/
abbrev cl1 {r c : Nat} (i : (⟨2, ![r, c]⟩ : Shape).Idx) : Fin c := ⟨(i 1).val, idx2_lt1 i⟩

/-- The zero every `relu` compares with: the word of `+0.0` read as an extended real (never evaluated: the same
    word stands on both sides). -/
def z : EReal := Ideal.ofBits .f32 0x00000000#32

/-- The matrix product, entry by entry: `(X · W)[r, q] = ∑ k, X[r, k] · W[k, q]`. -/
def mm {R K C : Nat} (X : Mat R K) (W : Mat K C) : Mat R C :=
  fun i => ∑ k : Fin K, X (ix2 (rw0 i) k) * W (ix2 k (cl1 i))

/-- The pair-to-atom message of one pair: `relu ((PF · W)[p, q] + G[p, q] + b[0, q])`, `G` the gathered
    atom-side product. -/
def pairMsg {P : Nat} (PF : Mat P 14) (G : Mat P 32) (W : Mat 14 32) (b : Mat 1 32) : Mat P 32 :=
  fun i => max (mm PF W i + G i + b (ix2 0 (cl1 i))) z

/-- The pair update: `relu (relu ((PF · W)[p, q] + GI[p, q] + GJ[p, q] + b[0, q]) + relu ((PF · W')[p, q] + b'[0, q]))`. -/
def pairOut {P : Nat} (PF : Mat P 14) (GJ GI : Mat P 50) (W : Mat 14 50) (b : Mat 1 50) (W' : Mat 14 50) (b' : Mat 1 50) :
    Mat P 50 :=
  fun i => max (max (mm PF W i + GI i + GJ i + b (ix2 0 (cl1 i))) z + max (mm PF W' i + b' (ix2 0 (cl1 i))) z) z

/-- The atom update: `relu (relu ((AF · W)[r, q] + (S · W₂)[r, q] + b[0, q]) + relu ((AF · W')[r, q] + b'[0, q]))`,
    `S` the summed messages. -/
def atomOut {N : Nat} (AF : Mat N 75) (S : Mat N 32) (W : Mat 75 50) (W₂ : Mat 32 50) (b : Mat 1 50) (W' : Mat 75 50)
    (b' : Mat 1 50) : Mat N 50 :=
  fun i => max (max (mm AF W i + mm S W₂ i + b (ix2 0 (cl1 i))) z + max (mm AF W' i + b' (ix2 0 (cl1 i))) z) z

/-! ## The two laws -/

/-- A sum over `a + b` terms is the sum of its first `a` and its last `b` terms — in any commutative monoid, so for
    all extended reals. -/
theorem sum_two_stretches {a b : Nat} (f : Fin (a + b) → EReal) :
    ∑ k : Fin (a + b), f k = ∑ k : Fin a, f (Fin.castAdd b k) + ∑ k : Fin b, f (Fin.natAdd a k) :=
  Fin.sum_univ_add f

/-- `(u + v) · w = u · w + v · w` when all three are real numbers. -/
theorem add_mul_of_real {u v w : EReal} (hu : u ≠ ⊤) (hu' : u ≠ ⊥) (hv : v ≠ ⊤) (hv' : v ≠ ⊥) (hw : w ≠ ⊤) (hw' : w ≠ ⊥) :
    (u + v) * w = u * w + v * w := by
  lift u to ℝ using ⟨hu, hu'⟩
  lift v to ℝ using ⟨hv, hv'⟩
  lift w to ℝ using ⟨hw, hw'⟩
  rw [← EReal.coe_add, ← EReal.coe_mul, ← EReal.coe_mul, ← EReal.coe_mul, ← EReal.coe_add, add_mul]

/-- The same under a finite sum: a product with a sum of two real rows is the sum of the two products. -/
theorem sum_add_mul_of_real {n : Nat} (u v w : Fin n → EReal)
    (hu : ∀ k, u k ≠ ⊤ ∧ u k ≠ ⊥) (hv : ∀ k, v k ≠ ⊤ ∧ v k ≠ ⊥) (hw : ∀ k, w k ≠ ⊤ ∧ w k ≠ ⊥) :
    ∑ k, (u k + v k) * w k = ∑ k, u k * w k + ∑ k, v k * w k := by
  rw [← Finset.sum_add_distrib]
  exact Finset.sum_congr rfl fun k _ =>
    add_mul_of_real (hu k).1 (hu k).2 (hv k).1 (hv k).2 (hw k).1 (hw k).2

end Cert.AtomPair

end
-- ==== Proof.KTerms.lean ====
/-
  What the kernel's program computes, as named functions of the argument arrays.

  Between its three kernels the program applies a few host operations: it cuts each weight matrix into the rows that
  meet the pair features and the rows that meet the atom features, reshapes each bias vector to a row, wraps the
  two integer columns (a negative index counts from the end) and uses them as start indices of three row gathers,
  and sums the messages into their source atoms. Here each of those terms has a name, spelled with the program's
  own operations, and the two results are their composition with the three kernels' whole-array functions.
-/
import proofs.«105599_j14705968022035_2_alg».proof.Proof.Gen.KernelIdeal
import proofs.«105599_j14705968022035_2_alg».proof.Proof.Spec

noncomputable section

namespace Cert.KernelIdeal.KT

open Cert.KernelIdeal Cert.KernelIdeal.Facts₀ Cert.AtomPair Idealize.ShloMosaic

/-! ## The weight matrices' two stretches of rows, and the bias rows -/

/-- Rows 0…13 of the message weights: the rows the pair features meet. -/
def wpaP (x2 : FVec Ideal S89x32 .f32) : FVec Ideal S14x32 .bf16 :=
  truncf .bf16 (extractStridedSlice S14x32 ![0, 0] x2 slices_S89x32_S14x32_0_0) bitsLt_bf16_f32
/-- Rows 14…88 of the message weights: the rows the atom features meet. -/
def wpaA (x2 : FVec Ideal S89x32 .f32) : FVec Ideal S75x32 .bf16 :=
  truncf .bf16 (extractStridedSlice S75x32 ![14, 0] x2 slices_S89x32_S75x32_14_0) bitsLt_bf16_f32
/-- Rows 0…13 of the pair-update weights. -/
def wapP (x8 : FVec Ideal S89x50 .f32) : FVec Ideal S14x50 .bf16 :=
  truncf .bf16 (extractStridedSlice S14x50 ![0, 0] x8 slices_S89x50_S14x50_0_0) bitsLt_bf16_f32
/-- Rows 14…88 of the pair-update weights. -/
def wapA (x8 : FVec Ideal S89x50 .f32) : FVec Ideal S75x50 .bf16 :=
  truncf .bf16 (extractStridedSlice S75x50 ![14, 0] x8 slices_S89x50_S75x50_14_0) bitsLt_bf16_f32
/-- The pair-to-pair weights, whole. -/
def wpp (x10 : FVec Ideal S14x50 .f32) : FVec Ideal S14x50 .bf16 := truncf .bf16 x10 bitsLt_bf16_f32
/-- Rows 0…74 of the atom-update weights: the rows the atom features meet. -/
def waoA (x4 : FVec Ideal S107x50 .f32) : FVec Ideal S75x50 .bf16 :=
  truncf .bf16 (extractStridedSlice S75x50 ![0, 0] x4 slices_S107x50_S75x50_0_0) bitsLt_bf16_f32
/-- Rows 75…106 of the atom-update weights: the rows the summed messages meet. -/
def waoP (x4 : FVec Ideal S107x50 .f32) : FVec Ideal S32x50 .bf16 :=
  truncf .bf16 (extractStridedSlice S32x50 ![75, 0] x4 slices_S107x50_S32x50_75_0) bitsLt_bf16_f32
/-- The atom-to-atom weights, whole. -/
def waa (x6 : FVec Ideal S75x50 .f32) : FVec Ideal S75x50 .bf16 := truncf .bf16 x6 bitsLt_bf16_f32
/-- A bias vector of 32 entries as a row. -/
def row32 (x : FVec Ideal S32 .f32) : FVec Ideal S1x32 .f32 := shapeCast S1x32 x shapeCasts_S32_S1x32
/-- A bias vector of 50 entries as a row. -/
def row50 (x : FVec Ideal S50 .f32) : FVec Ideal S1x50 .f32 := shapeCast S1x50 x shapeCasts_S50_S1x50

/-! ## The two integer columns, and the start indices made of them -/

/-- The first column: each pair's source atom. -/
def colI (x13 : IVec S1600000x2 32) : IVec S1600000 32 :=
  shapeCast S1600000 (extractStridedSlice S1600000x1 ![0, 0] x13 slices_S1600000x2_S1600000x1_0_0) shapeCasts_S1600000x1_S1600000
/-- The second column: each pair's other atom. -/
def colJ (x13 : IVec S1600000x2 32) : IVec S1600000 32 :=
  shapeCast S1600000 (extractStridedSlice S1600000x1 ![0, 1] x13 slices_S1600000x2_S1600000x1_0_1) shapeCasts_S1600000x1_S1600000
/-- A column as gather start indices: a negative entry has the table's height added, then one index per row. -/
def wrapIdx (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)
/-- A column as scatter indices: one index per row, unwrapped. -/
def colIdx (v : IVec S1600000 32) : IVec S1600000x1 32 :=
  broadcastInDim S1600000x1 ![0] bcast_S1600000_S1600000x1_0 v

/-! ## The values between the kernels -/

/-- The atom features times the atom rows of the message weights: what the first kernel writes first. -/
def projPa (x0 : FVec Ideal S100000x75 .f32) (x2 : FVec Ideal S89x32 .f32) : FVec Ideal S100000x32 .bf16 :=
  mm x0 (wpaA x2)
/-- The atom features times the atom rows of the pair-update weights: what the first kernel writes second. -/
def projAp (x0 : FVec Ideal S100000x75 .f32) (x8 : FVec Ideal S89x50 .f32) : FVec Ideal S100000x50 .bf16 :=
  mm x0 (wapA x8)
/-- The first product's rows at each pair's other atom. -/
def gjpa (x0 : FVec Ideal S100000x75 .f32) (x2 : FVec Ideal S89x32 .f32) (x13 : IVec S1600000x2 32) :
    FVec Ideal S1600000x32 .bf16 :=
  Host.gather gather_S100000x32_S1600000x1_S1600000x32_1_0_n_n_0_1_132 (projPa x0 x2) (wrapIdx (colJ x13))
/-- The second product's rows at each pair's other atom. -/
def gjap (x0 : FVec Ideal S100000x75 .f32) (x8 : FVec Ideal S89x50 .f32) (x13 : IVec S1600000x2 32) :
    FVec Ideal S1600000x50 .bf16 :=
  Host.gather gather_S100000x50_S1600000x1_S1600000x50_1_0_n_n_0_1_150 (projAp x0 x8) (wrapIdx (colJ x13))
/-- The second product's rows at each pair's source atom. -/
def giap (x0 : FVec Ideal S100000x75 .f32) (x8 : FVec Ideal S89x50 .f32) (x13 : IVec S1600000x2 32) :
    FVec Ideal S1600000x50 .bf16 :=
  Host.gather gather_S100000x50_S1600000x1_S1600000x50_1_0_n_n_0_1_150 (projAp x0 x8) (wrapIdx (colI x13))
/-- The messages: what the second kernel writes first. -/
def msg (x0 : FVec Ideal S100000x75 .f32) (x1 : FVec Ideal S1600000x14 .f32) (x2 : FVec Ideal S89x32 .f32)
    (x3 : FVec Ideal S32 .f32) (x13 : IVec S1600000x2 32) : FVec Ideal S1600000x32 .bf16 :=
  pairMsg x1 (gjpa x0 x2 x13) (wpaP x2) (row32 x3)
/-- THE PAIR RESULT: what the second kernel writes second. -/
def pairRes (x0 : FVec Ideal S100000x75 .f32) (x1 : FVec Ideal S1600000x14 .f32) (x8 : FVec Ideal S89x50 .f32)
    (x9 : FVec Ideal S50 .f32) (x10 : FVec Ideal S14x50 .f32) (x11 : FVec Ideal S50 .f32) (x13 : IVec S1600000x2 32) :
    FVec Ideal S1600000x50 .f32 :=
  pairOut x1 (gjap x0 x8 x13) (giap x0 x8 x13) (wapP x8) (row50 x9) (wpp x10) (row50 x11)
/-- The messages summed into their source atoms. -/
def sums (x0 : FVec Ideal S100000x75 .f32) (x1 : FVec Ideal S1600000x14 .f32) (x2 : FVec Ideal S89x32 .f32)
    (x3 : FVec Ideal S32 .f32) (x13 : IVec S1600000x2 32) : FVec Ideal S100000x32 .f32 :=
  Host.scatterAdd scatter_S100000x32_S1600000x1_S1600000x32_1_0_0_1
    (broadcastInDim S100000x32 ![] bcast_S_S100000x32 (constant S_ .f32 0x00000000#32))
    (colIdx (colI x13)) (extf .f32 (msg x0 x1 x2 x3 x13) bitsLt_bf16_f32)
/-- THE ATOM RESULT: what the third kernel writes. -/
def atomRes (x0 : FVec Ideal S100000x75 .f32) (x1 : FVec Ideal S1600000x14 .f32) (x2 : FVec Ideal S89x32 .f32)
    (x3 : FVec Ideal S32 .f32) (x4 : FVec Ideal S107x50 .f32) (x5 : FVec Ideal S50 .f32) (x6 : FVec Ideal S75x50 .f32)
    (x7 : FVec Ideal S50 .f32) (x13 : IVec S1600000x2 32) : FVec Ideal S100000x50 .f32 :=
  atomOut x0 (sums x0 x1 x2 x3 x13) (waoA x4) (waoP x4) (row50 x5) (waa x6) (row50 x7)

end Cert.KernelIdeal.KT

end
-- ==== Proof.LibMatmulIdx.lean ====
/-
  A PLAIN MATRIX PRODUCT into the zero accumulator, read at an entry.

  For the dimension numbers of `M×K` by `K×N` (contract the left operand's axis 1 with the right's axis 0, no batch
  axis) the product accumulated into the splat of `+0.0` is, at the exact instance and at entry `(p, c)`, the plain sum
  `∑ k, lhs[p, k] · rhs[k, c]` over the one contracted coordinate — whatever float formats the operands carry, a
  change of format being the identity on extended reals.
-/
import Idealize.ShloMosaic.PureOps.Ideal.Laws
import Idealize.ShloMosaic.Lib.ValueIdx

noncomputable section

open scoped BigOperators

namespace Cert.MatmulIdx

open Idealize.ShloMosaic Idealize.ShloMosaic.ValueIdx

/-- The left operand's row coordinate is the output entry's. -/
theorem plain_lhs0 {M K N : Nat} (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬ (0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the output entry's. -/
theorem plain_rhs1 {M K N : Nat} (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬ (1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The left operand's index at output entry `(p, c)` and contracted coordinate `k` is `(p, k)`. -/
theorem plain_lhsIdx {M K N : Nat} (p : Fin M) (c : Fin N) (k : Fin K) :
    (DotDims.plain M K N).lhsIdx (ix2 p c) ((contrEquiv1 (DotDims.plain M K N) K rfl rfl).symm k) = ix2 p k :=
  funext fun a => Fin.ext (by
    match a with
    | ⟨0, _⟩ => exact plain_lhs0 _ _
    | ⟨1, _⟩ =>
      exact ((DotDims.plain M K N).lhsIdx_val_of_single rfl _ _).trans
        (contrEquiv1_symm_val (DotDims.plain M K N) K rfl rfl k))

/-- The right operand's index at output entry `(p, c)` and contracted coordinate `k` is `(k, c)`. -/
theorem plain_rhsIdx {M K N : Nat} (p : Fin M) (c : Fin N) (k : Fin K) :
    (DotDims.plain M K N).rhsIdx (ix2 p c) ((contrEquiv1 (DotDims.plain M K N) K rfl rfl).symm k) = ix2 k c :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => exact plain_rhs1 _ _)

/-- THE PRODUCT READ AT `(p, c)`: the sum over the contracted coordinate of the operands' products. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (c : Fin N) :
    FloatOps.matmul (DotDims.plain M K N) prec lhs rhs (constant ⟨2, ![M, N]⟩ .f32 0x00000000#32) (ix2 p c)
      = ∑ k : Fin K, lhs (ix2 p k) * rhs (ix2 k c) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.MatmulIdx

end
-- ==== Proof.ProjRegion.lean ====
/-
  The projection kernel's two output arrays, each as ONE function of the arrays the region finds.

  The grid has 20 points; point `t` reads rows `5000·t … 5000·t + 4999` of the atom table and the whole of two
  weight matrices, and writes the same rows of the two products. A block's entry `(p, q)` is
  `∑ k, block[p, k] · W[k, q]`, the block's row `p` being the table's row `5000·t + p`; so every point writes ITS rows
  of the whole product `X · W`, and the row blocks tile the array.
-/
import proofs.«105599_j14705968022035_2_alg».proof.Proof.Gen.KernelIdeal.Frame
import proofs.«105599_j14705968022035_2_alg».proof.Proof.Spec
import proofs.«105599_j14705968022035_2_alg».proof.Proof.LibMatmulIdx
import Idealize.ShloMosaic.Lib.Pipeline.Value
import Idealize.ShloMosaic.Lib.ValueIdx

set_option maxRecDepth 16384

noncomputable section

open scoped BigOperators

namespace Cert.KernelIdeal.ProjRegion

open Cert.KernelIdeal Cert.KernelIdeal.Gen Cert.AtomPair
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- An array the region finds, read as a matrix of extended reals (the identity: it only fixes the entry type). -/
abbrev asMat {r k : Nat} (f : Mat r k) : Mat r k := f

/-! ## The body's two stored values at an entry -/

/-- The first stored block at `y`: row `y 0` of the loaded rows times column `y 1` of the first weight matrix. -/
theorem pay_pa (x0 : Vec Ideal S5000x75 .f32) (x1 : Vec Ideal S75x32 .bf16) (y : S5000x32.Idx) :
    k0_pay2 x0 x1 y = ∑ k : Fin 75, x0 (ix2 (rw0 y) k) * x1 (ix2 k (cl1 y)) := by
  obtain ⟨p, q, rfl⟩ : ∃ (p : Fin 5000) (q : Fin 32), y = ix2 p q := ⟨y 0, y 1, eq_ix2 y⟩
  unfold k0_pay2 k0_pay1
  dsimp only
  rw [shapeCast_self]
  exact Cert.MatmulIdx.matmul_plain_zero_apply (φ₁ := .bf16) (φ₂ := .bf16) none (truncf .bf16 x0 bitsLt_bf16_f32) x1 p q

/-- The second stored block at `y`, the same with the second weight matrix. -/
theorem pay_ap (x0 : Vec Ideal S5000x75 .f32) (x2 : Vec Ideal S75x50 .bf16) (y : S5000x50.Idx) :
    k0_pay3 x0 x2 y = ∑ k : Fin 75, x0 (ix2 (rw0 y) k) * x2 (ix2 k (cl1 y)) := by
  obtain ⟨p, q, rfl⟩ : ∃ (p : Fin 5000) (q : Fin 50), y = ix2 p q := ⟨y 0, y 1, eq_ix2 y⟩
  unfold k0_pay3 k0_pay1
  dsimp only
  rw [shapeCast_self]
  exact Cert.MatmulIdx.matmul_plain_zero_apply (φ₁ := .bf16) (φ₂ := .bf16) none (truncf .bf16 x0 bitsLt_bf16_f32) x2 p q

/-! ## Where each window's block sits at a point -/

/-- The printed index maps over the 20 points: the row-tiled windows sit at block row `t`, the weight windows at
    the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## What a point writes back -/

/-- Point `t` writes back its rows of `X · W`, `X` the atom table and `W` the first weight matrix as the region finds
    them. -/
theorem flushed_pa (c : Dev nD) (t : Fin cfg0.N) :
    (dat0 (F := Ideal) V c).flushed 3 t
      = ((cfg0.win 3).blk t).view.read (Elt Ideal) (mm (V c main_arg0) (V c main_v7)) := by
  show (cfg0.win 3).cut (grid0.coords t) ((dat0 (F := Ideal) V c).after 3 t) = _
  rw [after0_3]
  unfold out0_3
  rw [View.canon_unit_zero hz]
  simp only [View.ld_unit_zero (S := S5000x75) hz, View.ld_unit_zero (S := S75x32) hz]
  obtain ⟨e00, e01, e10, e11, e20, e21, e30, e31, e40, e41⟩ := idx_facts t
  funext y
  refine (pay_pa (iblk0 V c 0 t) (iblk0 V c 1 t) y).trans ?_
  show ∑ k : Fin 75, asMat (r := 100000) (k := 75) (V c main_arg0) (((cfg0.win 0).blk t).view.emb (ix2 (rw0 y) k))
        * asMat (r := 75) (k := 32) (V c main_v7) (((cfg0.win 1).blk t).view.emb (ix2 k (cl1 y)))
      = ∑ k : Fin 75, asMat (r := 100000) (k := 75) (V c main_arg0) (ix2 (rw0 (((cfg0.win 3).blk t).view.emb y)) k)
        * asMat (r := 75) (k := 32) (V c main_v7) (ix2 k (cl1 (((cfg0.win 3).blk t).view.emb y)))
  refine Finset.sum_congr rfl fun k _ => ?_
  have h0 : ((cfg0.win 0).blk t).view.emb (ix2 (rw0 y) k) = ix2 (rw0 (((cfg0.win 3).blk t).view.emb y)) k := by
    funext a; apply Fin.ext
    match a with
    | ⟨0, _⟩ =>
      show win0_0.index t (0 : Fin 2) * 5000 + 1 * (y 0).val = win0_3.index t (0 : Fin 2) * 5000 + 1 * (y 0).val
      omega
    | ⟨1, _⟩ =>
      show win0_0.index t (1 : Fin 2) * 75 + 1 * k.val = k.val
      omega
  have h1 : ((cfg0.win 1).blk t).view.emb (ix2 k (cl1 y)) = ix2 k (cl1 (((cfg0.win 3).blk t).view.emb y)) := by
    funext a; apply Fin.ext
    match a with
    | ⟨0, _⟩ =>
      show win0_1.index t (0 : Fin 2) * 75 + 1 * k.val = k.val
      omega
    | ⟨1, _⟩ =>
      show win0_1.index t (1 : Fin 2) * 32 + 1 * (y 1).val = win0_3.index t (1 : Fin 2) * 32 + 1 * (y 1).val
      omega
  rw [h0, h1]

/-- Point `t` writes back its rows of `X · W'`, `W'` the second weight matrix. -/
theorem flushed_ap (c : Dev nD) (t : Fin cfg0.N) :
    (dat0 (F := Ideal) V c).flushed 4 t
      = ((cfg0.win 4).blk t).view.read (Elt Ideal) (mm (V c main_arg0) (V c main_v11)) := by
  show (cfg0.win 4).cut (grid0.coords t) ((dat0 (F := Ideal) V c).after 4 t) = _
  rw [after0_4]
  unfold out0_4
  rw [View.canon_unit_zero hz]
  simp only [View.ld_unit_zero (S := S5000x75) hz, View.ld_unit_zero (S := S75x50) hz]
  obtain ⟨e00, e01, e10, e11, e20, e21, e30, e31, e40, e41⟩ := idx_facts t
  funext y
  refine (pay_ap (iblk0 V c 0 t) (iblk0 V c 2 t) y).trans ?_
  show ∑ k : Fin 75, asMat (r := 100000) (k := 75) (V c main_arg0) (((cfg0.win 0).blk t).view.emb (ix2 (rw0 y) k))
        * asMat (r := 75) (k := 50) (V c main_v11) (((cfg0.win 2).blk t).view.emb (ix2 k (cl1 y)))
      = ∑ k : Fin 75, asMat (r := 100000) (k := 75) (V c main_arg0) (ix2 (rw0 (((cfg0.win 4).blk t).view.emb y)) k)
        * asMat (r := 75) (k := 50) (V c main_v11) (ix2 k (cl1 (((cfg0.win 4).blk t).view.emb y)))
  refine Finset.sum_congr rfl fun k _ => ?_
  have h0 : ((cfg0.win 0).blk t).view.emb (ix2 (rw0 y) k) = ix2 (rw0 (((cfg0.win 4).blk t).view.emb y)) k := by
    funext a; apply Fin.ext
    match a with
    | ⟨0, _⟩ =>
      show win0_0.index t (0 : Fin 2) * 5000 + 1 * (y 0).val = win0_4.index t (0 : Fin 2) * 5000 + 1 * (y 0).val
      omega
    | ⟨1, _⟩ =>
      show win0_0.index t (1 : Fin 2) * 75 + 1 * k.val = k.val
      omega
  have h1 : ((cfg0.win 2).blk t).view.emb (ix2 k (cl1 y)) = ix2 k (cl1 (((cfg0.win 4).blk t).view.emb y)) := by
    funext a; apply Fin.ext
    match a with
    | ⟨0, _⟩ =>
      show win0_2.index t (0 : Fin 2) * 75 + 1 * k.val = k.val
      omega
    | ⟨1, _⟩ =>
      show win0_2.index t (1 : Fin 2) * 50 + 1 * (y 1).val = win0_4.index t (1 : Fin 2) * 50 + 1 * (y 1).val
      omega
  rw [h0, h1]

/-! ## The row blocks tile each output array -/

theorem mem_blk3 (t : Fin cfg0.N) (i : S100000x32.Idx) :
    i ∈ ((cfg0.win 3).blk t).view.set ↔ ∀ a : Fin 2, win0_3.index t a * S5000x32.size a ≤ (i a).val
      ∧ (i a).val < win0_3.index t a * S5000x32.size a + S5000x32.size a := by
  show i ∈ ((View.whole main_v23_0).slice (win0_3.rect t)).set ↔ _
  rw [View.set_slice_whole, Rect.mem_set_unit]
  exact Iff.rfl

theorem mem_blk4 (t : Fin cfg0.N) (i : S100000x50.Idx) :
    i ∈ ((cfg0.win 4).blk t).view.set ↔ ∀ a : Fin 2, win0_4.index t a * S5000x50.size a ≤ (i a).val
      ∧ (i a).val < win0_4.index t a * S5000x50.size a + S5000x50.size a := by
  show i ∈ ((View.whole main_v23_1).slice (win0_4.rect t)).set ↔ _
  rw [View.set_slice_whole, Rect.mem_set_unit]
  exact Iff.rfl

/-- Row `r` of the first output lies in the block of point `r / 5000`. -/
theorem cover3 (i : S100000x32.Idx) :
    ∃ t : Fin cfg0.N, (cfg0.win 3).flush t = true ∧ i ∈ ((cfg0.win 3).blk t).view.set := by
  have hN : cfg0.N = 20 := N_0
  have hi0 : (i 0).val < 100000 := (i 0).isLt
  have hi1 : (i 1).val < 32 := (i 1).isLt
  obtain ⟨t, ht⟩ : ∃ t : Fin cfg0.N, t.val = (i 0).val / 5000 := ⟨⟨(i 0).val / 5000, by omega⟩, rfl⟩
  obtain ⟨e00, e01, e10, e11, e20, e21, e30, e31, e40, e41⟩ := idx_facts t
  refine ⟨t, flush0_3 t, ?_⟩
  rw [mem_blk3]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 32 ≤ (i 1).val ∧ (i 1).val < win0_3.index t (1 : Fin 2) * 32 + 32
    omega

/-- Row `r` of the second output lies in the block of point `r / 5000`. -/
theorem cover4 (i : S100000x50.Idx) :
    ∃ t : Fin cfg0.N, (cfg0.win 4).flush t = true ∧ i ∈ ((cfg0.win 4).blk t).view.set := by
  have hN : cfg0.N = 20 := N_0
  have hi0 : (i 0).val < 100000 := (i 0).isLt
  have hi1 : (i 1).val < 50 := (i 1).isLt
  obtain ⟨t, ht⟩ : ∃ t : Fin cfg0.N, t.val = (i 0).val / 5000 := ⟨⟨(i 0).val / 5000, by omega⟩, rfl⟩
  obtain ⟨e00, e01, e10, e11, e20, e21, e30, e31, e40, e41⟩ := idx_facts t
  refine ⟨t, flush0_4 t, ?_⟩
  rw [mem_blk4]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 50 ≤ (i 1).val ∧ (i 1).val < win0_4.index t (1 : Fin 2) * 50 + 50
    omega

/-! ## The two arrays after the region -/

/-- The first output array is the whole product `X · W`. -/
theorem pa_array (c : Dev nD) :
    (dat0 (F := Ideal) V c).arrAt 3 cfg0.N = mm (V c main_arg0) (V c main_v7) :=
  (dat0 (F := Ideal) V c).arrAt_eq_of_cover 3 _ (fun t _ => flushed_pa V c t) cover3

/-- The second output array is the whole product `X · W'`. -/
theorem ap_array (c : Dev nD) :
    (dat0 (F := Ideal) V c).arrAt 4 cfg0.N = mm (V c main_arg0) (V c main_v11) :=
  (dat0 (F := Ideal) V c).arrAt_eq_of_cover 4 _ (fun t _ => flushed_ap V c t) cover4

end Cert.KernelIdeal.ProjRegion

end
-- ==== Proof.PairRegion.lean ====
/-
  The pair kernel's region, read as whole-array functions.

  The region walks 400 grid points; point `t` reads rows `4000 t … 4000 t + 3999` of the pair features and of the
  three gathered tables, the whole of three weight tables and three bias rows, and writes the same rows of two
  outputs. Per entry the body computes a dense stage `relu (X · W + gathered + b)`: a sum over the 14 shared
  coordinates, the gathered entries added, a bias row added to every row, compared with zero; the second output adds
  two such stages and compares with zero once more. The roundings between the two float formats are the identity on
  extended reals, a cast to the same shape is the identity, and a row broadcast reads the row's entry of the column.

  Since a block's coordinate in its array is block index × block size + the coordinate inside the block, and the row
  windows all sit at block row `t` while the weight and bias windows sit at block (0, 0), what point `t` writes is
  block `t` of ONE function of the arrays — `pairMsg`, resp. `pairOut` — and the 400 blocks cover every row
  (row `r` lies in block `r / 4000`), so each output array ends as that function at every index.
-/
import proofs.«105599_j14705968022035_2_alg».proof.Proof.Gen.KernelIdeal.Frame
import proofs.«105599_j14705968022035_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.PairRegion

open Cert.KernelIdeal Cert.KernelIdeal.Gen Idealize.ShloMosaic Idealize.ShloMosaic.TcCoe Idealize.SL.Sem
open Idealize.ShloMosaic.ValueIdx
open Idealize.ShloMosaic.Pipeline (Dat)

/-! ## The two products, entry by entry -/

/-- The dimension numbers of the product of a block of 4000 pair rows with the [14, 32] weight table. -/
abbrev D32 : DotDims S4000x14 S14x32 S4000x32 := dot_S4000x14_S14x32_S4000x32_1_0_0_1_n_n
/-- The dimension numbers of the product of a block of 4000 pair rows with a [14, 50] weight table. -/
abbrev D50 : DotDims S4000x14 S14x50 S4000x50 := dot_S4000x14_S14x50_S4000x50_1_0_0_1_n_n

theorem D32_lhs0 (i : S4000x32.Idx) (k : D32.contr.Idx) : (D32.lhsIdx i k 0).val = (i 0).val := by
  unfold DotDims.lhsIdx
  rw [dif_neg (show ¬(0 : Fin S4000x14.rank) ∈ D32.lhsBatch by decide), dif_pos (show (0 : Fin S4000x14.rank) ∈ D32.lhsNonContracting by decide)]
  rfl
theorem D32_rhs1 (i : S4000x32.Idx) (k : D32.contr.Idx) : (D32.rhsIdx i k 1).val = (i 1).val := by
  unfold DotDims.rhsIdx
  rw [dif_neg (show ¬(1 : Fin S14x32.rank) ∈ D32.rhsBatch by decide), dif_pos (show (1 : Fin S14x32.rank) ∈ D32.rhsNonContracting by decide)]
  rfl
theorem D50_lhs0 (i : S4000x50.Idx) (k : D50.contr.Idx) : (D50.lhsIdx i k 0).val = (i 0).val := by
  unfold DotDims.lhsIdx
  rw [dif_neg (show ¬(0 : Fin S4000x14.rank) ∈ D50.lhsBatch by decide), dif_pos (show (0 : Fin S4000x14.rank) ∈ D50.lhsNonContracting by decide)]
  rfl
theorem D50_rhs1 (i : S4000x50.Idx) (k : D50.contr.Idx) : (D50.rhsIdx i k 1).val = (i 1).val := by
  unfold DotDims.rhsIdx
  rw [dif_neg (show ¬(1 : Fin S14x50.rank) ∈ D50.rhsBatch by decide), dif_pos (show (1 : Fin S14x50.rank) ∈ D50.rhsNonContracting by decide)]
  rfl

/-- An entry of the product of a [4000, 14] block with the [14, 32] table, accumulated into zero, is the sum over the
    14 shared coordinates. -/
theorem matmul32_apply (a : FVec Ideal S4000x14 .bf16) (w : FVec Ideal S14x32 .bf16) (p : Fin 4000) (q : Fin 32) :
    matmul D32 none a w (constant (F := Ideal) S4000x32 .f32 0x00000000#32) (ix2 p q)
      = ∑ k : Fin 14, a (ix2 p k) * w (ix2 k q) := by
  refine (Ideal.matmul_constant_zero_apply D32 none a w (ix2 p q)).trans ?_
  rw [← Equiv.sum_comp (contrEquiv1 D32 14 rfl rfl).symm]
  refine Finset.sum_congr rfl fun k _ => ?_
  have hk := contrEquiv1_symm_val D32 14 rfl rfl k
  have el : D32.lhsIdx (ix2 p q) ((contrEquiv1 D32 14 rfl rfl).symm k) = ix2 p k := funext fun a => Fin.ext (by
    match a with
    | ⟨0, _⟩ => exact D32_lhs0 _ _
    | ⟨1, _⟩ => exact (D32.lhsIdx_val_of_single rfl _ _).trans hk)
  have er : D32.rhsIdx (ix2 p q) ((contrEquiv1 D32 14 rfl rfl).symm k) = ix2 k q := funext fun a => Fin.ext (by
    match a with
    | ⟨0, _⟩ => exact (D32.rhsIdx_val_of_single rfl _ _).trans hk
    | ⟨1, _⟩ => exact D32_rhs1 _ _)
  rw [el, er]

/-- The same for a [14, 50] table. -/
theorem matmul50_apply (a : FVec Ideal S4000x14 .bf16) (w : FVec Ideal S14x50 .bf16) (p : Fin 4000) (q : Fin 50) :
    matmul D50 none a w (constant (F := Ideal) S4000x50 .f32 0x00000000#32) (ix2 p q)
      = ∑ k : Fin 14, a (ix2 p k) * w (ix2 k q) := by
  refine (Ideal.matmul_constant_zero_apply D50 none a w (ix2 p q)).trans ?_
  rw [← Equiv.sum_comp (contrEquiv1 D50 14 rfl rfl).symm]
  refine Finset.sum_congr rfl fun k _ => ?_
  have hk := contrEquiv1_symm_val D50 14 rfl rfl k
  have el : D50.lhsIdx (ix2 p q) ((contrEquiv1 D50 14 rfl rfl).symm k) = ix2 p k := funext fun a => Fin.ext (by
    match a with
    | ⟨0, _⟩ => exact D50_lhs0 _ _
    | ⟨1, _⟩ => exact (D50.lhsIdx_val_of_single rfl _ _).trans hk)
  have er : D50.rhsIdx (ix2 p q) ((contrEquiv1 D50 14 rfl rfl).symm k) = ix2 k q := funext fun a => Fin.ext (by
    match a with
    | ⟨0, _⟩ => exact (D50.rhsIdx_val_of_single rfl _ _).trans hk
    | ⟨1, _⟩ => exact D50_rhs1 _ _)
  rw [el, er]

/-! ## The payloads at an entry -/

/-- The message payload at row `p`, column `q` of a block: the product entry, plus the gathered entry, plus the bias
    of the column, compared with zero. The roundings between the two float formats are the identity on extended reals. -/
theorem msg_payload (x0 : Vec Ideal S4000x14 .f32) (x1 : Vec Ideal S4000x32 .bf16) (x4 : Vec Ideal S14x32 .bf16)
    (x5 : Vec Ideal S1x32 .f32) (p : Fin 4000) (q : Fin 32) :
    k1_pay7 x0 x1 x4 x5 (ix2 p q)
      = max ((∑ k : Fin 14, x0 (ix2 p k) * x4 (ix2 k q)) + x1 (ix2 p q) + x5 (ix2 0 q)) Cert.AtomPair.z := by
  unfold k1_pay7 k1_pay2
  simp only [shapeCast_self]
  show max (matmul D32 none (truncf .bf16 x0 bitsLt_bf16_f32) x4 (constant (F := Ideal) S4000x32 .f32 0x00000000#32) (ix2 p q)
      + x1 (ix2 p q) + broadcastTo S4000x32 x5 broadcasts_S1x32_S4000x32 (ix2 p q)) (Ideal.ofBits .f32 0x00000000#32) = _
  rw [matmul32_apply, broadcastTo_1b_ab_apply]
  rfl

/-- The pair payload at row `p`, column `q` of a block: two dense stages, each compared with zero, added and compared
    with zero once more. -/
theorem pair_payload (x0 : Vec Ideal S4000x14 .f32) (x2 x3 : Vec Ideal S4000x50 .bf16) (x6 : Vec Ideal S14x50 .bf16)
    (x7 : Vec Ideal S1x50 .f32) (x8 : Vec Ideal S14x50 .bf16) (x9 : Vec Ideal S1x50 .f32) (p : Fin 4000) (q : Fin 50) :
    k1_pay1 (k1_pay2 x0) (k1_pay3 x2) (k1_pay4 x7) (k1_pay5 x8) (k1_pay6 x9) (k1_pay8 x0 x3 x6) (ix2 p q)
      = max (max ((∑ k : Fin 14, x0 (ix2 p k) * x6 (ix2 k q)) + x3 (ix2 p q) + x2 (ix2 p q) + x7 (ix2 0 q)) Cert.AtomPair.z
          + max ((∑ k : Fin 14, x0 (ix2 p k) * x8 (ix2 k q)) + x9 (ix2 0 q)) Cert.AtomPair.z) Cert.AtomPair.z := by
  unfold k1_pay1 k1_pay2 k1_pay3 k1_pay4 k1_pay5 k1_pay6 k1_pay8
  simp only [shapeCast_self]
  show max (max (matmul D50 none (truncf .bf16 x0 bitsLt_bf16_f32) x6 (constant (F := Ideal) S4000x50 .f32 0x00000000#32) (ix2 p q)
        + x3 (ix2 p q) + x2 (ix2 p q) + broadcastTo S4000x50 x7 broadcasts_S1x50_S4000x50 (ix2 p q)) (Ideal.ofBits .f32 0x00000000#32)
      + max (matmul D50 none (truncf .bf16 x0 bitsLt_bf16_f32) x8 (constant (F := Ideal) S4000x50 .f32 0x00000000#32) (ix2 p q)
        + broadcastTo S4000x50 x9 broadcasts_S1x50_S4000x50 (ix2 p q)) (Ideal.ofBits .f32 0x00000000#32))
      (Ideal.ofBits .f32 0x00000000#32) = _
  rw [matmul50_apply, matmul50_apply, broadcastTo_1b_ab_apply, broadcastTo_1b_ab_apply]
  rfl

/-! ## Where the windows' blocks sit -/

/-- The block index of every window at every grid point: the row windows sit at block row `t`, the weight and bias
    windows at block (0, 0); decided over the 400 points. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0
    ∧ win1_11.index t (0 : Fin 2) = t.val ∧ win1_11.index t (1 : Fin 2) = 0 :=
  (by decide +kernel : ∀ t : Fin grid1.N, _)

variable (V : (c : Dev nD) → (b : Ref sig .tc) → Buf (Elt Ideal) ((c : Thread nD τ).loc b))

/-! ## Each window's block as entries of its array

A block's coordinate in the array is always block index × block size + the coordinate inside the block. -/

/-- Window 0's block at point `t` is rows `4000 t … 4000 t + 3999` of its array (the pair features). -/
theorem blk0_apply (c : Dev nD) (t : Fin cfg1.N) (x : S4000x14.Idx) (i : S1600000x14.Idx)
    (h0 : (i 0).val = t.val * 4000 + (x 0).val) (h1 : (i 1).val = (x 1).val) :
    (iblk1 V c 0 t : Vec Ideal S4000x14 .f32) x = (V c main_arg1 : S1600000x14.Idx → EReal) i := by
  obtain ⟨e0r, e0c, e1r, e1c, e2r, e2c, e3r, e3c, e4r, e4c, e5r, e5c, e6r, e6c, e7r, e7c, e8r, e8c, e9r, e9c, e10r, e10c, e11r, e11c⟩ := idx_facts t
  unfold iblk1
  rw [View.read_apply]
  show V c main_arg1 _ = V c main_arg1 _
  congr 1
  funext a
  apply Fin.ext
  match a with
  | ⟨0, _⟩ => show win1_0.index t (0 : Fin 2) * 4000 + 1 * (x 0).val = (i 0).val; rw [e0r, h0]; omega
  | ⟨1, _⟩ => show win1_0.index t (1 : Fin 2) * 14 + 1 * (x 1).val = (i 1).val; rw [e0c, h1]; omega

/-- Window 1's block at point `t` is rows `4000 t … 4000 t + 3999` of its array (the first gathered table). -/
theorem blk1_apply (c : Dev nD) (t : Fin cfg1.N) (x : S4000x32.Idx) (i : S1600000x32.Idx)
    (h0 : (i 0).val = t.val * 4000 + (x 0).val) (h1 : (i 1).val = (x 1).val) :
    (iblk1 V c 1 t : Vec Ideal S4000x32 .bf16) x = (V c main_v30 : S1600000x32.Idx → EReal) i := by
  obtain ⟨e0r, e0c, e1r, e1c, e2r, e2c, e3r, e3c, e4r, e4c, e5r, e5c, e6r, e6c, e7r, e7c, e8r, e8c, e9r, e9c, e10r, e10c, e11r, e11c⟩ := idx_facts t
  unfold iblk1
  rw [View.read_apply]
  show V c main_v30 _ = V c main_v30 _
  congr 1
  funext a
  apply Fin.ext
  match a with
  | ⟨0, _⟩ => show win1_1.index t (0 : Fin 2) * 4000 + 1 * (x 0).val = (i 0).val; rw [e1r, h0]; omega
  | ⟨1, _⟩ => show win1_1.index t (1 : Fin 2) * 32 + 1 * (x 1).val = (i 1).val; rw [e1c, h1]; omega

/-- Window 2's block at point `t` is rows `4000 t … 4000 t + 3999` of its array (the second gathered table). -/
theorem blk2_apply (c : Dev nD) (t : Fin cfg1.N) (x : S4000x50.Idx) (i : S1600000x50.Idx)
    (h0 : (i 0).val = t.val * 4000 + (x 0).val) (h1 : (i 1).val = (x 1).val) :
    (iblk1 V c 2 t : Vec Ideal S4000x50 .bf16) x = (V c main_v37 : S1600000x50.Idx → EReal) i := by
  obtain ⟨e0r, e0c, e1r, e1c, e2r, e2c, e3r, e3c, e4r, e4c, e5r, e5c, e6r, e6c, e7r, e7c, e8r, e8c, e9r, e9c, e10r, e10c, e11r, e11c⟩ := idx_facts t
  unfold iblk1
  rw [View.read_apply]
  show V c main_v37 _ = V c main_v37 _
  congr 1
  funext a
  apply Fin.ext
  match a with
  | ⟨0, _⟩ => show win1_2.index t (0 : Fin 2) * 4000 + 1 * (x 0).val = (i 0).val; rw [e2r, h0]; omega
  | ⟨1, _⟩ => show win1_2.index t (1 : Fin 2) * 50 + 1 * (x 1).val = (i 1).val; rw [e2c, h1]; omega

/-- Window 3's block at point `t` is rows `4000 t … 4000 t + 3999` of its array (the third gathered table). -/
theorem blk3_apply (c : Dev nD) (t : Fin cfg1.N) (x : S4000x50.Idx) (i : S1600000x50.Idx)
    (h0 : (i 0).val = t.val * 4000 + (x 0).val) (h1 : (i 1).val = (x 1).val) :
    (iblk1 V c 3 t : Vec Ideal S4000x50 .bf16) x = (V c main_v44 : S1600000x50.Idx → EReal) i := by
  obtain ⟨e0r, e0c, e1r, e1c, e2r, e2c, e3r, e3c, e4r, e4c, e5r, e5c, e6r, e6c, e7r, e7c, e8r, e8c, e9r, e9c, e10r, e10c, e11r, e11c⟩ := idx_facts t
  unfold iblk1
  rw [View.read_apply]
  show V c main_v44 _ = V c main_v44 _
  congr 1
  funext a
  apply Fin.ext
  match a with
  | ⟨0, _⟩ => show win1_3.index t (0 : Fin 2) * 4000 + 1 * (x 0).val = (i 0).val; rw [e3r, h0]; omega
  | ⟨1, _⟩ => show win1_3.index t (1 : Fin 2) * 50 + 1 * (x 1).val = (i 1).val; rw [e3c, h1]; omega

/-- Window 4's block at every point is its whole array. -/
theorem blk4_apply (c : Dev nD) (t : Fin cfg1.N) (x i : S14x32.Idx)
    (h0 : (i 0).val = (x 0).val) (h1 : (i 1).val = (x 1).val) :
    (iblk1 V c 4 t : Vec Ideal S14x32 .bf16) x = (V c main_v5 : S14x32.Idx → EReal) i := by
  obtain ⟨e0r, e0c, e1r, e1c, e2r, e2c, e3r, e3c, e4r, e4c, e5r, e5c, e6r, e6c, e7r, e7c, e8r, e8c, e9r, e9c, e10r, e10c, e11r, e11c⟩ := idx_facts t
  unfold iblk1
  rw [View.read_apply]
  show V c main_v5 _ = V c main_v5 _
  congr 1
  funext a
  apply Fin.ext
  match a with
  | ⟨0, _⟩ => show win1_4.index t (0 : Fin 2) * 14 + 1 * (x 0).val = (i 0).val; rw [e4r, h0]; omega
  | ⟨1, _⟩ => show win1_4.index t (1 : Fin 2) * 32 + 1 * (x 1).val = (i 1).val; rw [e4c, h1]; omega

/-- Window 5's block at every point is its whole array. -/
theorem blk5_apply (c : Dev nD) (t : Fin cfg1.N) (x i : S1x32.Idx)
    (h0 : (i 0).val = (x 0).val) (h1 : (i 1).val = (x 1).val) :
    (iblk1 V c 5 t : Vec Ideal S1x32 .f32) x = (V c main_v18 : S1x32.Idx → EReal) i := by
  obtain ⟨e0r, e0c, e1r, e1c, e2r, e2c, e3r, e3c, e4r, e4c, e5r, e5c, e6r, e6c, e7r, e7c, e8r, e8c, e9r, e9c, e10r, e10c, e11r, e11c⟩ := idx_facts t
  unfold iblk1
  rw [View.read_apply]
  show V c main_v18 _ = V c main_v18 _
  congr 1
  funext a
  apply Fin.ext
  match a with
  | ⟨0, _⟩ => show win1_5.index t (0 : Fin 2) * 1 + 1 * (x 0).val = (i 0).val; rw [e5r, h0]; omega
  | ⟨1, _⟩ => show win1_5.index t (1 : Fin 2) * 32 + 1 * (x 1).val = (i 1).val; rw [e5c, h1]; omega

/-- Window 6's block at every point is its whole array. -/
theorem blk6_apply (c : Dev nD) (t : Fin cfg1.N) (x i : S14x50.Idx)
    (h0 : (i 0).val = (x 0).val) (h1 : (i 1).val = (x 1).val) :
    (iblk1 V c 6 t : Vec Ideal S14x50 .bf16) x = (V c main_v9 : S14x50.Idx → EReal) i := by
  obtain ⟨e0r, e0c, e1r, e1c, e2r, e2c, e3r, e3c, e4r, e4c, e5r, e5c, e6r, e6c, e7r, e7c, e8r, e8c, e9r, e9c, e10r, e10c, e11r, e11c⟩ := idx_facts t
  unfold iblk1
  rw [View.read_apply]
  show V c main_v9 _ = V c main_v9 _
  congr 1
  funext a
  apply Fin.ext
  match a with
  | ⟨0, _⟩ => show win1_6.index t (0 : Fin 2) * 14 + 1 * (x 0).val = (i 0).val; rw [e6r, h0]; omega
  | ⟨1, _⟩ => show win1_6.index t (1 : Fin 2) * 50 + 1 * (x 1).val = (i 1).val; rw [e6c, h1]; omega

/-- Window 7's block at every point is its whole array. -/
theorem blk7_apply (c : Dev nD) (t : Fin cfg1.N) (x i : S1x50.Idx)
    (h0 : (i 0).val = (x 0).val) (h1 : (i 1).val = (x 1).val) :
    (iblk1 V c 7 t : Vec Ideal S1x50 .f32) x = (V c main_v19 : S1x50.Idx → EReal) i := by
  obtain ⟨e0r, e0c, e1r, e1c, e2r, e2c, e3r, e3c, e4r, e4c, e5r, e5c, e6r, e6c, e7r, e7c, e8r, e8c, e9r, e9c, e10r, e10c, e11r, e11c⟩ := idx_facts t
  unfold iblk1
  rw [View.read_apply]
  show V c main_v19 _ = V c main_v19 _
  congr 1
  funext a
  apply Fin.ext
  match a with
  | ⟨0, _⟩ => show win1_7.index t (0 : Fin 2) * 1 + 1 * (x 0).val = (i 0).val; rw [e7r, h0]; omega
  | ⟨1, _⟩ => show win1_7.index t (1 : Fin 2) * 50 + 1 * (x 1).val = (i 1).val; rw [e7c, h1]; omega

/-- Window 8's block at every point is its whole array. -/
theorem blk8_apply (c : Dev nD) (t : Fin cfg1.N) (x i : S14x50.Idx)
    (h0 : (i 0).val = (x 0).val) (h1 : (i 1).val = (x 1).val) :
    (iblk1 V c 8 t : Vec Ideal S14x50 .bf16) x = (V c main_v12 : S14x50.Idx → EReal) i := by
  obtain ⟨e0r, e0c, e1r, e1c, e2r, e2c, e3r, e3c, e4r, e4c, e5r, e5c, e6r, e6c, e7r, e7c, e8r, e8c, e9r, e9c, e10r, e10c, e11r, e11c⟩ := idx_facts t
  unfold iblk1
  rw [View.read_apply]
  show V c main_v12 _ = V c main_v12 _
  congr 1
  funext a
  apply Fin.ext
  match a with
  | ⟨0, _⟩ => show win1_8.index t (0 : Fin 2) * 14 + 1 * (x 0).val = (i 0).val; rw [e8r, h0]; omega
  | ⟨1, _⟩ => show win1_8.index t (1 : Fin 2) * 50 + 1 * (x 1).val = (i 1).val; rw [e8c, h1]; omega

/-- Window 9's block at every point is its whole array. -/
theorem blk9_apply (c : Dev nD) (t : Fin cfg1.N) (x i : S1x50.Idx)
    (h0 : (i 0).val = (x 0).val) (h1 : (i 1).val = (x 1).val) :
    (iblk1 V c 9 t : Vec Ideal S1x50 .f32) x = (V c main_v20 : S1x50.Idx → EReal) i := by
  obtain ⟨e0r, e0c, e1r, e1c, e2r, e2c, e3r, e3c, e4r, e4c, e5r, e5c, e6r, e6c, e7r, e7c, e8r, e8c, e9r, e9c, e10r, e10c, e11r, e11c⟩ := idx_facts t
  unfold iblk1
  rw [View.read_apply]
  show V c main_v20 _ = V c main_v20 _
  congr 1
  funext a
  apply Fin.ext
  match a with
  | ⟨0, _⟩ => show win1_9.index t (0 : Fin 2) * 1 + 1 * (x 0).val = (i 0).val; rw [e9r, h0]; omega
  | ⟨1, _⟩ => show win1_9.index t (1 : Fin 2) * 50 + 1 * (x 1).val = (i 1).val; rw [e9c, h1]; omega

/-! ## The message output, block by block and as one array -/

theorem hz : (![0, 0] : Fin 2 → Nat) = fun _ => 0 := funext fun a => by fin_cases a <;> rfl

/-- The message payload at any index of a block, the index's coordinates named by `rw0` / `cl1`. -/
theorem msg_entry (x0 : Vec Ideal S4000x14 .f32) (x1 : Vec Ideal S4000x32 .bf16) (x4 : Vec Ideal S14x32 .bf16)
    (x5 : Vec Ideal S1x32 .f32) (y : S4000x32.Idx) :
    k1_pay7 x0 x1 x4 x5 y
      = max ((∑ k : Fin 14, x0 (ix2 (Cert.AtomPair.rw0 y) k) * x4 (ix2 k (Cert.AtomPair.cl1 y))) + x1 y
          + x5 (ix2 0 (Cert.AtomPair.cl1 y))) Cert.AtomPair.z := by
  obtain ⟨p, q, rfl⟩ : ∃ (p : Fin 4000) (q : Fin 32), y = ix2 p q := ⟨y 0, y 1, eq_ix2 y⟩
  exact msg_payload x0 x1 x4 x5 p q

/-- What point `t` writes back to the message array is block `t` of the message function of the arrays the region
    finds. -/
theorem msg_flushed (c : Dev nD) (t : Fin cfg1.N) :
    (dat1 (F := Ideal) V c).flushed 10 t
      = ((cfg1.win 10).blk t).view.read (Elt Ideal)
          (Cert.AtomPair.pairMsg (V c main_arg1) (V c main_v30) (V c main_v5) (V c main_v18)) := by
  show (cfg1.win 10).cut (grid1.coords t) ((dat1 V c).after 10 t) = _
  rw [after1_10]
  unfold out1_10
  rw [View.canon_unit_zero hz]
  simp only [View.ld_unit_zero (S := S4000x14) hz, View.ld_unit_zero (S := S4000x32) hz, View.ld_unit_zero (S := S14x32) hz,
    View.ld_unit_zero (S := S1x32) hz]
  obtain ⟨e0r, e0c, e1r, e1c, e2r, e2c, e3r, e3c, e4r, e4c, e5r, e5c, e6r, e6c, e7r, e7c, e8r, e8c, e9r, e9c, e10r, e10c, e11r, e11c⟩ := idx_facts t
  funext y
  show k1_pay7 (iblk1 V c 0 t) (iblk1 V c 1 t) (iblk1 V c 4 t) (iblk1 V c 5 t) y
    = Cert.AtomPair.pairMsg (V c main_arg1) (V c main_v30) (V c main_v5) (V c main_v18) (((cfg1.win 10).blk t).view.emb y)
  refine (msg_entry _ _ _ _ y).trans ?_
  have hr : ((((cfg1.win 10).blk t).view.emb y) 0).val = t.val * 4000 + (y 0).val := by
    show win1_10.index t (0 : Fin 2) * 4000 + 1 * (y 0).val = _; rw [e10r]; omega
  have hc : ((((cfg1.win 10).blk t).view.emb y) 1).val = (y 1).val := by
    show win1_10.index t (1 : Fin 2) * 32 + 1 * (y 1).val = _; rw [e10c]; omega
  unfold Cert.AtomPair.pairMsg Cert.AtomPair.mm
  refine congrArg (fun u => max u Cert.AtomPair.z) ?_
  refine congrArg₂ (· + ·) (congrArg₂ (· + ·) (Finset.sum_congr rfl fun k _ => congrArg₂ (· * ·) ?_ ?_) ?_) ?_
  · exact blk0_apply V c t _ _ hr rfl
  · exact blk4_apply V c t _ _ rfl hc
  · exact blk1_apply V c t _ _ hr hc
  · exact blk5_apply V c t _ _ rfl hc

/-- An index of the message array is in point `t`'s block iff each coordinate is in the block's range on its axis. -/
theorem msg_mem_blk (t : Fin cfg1.N) (i : S1600000x32.Idx) :
    i ∈ ((cfg1.win 10).blk t).view.set ↔ ∀ a : Fin 2, win1_10.index t a * S4000x32.size a ≤ (i a).val
      ∧ (i a).val < win1_10.index t a * S4000x32.size a + S4000x32.size a := by
  show i ∈ ((View.whole main_v45_0).slice (win1_10.rect t)).set ↔ _
  rw [View.set_slice_whole, Rect.mem_set_unit]
  exact Iff.rfl

/-- Every row of the message array is in some point's block: row `r` in that of point `r / 4000`. -/
theorem msg_cover (i : S1600000x32.Idx) :
    ∃ t : Fin cfg1.N, (cfg1.win 10).flush t = true ∧ i ∈ ((cfg1.win 10).blk t).view.set := by
  have hN : cfg1.N = 400 := N_1
  have hi0 : (i 0).val < 1600000 := (i 0).isLt
  have hi1 : (i 1).val < 32 := (i 1).isLt
  obtain ⟨t, ht⟩ : ∃ t : Fin cfg1.N, t.val = (i 0).val / 4000 := ⟨⟨(i 0).val / 4000, by omega⟩, rfl⟩
  obtain ⟨e0r, e0c, e1r, e1c, e2r, e2c, e3r, e3c, e4r, e4c, e5r, e5c, e6r, e6c, e7r, e7c, e8r, e8c, e9r, e9c, e10r, e10c, e11r, e11c⟩ := idx_facts t
  refine ⟨t, flush1_10 t, ?_⟩
  rw [msg_mem_blk]
  intro a
  match a with
  | ⟨0, _⟩ =>
    show win1_10.index t (0 : Fin 2) * 4000 ≤ (i 0).val ∧ (i 0).val < win1_10.index t (0 : Fin 2) * 4000 + 4000
    rw [e10r, ht]; omega
  | ⟨1, _⟩ =>
    show win1_10.index t (1 : Fin 2) * 32 ≤ (i 1).val ∧ (i 1).val < win1_10.index t (1 : Fin 2) * 32 + 32
    rw [e10c]; omega

/-- THE MESSAGE ARRAY after the region: the message function of the arrays the region finds, at every index. -/
theorem msg_array (c : Dev nD) :
    (dat1 (F := Ideal) V c).arrAt 10 cfg1.N
      = Cert.AtomPair.pairMsg (V c main_arg1) (V c main_v30) (V c main_v5) (V c main_v18) :=
  (dat1 V c).arrAt_eq_of_cover 10 _ (fun t _ => msg_flushed V c t) msg_cover

/-! ## The pair output, block by block and as one array -/

/-- The pair payload at any index of a block, the index's coordinates named by `rw0` / `cl1`. -/
theorem pair_entry (x0 : Vec Ideal S4000x14 .f32) (x2 x3 : Vec Ideal S4000x50 .bf16) (x6 : Vec Ideal S14x50 .bf16)
    (x7 : Vec Ideal S1x50 .f32) (x8 : Vec Ideal S14x50 .bf16) (x9 : Vec Ideal S1x50 .f32) (y : S4000x50.Idx) :
    k1_pay1 (k1_pay2 x0) (k1_pay3 x2) (k1_pay4 x7) (k1_pay5 x8) (k1_pay6 x9) (k1_pay8 x0 x3 x6) y
      = max (max ((∑ k : Fin 14, x0 (ix2 (Cert.AtomPair.rw0 y) k) * x6 (ix2 k (Cert.AtomPair.cl1 y))) + x3 y + x2 y
              + x7 (ix2 0 (Cert.AtomPair.cl1 y))) Cert.AtomPair.z
          + max ((∑ k : Fin 14, x0 (ix2 (Cert.AtomPair.rw0 y) k) * x8 (ix2 k (Cert.AtomPair.cl1 y)))
              + x9 (ix2 0 (Cert.AtomPair.cl1 y))) Cert.AtomPair.z) Cert.AtomPair.z := by
  obtain ⟨p, q, rfl⟩ : ∃ (p : Fin 4000) (q : Fin 50), y = ix2 p q := ⟨y 0, y 1, eq_ix2 y⟩
  exact pair_payload x0 x2 x3 x6 x7 x8 x9 p q

/-- What point `t` writes back to the pair array is block `t` of the pair function of the arrays the region finds. -/
theorem pair_flushed (c : Dev nD) (t : Fin cfg1.N) :
    (dat1 (F := Ideal) V c).flushed 11 t
      = ((cfg1.win 11).blk t).view.read (Elt Ideal)
          (Cert.AtomPair.pairOut (V c main_arg1) (V c main_v37) (V c main_v44) (V c main_v9) (V c main_v19) (V c main_v12)
            (V c main_v20)) := by
  show (cfg1.win 11).cut (grid1.coords t) ((dat1 V c).after 11 t) = _
  rw [after1_11]
  unfold out1_11
  rw [View.canon_unit_zero hz]
  simp only [View.ld_unit_zero (S := S4000x14) hz, View.ld_unit_zero (S := S4000x50) hz, View.ld_unit_zero (S := S14x50) hz,
    View.ld_unit_zero (S := S1x50) hz]
  obtain ⟨e0r, e0c, e1r, e1c, e2r, e2c, e3r, e3c, e4r, e4c, e5r, e5c, e6r, e6c, e7r, e7c, e8r, e8c, e9r, e9c, e10r, e10c, e11r, e11c⟩ := idx_facts t
  funext y
  show k1_pay1 (k1_pay2 (iblk1 V c 0 t)) (k1_pay3 (iblk1 V c 2 t)) (k1_pay4 (iblk1 V c 7 t)) (k1_pay5 (iblk1 V c 8 t))
      (k1_pay6 (iblk1 V c 9 t)) (k1_pay8 (iblk1 V c 0 t) (iblk1 V c 3 t) (iblk1 V c 6 t)) y
    = Cert.AtomPair.pairOut (V c main_arg1) (V c main_v37) (V c main_v44) (V c main_v9) (V c main_v19) (V c main_v12)
        (V c main_v20) (((cfg1.win 11).blk t).view.emb y)
  refine (pair_entry _ _ _ _ _ _ _ y).trans ?_
  have hr : ((((cfg1.win 11).blk t).view.emb y) 0).val = t.val * 4000 + (y 0).val := by
    show win1_11.index t (0 : Fin 2) * 4000 + 1 * (y 0).val = _; rw [e11r]; omega
  have hc : ((((cfg1.win 11).blk t).view.emb y) 1).val = (y 1).val := by
    show win1_11.index t (1 : Fin 2) * 50 + 1 * (y 1).val = _; rw [e11c]; omega
  unfold Cert.AtomPair.pairOut Cert.AtomPair.mm
  refine congrArg (fun u => max u Cert.AtomPair.z) ?_
  refine congrArg₂ (· + ·) (congrArg (fun u => max u Cert.AtomPair.z) ?_) (congrArg (fun u => max u Cert.AtomPair.z) ?_)
  · refine congrArg₂ (· + ·) (congrArg₂ (· + ·) (congrArg₂ (· + ·)
      (Finset.sum_congr rfl fun k _ => congrArg₂ (· * ·) ?_ ?_) ?_) ?_) ?_
    · exact blk0_apply V c t _ _ hr rfl
    · exact blk6_apply V c t _ _ rfl hc
    · exact blk3_apply V c t _ _ hr hc
    · exact blk2_apply V c t _ _ hr hc
    · exact blk7_apply V c t _ _ rfl hc
  · refine congrArg₂ (· + ·) (Finset.sum_congr rfl fun k _ => congrArg₂ (· * ·) ?_ ?_) ?_
    · exact blk0_apply V c t _ _ hr rfl
    · exact blk8_apply V c t _ _ rfl hc
    · exact blk9_apply V c t _ _ rfl hc

/-- An index of the pair array is in point `t`'s block iff each coordinate is in the block's range on its axis. -/
theorem pair_mem_blk (t : Fin cfg1.N) (i : S1600000x50.Idx) :
    i ∈ ((cfg1.win 11).blk t).view.set ↔ ∀ a : Fin 2, win1_11.index t a * S4000x50.size a ≤ (i a).val
      ∧ (i a).val < win1_11.index t a * S4000x50.size a + S4000x50.size a := by
  show i ∈ ((View.whole main_v45_1).slice (win1_11.rect t)).set ↔ _
  rw [View.set_slice_whole, Rect.mem_set_unit]
  exact Iff.rfl

/-- Every row of the pair array is in some point's block: row `r` in that of point `r / 4000`. -/
theorem pair_cover (i : S1600000x50.Idx) :
    ∃ t : Fin cfg1.N, (cfg1.win 11).flush t = true ∧ i ∈ ((cfg1.win 11).blk t).view.set := by
  have hN : cfg1.N = 400 := N_1
  have hi0 : (i 0).val < 1600000 := (i 0).isLt
  have hi1 : (i 1).val < 50 := (i 1).isLt
  obtain ⟨t, ht⟩ : ∃ t : Fin cfg1.N, t.val = (i 0).val / 4000 := ⟨⟨(i 0).val / 4000, by omega⟩, rfl⟩
  obtain ⟨e0r, e0c, e1r, e1c, e2r, e2c, e3r, e3c, e4r, e4c, e5r, e5c, e6r, e6c, e7r, e7c, e8r, e8c, e9r, e9c, e10r, e10c, e11r, e11c⟩ := idx_facts t
  refine ⟨t, flush1_11 t, ?_⟩
  rw [pair_mem_blk]
  intro a
  match a with
  | ⟨0, _⟩ =>
    show win1_11.index t (0 : Fin 2) * 4000 ≤ (i 0).val ∧ (i 0).val < win1_11.index t (0 : Fin 2) * 4000 + 4000
    rw [e11r, ht]; omega
  | ⟨1, _⟩ =>
    show win1_11.index t (1 : Fin 2) * 50 ≤ (i 1).val ∧ (i 1).val < win1_11.index t (1 : Fin 2) * 50 + 50
    rw [e11c]; omega

/-- THE PAIR ARRAY after the region: the pair function of the arrays the region finds, at every index. -/
theorem pair_array (c : Dev nD) :
    (dat1 (F := Ideal) V c).arrAt 11 cfg1.N
      = Cert.AtomPair.pairOut (V c main_arg1) (V c main_v37) (V c main_v44) (V c main_v9) (V c main_v19) (V c main_v12)
          (V c main_v20) :=
  (dat1 V c).arrAt_eq_of_cover 11 _ (fun t _ => pair_flushed V c t) pair_cover

end Cert.KernelIdeal.PairRegion

end
-- ==== Proof.AtomRegion.lean ====
/-
  The atom kernel's output array as ONE function of the arrays the region finds.

  The grid has 20 points; point `t` reads rows `5000·t … 5000·t + 4999` of the atom table and of the summed messages,
  and the whole of three weight matrices and two bias rows, and writes the same rows of the atom output. An entry of
  the block is `relu (relu (X·W + S·W₂ + b) + relu (X·W' + b'))` at the block's row, which is the arrays' row
  `5000·t + p`; so every point writes ITS rows of one whole-array function, and the row blocks tile the array.
-/
import proofs.«105599_j14705968022035_2_alg».proof.Proof.Gen.KernelIdeal.Frame
import proofs.«105599_j14705968022035_2_alg».proof.Proof.Spec
import proofs.«105599_j14705968022035_2_alg».proof.Proof.LibMatmulIdx
import Idealize.ShloMosaic.Lib.Pipeline.Value
import Idealize.ShloMosaic.Lib.ValueIdx

set_option maxRecDepth 16384

noncomputable section

open scoped BigOperators

namespace Cert.KernelIdeal.AtomRegion

open Cert.KernelIdeal Cert.KernelIdeal.Gen Cert.AtomPair
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The body's stored value at an entry -/

/-- A bias row broadcast over the block's rows reads the row's entry in the column. -/
theorem bias_at (x : Vec Ideal S1x50 .f32) (p : Fin 5000) (q : Fin 50) :
    broadcastTo S5000x50 x broadcasts_S1x50_S5000x50 (ix2 p q) = x (ix2 0 q) :=
  broadcastTo_apply x broadcasts_S1x50_S5000x50 (ix2 p q) (ix2 0 q) (fun a => by
    match a with
    | ⟨0, _⟩ => show (0 : Nat) = if (1 : Nat) = 1 then 0 else _; rw [if_pos rfl]
    | ⟨1, _⟩ => show q.val = if (50 : Nat) = 1 then 0 else q.val; rw [if_neg (by decide)])

/-- The stored block at `y`: the two dense stages of row `y 0`, added, under one more `relu`. -/
theorem pay_atom (x0 : Vec Ideal S5000x75 .f32) (x1 : Vec Ideal S5000x32 .f32) (x2 : Vec Ideal S75x50 .bf16)
    (x3 : Vec Ideal S32x50 .bf16) (x4 : Vec Ideal S1x50 .f32) (x5 : Vec Ideal S75x50 .bf16) (x6 : Vec Ideal S1x50 .f32)
    (y : S5000x50.Idx) :
    k2_pay1 x0 x1 x2 x3 x4 x5 x6 y
      = max (max ((∑ k : Fin 75, x0 (ix2 (rw0 y) k) * x2 (ix2 k (cl1 y))
                    + ∑ k : Fin 32, x1 (ix2 (rw0 y) k) * x3 (ix2 k (cl1 y)))
                   + x4 (ix2 0 (cl1 y))) z
             + max (∑ k : Fin 75, x0 (ix2 (rw0 y) k) * x5 (ix2 k (cl1 y)) + x6 (ix2 0 (cl1 y))) z) z := by
  obtain ⟨p, q, rfl⟩ : ∃ (p : Fin 5000) (q : Fin 50), y = ix2 p q := ⟨y 0, y 1, eq_ix2 y⟩
  unfold k2_pay1
  simp only [shapeCast_self]
  have e1 := Cert.MatmulIdx.matmul_plain_zero_apply (φ₁ := .bf16) (φ₂ := .bf16) none (truncf .bf16 x0 bitsLt_bf16_f32) x2 p q
  have e2 := Cert.MatmulIdx.matmul_plain_zero_apply (φ₁ := .bf16) (φ₂ := .bf16) none (truncf .bf16 x1 bitsLt_bf16_f32) x3 p q
  have e3 := Cert.MatmulIdx.matmul_plain_zero_apply (φ₁ := .bf16) (φ₂ := .bf16) none (truncf .bf16 x0 bitsLt_bf16_f32) x5 p q
  exact congrArg₂ max
    (congrArg₂ (· + ·)
      (congrArg₂ max (congrArg₂ (· + ·) (congrArg₂ (· + ·) e1 e2) (bias_at x4 p q)) rfl)
      (congrArg₂ max (congrArg₂ (· + ·) e3 (bias_at x6 p q)) rfl))
    rfl

/-! ## Where each window's block sits at a point -/

/-- The printed index maps over the 20 points: the row-tiled windows sit at block row `t`, the rest at the origin. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-! ## Each window's block as entries of its array

A block's coordinate in the array is always block index × block size + the coordinate inside the block. -/

/-- The atom-table window's block at point `t` is rows `5000 t … 5000 t + 4999` of the table. -/
theorem blk0_at (c : Dev nD) (t : Fin cfg2.N) (x : S5000x75.Idx) (i : S100000x75.Idx)
    (h0 : (i 0).val = t.val * 5000 + (x 0).val) (h1 : (i 1).val = (x 1).val) :
    (iblk2 V c 0 t : Vec Ideal S5000x75 .f32) x = (V c main_arg0 : S100000x75.Idx → EReal) i := by
  obtain ⟨e00, e01, e10, e11, e20, e21, e30, e31, e40, e41, e50, e51, e60, e61, e70, e71⟩ := idx_facts t
  unfold iblk2
  rw [View.read_apply]
  show V c main_arg0 _ = V c main_arg0 _
  congr 1
  funext a
  apply Fin.ext
  match a with
  | ⟨0, _⟩ => show win2_0.index t (0 : Fin 2) * 5000 + 1 * (x 0).val = (i 0).val; omega
  | ⟨1, _⟩ => show win2_0.index t (1 : Fin 2) * 75 + 1 * (x 1).val = (i 1).val; omega

/-- The same rows of the summed messages. -/
theorem blk1_at (c : Dev nD) (t : Fin cfg2.N) (x : S5000x32.Idx) (i : S100000x32.Idx)
    (h0 : (i 0).val = t.val * 5000 + (x 0).val) (h1 : (i 1).val = (x 1).val) :
    (iblk2 V c 1 t : Vec Ideal S5000x32 .f32) x = (V c main_v49 : S100000x32.Idx → EReal) i := by
  obtain ⟨e00, e01, e10, e11, e20, e21, e30, e31, e40, e41, e50, e51, e60, e61, e70, e71⟩ := idx_facts t
  unfold iblk2
  rw [View.read_apply]
  show V c main_v49 _ = V c main_v49 _
  congr 1
  funext a
  apply Fin.ext
  match a with
  | ⟨0, _⟩ => show win2_1.index t (0 : Fin 2) * 5000 + 1 * (x 0).val = (i 0).val; omega
  | ⟨1, _⟩ => show win2_1.index t (1 : Fin 2) * 32 + 1 * (x 1).val = (i 1).val; omega

/-- A weight window is its whole matrix. -/
theorem blk2_at (c : Dev nD) (t : Fin cfg2.N) (x : S75x50.Idx) (i : S75x50.Idx)
    (h0 : (i 0).val = (x 0).val) (h1 : (i 1).val = (x 1).val) :
    (iblk2 V c 2 t : Vec Ideal S75x50 .bf16) x = (V c main_v14 : S75x50.Idx → EReal) i := by
  obtain ⟨e00, e01, e10, e11, e20, e21, e30, e31, e40, e41, e50, e51, e60, e61, e70, e71⟩ := idx_facts t
  unfold iblk2
  rw [View.read_apply]
  show V c main_v14 _ = V c main_v14 _
  congr 1
  funext a
  apply Fin.ext
  match a with
  | ⟨0, _⟩ => show win2_2.index t (0 : Fin 2) * 75 + 1 * (x 0).val = (i 0).val; omega
  | ⟨1, _⟩ => show win2_2.index t (1 : Fin 2) * 50 + 1 * (x 1).val = (i 1).val; omega

/-- The second weight matrix, whole. -/
theorem blk3_at (c : Dev nD) (t : Fin cfg2.N) (x : S32x50.Idx) (i : S32x50.Idx)
    (h0 : (i 0).val = (x 0).val) (h1 : (i 1).val = (x 1).val) :
    (iblk2 V c 3 t : Vec Ideal S32x50 .bf16) x = (V c main_v16 : S32x50.Idx → EReal) i := by
  obtain ⟨e00, e01, e10, e11, e20, e21, e30, e31, e40, e41, e50, e51, e60, e61, e70, e71⟩ := idx_facts t
  unfold iblk2
  rw [View.read_apply]
  show V c main_v16 _ = V c main_v16 _
  congr 1
  funext a
  apply Fin.ext
  match a with
  | ⟨0, _⟩ => show win2_3.index t (0 : Fin 2) * 32 + 1 * (x 0).val = (i 0).val; omega
  | ⟨1, _⟩ => show win2_3.index t (1 : Fin 2) * 50 + 1 * (x 1).val = (i 1).val; omega

/-- A bias window is its whole row. -/
theorem blk4_at (c : Dev nD) (t : Fin cfg2.N) (x : S1x50.Idx) (i : S1x50.Idx)
    (h0 : (i 0).val = (x 0).val) (h1 : (i 1).val = (x 1).val) :
    (iblk2 V c 4 t : Vec Ideal S1x50 .f32) x = (V c main_v21 : S1x50.Idx → EReal) i := by
  obtain ⟨e00, e01, e10, e11, e20, e21, e30, e31, e40, e41, e50, e51, e60, e61, e70, e71⟩ := idx_facts t
  unfold iblk2
  rw [View.read_apply]
  show V c main_v21 _ = V c main_v21 _
  congr 1
  funext a
  apply Fin.ext
  match a with
  | ⟨0, _⟩ => show win2_4.index t (0 : Fin 2) * 1 + 1 * (x 0).val = (i 0).val; omega
  | ⟨1, _⟩ => show win2_4.index t (1 : Fin 2) * 50 + 1 * (x 1).val = (i 1).val; omega

/-- The third weight matrix, whole. -/
theorem blk5_at (c : Dev nD) (t : Fin cfg2.N) (x : S75x50.Idx) (i : S75x50.Idx)
    (h0 : (i 0).val = (x 0).val) (h1 : (i 1).val = (x 1).val) :
    (iblk2 V c 5 t : Vec Ideal S75x50 .bf16) x = (V c main_v17 : S75x50.Idx → EReal) i := by
  obtain ⟨e00, e01, e10, e11, e20, e21, e30, e31, e40, e41, e50, e51, e60, e61, e70, e71⟩ := idx_facts t
  unfold iblk2
  rw [View.read_apply]
  show V c main_v17 _ = V c main_v17 _
  congr 1
  funext a
  apply Fin.ext
  match a with
  | ⟨0, _⟩ => show win2_5.index t (0 : Fin 2) * 75 + 1 * (x 0).val = (i 0).val; omega
  | ⟨1, _⟩ => show win2_5.index t (1 : Fin 2) * 50 + 1 * (x 1).val = (i 1).val; omega

/-- The second bias row, whole. -/
theorem blk6_at (c : Dev nD) (t : Fin cfg2.N) (x : S1x50.Idx) (i : S1x50.Idx)
    (h0 : (i 0).val = (x 0).val) (h1 : (i 1).val = (x 1).val) :
    (iblk2 V c 6 t : Vec Ideal S1x50 .f32) x = (V c main_v22 : S1x50.Idx → EReal) i := by
  obtain ⟨e00, e01, e10, e11, e20, e21, e30, e31, e40, e41, e50, e51, e60, e61, e70, e71⟩ := idx_facts t
  unfold iblk2
  rw [View.read_apply]
  show V c main_v22 _ = V c main_v22 _
  congr 1
  funext a
  apply Fin.ext
  match a with
  | ⟨0, _⟩ => show win2_6.index t (0 : Fin 2) * 1 + 1 * (x 0).val = (i 0).val; omega
  | ⟨1, _⟩ => show win2_6.index t (1 : Fin 2) * 50 + 1 * (x 1).val = (i 1).val; omega

/-! ## What a point writes back -/

/-- Point `t` writes back its rows of the atom update of the arrays as the region finds them. -/
theorem flushed_atom (c : Dev nD) (t : Fin cfg2.N) :
    (dat2 (F := Ideal) V c).flushed 7 t
      = ((cfg2.win 7).blk t).view.read (Elt Ideal)
          (atomOut (V c main_arg0) (V c main_v49) (V c main_v14) (V c main_v16) (V c main_v21) (V c main_v17) (V c main_v22)) := by
  show (cfg2.win 7).cut (grid2.coords t) ((dat2 (F := Ideal) V c).after 7 t) = _
  rw [after2_7]
  unfold out2_7
  rw [View.canon_unit_zero hz]
  simp only [View.ld_unit_zero (S := S5000x75) hz, View.ld_unit_zero (S := S5000x32) hz, View.ld_unit_zero (S := S75x50) hz,
    View.ld_unit_zero (S := S32x50) hz, View.ld_unit_zero (S := S1x50) hz]
  obtain ⟨e00, e01, e10, e11, e20, e21, e30, e31, e40, e41, e50, e51, e60, e61, e70, e71⟩ := idx_facts t
  funext y
  show k2_pay1 (iblk2 V c 0 t) (iblk2 V c 1 t) (iblk2 V c 2 t) (iblk2 V c 3 t) (iblk2 V c 4 t) (iblk2 V c 5 t) (iblk2 V c 6 t) y
    = atomOut (V c main_arg0) (V c main_v49) (V c main_v14) (V c main_v16) (V c main_v21) (V c main_v17) (V c main_v22)
        (((cfg2.win 7).blk t).view.emb y)
  refine (pay_atom _ _ _ _ _ _ _ y).trans ?_
  have hr : ((((cfg2.win 7).blk t).view.emb y) 0).val = t.val * 5000 + (y 0).val := by
    show win2_7.index t (0 : Fin 2) * 5000 + 1 * (y 0).val = _; omega
  have hc : ((((cfg2.win 7).blk t).view.emb y) 1).val = (y 1).val := by
    show win2_7.index t (1 : Fin 2) * 50 + 1 * (y 1).val = _; omega
  unfold atomOut mm
  refine congrArg (fun u => max u z) ?_
  refine congrArg₂ (· + ·)
    (congrArg (fun u => max u z)
      (congrArg₂ (· + ·)
        (congrArg₂ (· + ·) (Finset.sum_congr rfl fun k _ => congrArg₂ (· * ·) ?_ ?_)
          (Finset.sum_congr rfl fun k _ => congrArg₂ (· * ·) ?_ ?_)) ?_))
    (congrArg (fun u => max u z)
      (congrArg₂ (· + ·) (Finset.sum_congr rfl fun k _ => congrArg₂ (· * ·) ?_ ?_) ?_))
  · exact blk0_at V c t _ _ hr rfl
  · exact blk2_at V c t _ _ rfl hc
  · exact blk1_at V c t _ _ hr rfl
  · exact blk3_at V c t _ _ rfl hc
  · exact blk4_at V c t _ _ rfl hc
  · exact blk0_at V c t _ _ hr rfl
  · exact blk5_at V c t _ _ rfl hc
  · exact blk6_at V c t _ _ rfl hc

/-! ## The row blocks tile the output array -/

theorem mem_blk7 (t : Fin cfg2.N) (i : S100000x50.Idx) :
    i ∈ ((cfg2.win 7).blk t).view.set ↔ ∀ a : Fin 2, win2_7.index t a * S5000x50.size a ≤ (i a).val
      ∧ (i a).val < win2_7.index t a * S5000x50.size a + S5000x50.size a := by
  show i ∈ ((View.whole main_v50).slice (win2_7.rect t)).set ↔ _
  rw [View.set_slice_whole, Rect.mem_set_unit]
  exact Iff.rfl

/-- Row `r` of the output lies in the block of point `r / 5000`. -/
theorem cover7 (i : S100000x50.Idx) :
    ∃ t : Fin cfg2.N, (cfg2.win 7).flush t = true ∧ i ∈ ((cfg2.win 7).blk t).view.set := by
  have hN : cfg2.N = 20 := N_2
  have hi0 : (i 0).val < 100000 := (i 0).isLt
  have hi1 : (i 1).val < 50 := (i 1).isLt
  obtain ⟨t, ht⟩ : ∃ t : Fin cfg2.N, t.val = (i 0).val / 5000 := ⟨⟨(i 0).val / 5000, by omega⟩, rfl⟩
  obtain ⟨e00, e01, e10, e11, e20, e21, e30, e31, e40, e41, e50, e51, e60, e61, e70, e71⟩ := idx_facts t
  refine ⟨t, flush2_7 t, ?_⟩
  rw [mem_blk7]
  intro a
  match a with
  | ⟨0, _⟩ =>
    show win2_7.index t (0 : Fin 2) * 5000 ≤ (i 0).val ∧ (i 0).val < win2_7.index t (0 : Fin 2) * 5000 + 5000
    omega
  | ⟨1, _⟩ =>
    show win2_7.index t (1 : Fin 2) * 50 ≤ (i 1).val ∧ (i 1).val < win2_7.index t (1 : Fin 2) * 50 + 50
    omega

/-! ## The array after the region -/

/-- The output array is the atom update of the arrays as the region finds them. -/
theorem atom_array (c : Dev nD) :
    (dat2 (F := Ideal) V c).arrAt 7 cfg2.N
      = atomOut (V c main_arg0) (V c main_v49) (V c main_v14) (V c main_v16) (V c main_v21) (V c main_v17) (V c main_v22) :=
  (dat2 (F := Ideal) V c).arrAt_eq_of_cover 7 _ (fun t _ => flushed_atom V c t) cover7

end Cert.KernelIdeal.AtomRegion

end
-- ==== Proof.KFold.lean ====
/-
  The kernel program's two results, traced through its six segments to named functions of the launch memory.

  The program alternates stretches of host operations with three kernels. A host stretch changes only the buffers
  its operations write, each to its operation's function of the buffers it reads; a kernel leaves each of its
  output arrays at a whole-array function of its input arrays and every other buffer as it found it. Walking the
  boundaries from the launch to the return, every buffer a kernel reads is one of the named terms of the argument
  arrays, and so are the two results.
-/
import proofs.«105599_j14705968022035_2_alg».proof.Proof.Gen.KernelIdeal.Frame
import proofs.«105599_j14705968022035_2_alg».proof.Proof.KTerms
import proofs.«105599_j14705968022035_2_alg».proof.Proof.ProjRegion
import proofs.«105599_j14705968022035_2_alg».proof.Proof.PairRegion
import proofs.«105599_j14705968022035_2_alg».proof.Proof.AtomRegion
import Idealize.ShloMosaic.Lib.StableHlo.Run

set_option maxRecDepth 16384

noncomputable section

namespace Cert.KernelIdeal.KFold

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## A host stretch changes only the buffers its operations write -/

/-- The buffers the first host stretch writes. -/
def wr0 : List (Ref sig .tc) :=
  [main_v0, main_v1, main_v2, main_v3, main_v4, main_v5, main_v6, main_v7, main_v8, main_v9, main_v10, main_v11,
   main_v12, main_v13, main_v14, main_v15, main_v16, main_v17, main_v18, main_v19, main_v20, main_v21, main_v22]
/-- The buffers the second host stretch writes. -/
def wr1 : List (Ref sig .tc) :=
  [main_c, main_v24, main_v25, main_c_0, main_v26, main_v27, main_v28, main_v29, main_v30, main_c_1, main_v31, main_v32,
   main_c_2, main_v33, main_v34, main_v35, main_v36, main_v37, main_c_3, main_v38, main_v39, main_c_4, main_v40, main_v41,
   main_v42, main_v43, main_v44]
/-- The buffers the third host stretch writes. -/
def wr2 : List (Ref sig .tc) := [main_v46, main_cst, main_v47, main_v48, main_v49]

theorem keep0 (r : Ref sig .tc) (hr : r ∉ wr0) :
    W1 m ρ c (Proc.devRef .tc r) = W0 m ρ c (Proc.devRef .tc r) :=
  StableHlo.after_of_writes_sub (W := wr0) hostOps0 (W0 m ρ c) (by
    simp only [List.Forall, StableHlo.nullary_writes, StableHlo.unary_writes, StableHlo.binary_writes,
      StableHlo.ternary_writes, StableHlo.reshape_writes]
    repeat' apply And.intro
    all_goals (rw [Finset.singleton_subset_iff, List.mem_toFinset]; exact List.mem_map.mpr ⟨_, by decide, rfl⟩)) hr

theorem keep1 (r : Ref sig .tc) (hr : r ∉ wr1) :
    W3 m ρ c (Proc.devRef .tc r) = W2 m ρ c (Proc.devRef .tc r) :=
  StableHlo.after_of_writes_sub (W := wr1) hostOps1 (W2 m ρ c) (by
    simp only [List.Forall, StableHlo.nullary_writes, StableHlo.unary_writes, StableHlo.binary_writes,
      StableHlo.ternary_writes, StableHlo.reshape_writes]
    repeat' apply And.intro
    all_goals (rw [Finset.singleton_subset_iff, List.mem_toFinset]; exact List.mem_map.mpr ⟨_, by decide, rfl⟩)) hr

theorem keep2 (r : Ref sig .tc) (hr : r ∉ wr2) :
    W5 m ρ c (Proc.devRef .tc r) = W4 m ρ c (Proc.devRef .tc r) :=
  StableHlo.after_of_writes_sub (W := wr2) hostOps2 (W4 m ρ c) (by
    simp only [List.Forall, StableHlo.nullary_writes, StableHlo.unary_writes, StableHlo.binary_writes,
      StableHlo.ternary_writes, StableHlo.reshape_writes]
    repeat' apply And.intro
    all_goals (rw [Finset.singleton_subset_iff, List.mem_toFinset]; exact List.mem_map.mpr ⟨_, by decide, rfl⟩)) hr

/-! ## After the first host stretch: the cut and rounded weights, the bias rows, the two integer columns -/

theorem w1_v7 : W1 m ρ c (Proc.devRef .tc main_v7) = KT.wpaA (m ((c : Thread nD τ).loc main_arg2)) := by
  show StableHlo.after hostOps0 (W0 m ρ c) (Proc.devRef .tc main_v7) = _
  after_results
  rfl
theorem w1_v5 : W1 m ρ c (Proc.devRef .tc main_v5) = KT.wpaP (m ((c : Thread nD τ).loc main_arg2)) := by
  show StableHlo.after hostOps0 (W0 m ρ c) (Proc.devRef .tc main_v5) = _
  after_results
  rfl
theorem w1_v9 : W1 m ρ c (Proc.devRef .tc main_v9) = KT.wapP (m ((c : Thread nD τ).loc main_arg8)) := by
  show StableHlo.after hostOps0 (W0 m ρ c) (Proc.devRef .tc main_v9) = _
  after_results
  rfl
theorem w1_v11 : W1 m ρ c (Proc.devRef .tc main_v11) = KT.wapA (m ((c : Thread nD τ).loc main_arg8)) := by
  show StableHlo.after hostOps0 (W0 m ρ c) (Proc.devRef .tc main_v11) = _
  after_results
  rfl
theorem w1_v12 : W1 m ρ c (Proc.devRef .tc main_v12) = KT.wpp (m ((c : Thread nD τ).loc main_arg10)) := by
  show StableHlo.after hostOps0 (W0 m ρ c) (Proc.devRef .tc main_v12) = _
  after_results
  rfl
theorem w1_v14 : W1 m ρ c (Proc.devRef .tc main_v14) = KT.waoA (m ((c : Thread nD τ).loc main_arg4)) := by
  show StableHlo.after hostOps0 (W0 m ρ c) (Proc.devRef .tc main_v14) = _
  after_results
  rfl
theorem w1_v16 : W1 m ρ c (Proc.devRef .tc main_v16) = KT.waoP (m ((c : Thread nD τ).loc main_arg4)) := by
  show StableHlo.after hostOps0 (W0 m ρ c) (Proc.devRef .tc main_v16) = _
  after_results
  rfl
theorem w1_v17 : W1 m ρ c (Proc.devRef .tc main_v17) = KT.waa (m ((c : Thread nD τ).loc main_arg6)) := by
  show StableHlo.after hostOps0 (W0 m ρ c) (Proc.devRef .tc main_v17) = _
  after_results
  rfl
theorem w1_v18 : W1 m ρ c (Proc.devRef .tc main_v18) = KT.row32 (m ((c : Thread nD τ).loc main_arg3)) := by
  show StableHlo.after hostOps0 (W0 m ρ c) (Proc.devRef .tc main_v18) = _
  after_results
  rfl
theorem w1_v19 : W1 m ρ c (Proc.devRef .tc main_v19) = KT.row50 (m ((c : Thread nD τ).loc main_arg9)) := by
  show StableHlo.after hostOps0 (W0 m ρ c) (Proc.devRef .tc main_v19) = _
  after_results
  rfl
theorem w1_v20 : W1 m ρ c (Proc.devRef .tc main_v20) = KT.row50 (m ((c : Thread nD τ).loc main_arg11)) := by
  show StableHlo.after hostOps0 (W0 m ρ c) (Proc.devRef .tc main_v20) = _
  after_results
  rfl
theorem w1_v21 : W1 m ρ c (Proc.devRef .tc main_v21) = KT.row50 (m ((c : Thread nD τ).loc main_arg5)) := by
  show StableHlo.after hostOps0 (W0 m ρ c) (Proc.devRef .tc main_v21) = _
  after_results
  rfl
theorem w1_v22 : W1 m ρ c (Proc.devRef .tc main_v22) = KT.row50 (m ((c : Thread nD τ).loc main_arg7)) := by
  show StableHlo.after hostOps0 (W0 m ρ c) (Proc.devRef .tc main_v22) = _
  after_results
  rfl
theorem w1_v1 : W1 m ρ c (Proc.devRef .tc main_v1) = KT.colI (m ((c : Thread nD τ).loc main_arg13)) := by
  show StableHlo.after hostOps0 (W0 m ρ c) (Proc.devRef .tc main_v1) = _
  after_results
  rfl
theorem w1_v3 : W1 m ρ c (Proc.devRef .tc main_v3) = KT.colJ (m ((c : Thread nD τ).loc main_arg13)) := by
  show StableHlo.after hostOps0 (W0 m ρ c) (Proc.devRef .tc main_v3) = _
  after_results
  rfl

/-- An argument is as launched. -/
theorem w1_arg0 : W1 m ρ c (Proc.devRef .tc main_arg0) = (m ((c : Thread nD τ).loc main_arg0)) := keep0 m ρ c main_arg0 (by decide)
theorem w1_arg1 : W1 m ρ c (Proc.devRef .tc main_arg1) = (m ((c : Thread nD τ).loc main_arg1)) := keep0 m ρ c main_arg1 (by decide)
theorem w1_arg2 : W1 m ρ c (Proc.devRef .tc main_arg2) = (m ((c : Thread nD τ).loc main_arg2)) := keep0 m ρ c main_arg2 (by decide)
theorem w1_arg3 : W1 m ρ c (Proc.devRef .tc main_arg3) = (m ((c : Thread nD τ).loc main_arg3)) := keep0 m ρ c main_arg3 (by decide)
theorem w1_arg4 : W1 m ρ c (Proc.devRef .tc main_arg4) = (m ((c : Thread nD τ).loc main_arg4)) := keep0 m ρ c main_arg4 (by decide)
theorem w1_arg5 : W1 m ρ c (Proc.devRef .tc main_arg5) = (m ((c : Thread nD τ).loc main_arg5)) := keep0 m ρ c main_arg5 (by decide)
theorem w1_arg6 : W1 m ρ c (Proc.devRef .tc main_arg6) = (m ((c : Thread nD τ).loc main_arg6)) := keep0 m ρ c main_arg6 (by decide)
theorem w1_arg7 : W1 m ρ c (Proc.devRef .tc main_arg7) = (m ((c : Thread nD τ).loc main_arg7)) := keep0 m ρ c main_arg7 (by decide)
theorem w1_arg8 : W1 m ρ c (Proc.devRef .tc main_arg8) = (m ((c : Thread nD τ).loc main_arg8)) := keep0 m ρ c main_arg8 (by decide)
theorem w1_arg9 : W1 m ρ c (Proc.devRef .tc main_arg9) = (m ((c : Thread nD τ).loc main_arg9)) := keep0 m ρ c main_arg9 (by decide)
theorem w1_arg10 : W1 m ρ c (Proc.devRef .tc main_arg10) = (m ((c : Thread nD τ).loc main_arg10)) := keep0 m ρ c main_arg10 (by decide)
theorem w1_arg11 : W1 m ρ c (Proc.devRef .tc main_arg11) = (m ((c : Thread nD τ).loc main_arg11)) := keep0 m ρ c main_arg11 (by decide)
theorem w1_arg13 : W1 m ρ c (Proc.devRef .tc main_arg13) = (m ((c : Thread nD τ).loc main_arg13)) := keep0 m ρ c main_arg13 (by decide)

/-! ## Through the first kernel: its two products, every other buffer as it was -/

theorem w2_arg0 : W2 m ρ c (Proc.devRef .tc main_arg0) = (m ((c : Thread nD τ).loc main_arg0)) :=
  (W2_arr m ρ c 0).trans ((((dat0 (V1 m ρ) c).arrAt_in 0 rfl _).trans (A_eq0 (V1 m ρ) c 0)).trans (w1_arg0 m ρ c))

theorem w2_v5 : W2 m ρ c (Proc.devRef .tc main_v5) = KT.wpaP (m ((c : Thread nD τ).loc main_arg2)) :=
  (W2_of_ne m ρ c main_v5 (by decide)).trans (w1_v5 m ρ c)
theorem w2_v9 : W2 m ρ c (Proc.devRef .tc main_v9) = KT.wapP (m ((c : Thread nD τ).loc main_arg8)) :=
  (W2_of_ne m ρ c main_v9 (by decide)).trans (w1_v9 m ρ c)
theorem w2_v12 : W2 m ρ c (Proc.devRef .tc main_v12) = KT.wpp (m ((c : Thread nD τ).loc main_arg10)) :=
  (W2_of_ne m ρ c main_v12 (by decide)).trans (w1_v12 m ρ c)
theorem w2_v14 : W2 m ρ c (Proc.devRef .tc main_v14) = KT.waoA (m ((c : Thread nD τ).loc main_arg4)) :=
  (W2_of_ne m ρ c main_v14 (by decide)).trans (w1_v14 m ρ c)
theorem w2_v16 : W2 m ρ c (Proc.devRef .tc main_v16) = KT.waoP (m ((c : Thread nD τ).loc main_arg4)) :=
  (W2_of_ne m ρ c main_v16 (by decide)).trans (w1_v16 m ρ c)
theorem w2_v17 : W2 m ρ c (Proc.devRef .tc main_v17) = KT.waa (m ((c : Thread nD τ).loc main_arg6)) :=
  (W2_of_ne m ρ c main_v17 (by decide)).trans (w1_v17 m ρ c)
theorem w2_v18 : W2 m ρ c (Proc.devRef .tc main_v18) = KT.row32 (m ((c : Thread nD τ).loc main_arg3)) :=
  (W2_of_ne m ρ c main_v18 (by decide)).trans (w1_v18 m ρ c)
theorem w2_v19 : W2 m ρ c (Proc.devRef .tc main_v19) = KT.row50 (m ((c : Thread nD τ).loc main_arg9)) :=
  (W2_of_ne m ρ c main_v19 (by decide)).trans (w1_v19 m ρ c)
theorem w2_v20 : W2 m ρ c (Proc.devRef .tc main_v20) = KT.row50 (m ((c : Thread nD τ).loc main_arg11)) :=
  (W2_of_ne m ρ c main_v20 (by decide)).trans (w1_v20 m ρ c)
theorem w2_v21 : W2 m ρ c (Proc.devRef .tc main_v21) = KT.row50 (m ((c : Thread nD τ).loc main_arg5)) :=
  (W2_of_ne m ρ c main_v21 (by decide)).trans (w1_v21 m ρ c)
theorem w2_v22 : W2 m ρ c (Proc.devRef .tc main_v22) = KT.row50 (m ((c : Thread nD τ).loc main_arg7)) :=
  (W2_of_ne m ρ c main_v22 (by decide)).trans (w1_v22 m ρ c)
theorem w2_v1 : W2 m ρ c (Proc.devRef .tc main_v1) = KT.colI (m ((c : Thread nD τ).loc main_arg13)) :=
  (W2_of_ne m ρ c main_v1 (by decide)).trans (w1_v1 m ρ c)
theorem w2_v3 : W2 m ρ c (Proc.devRef .tc main_v3) = KT.colJ (m ((c : Thread nD τ).loc main_arg13)) :=
  (W2_of_ne m ρ c main_v3 (by decide)).trans (w1_v3 m ρ c)
theorem w2_arg1 : W2 m ρ c (Proc.devRef .tc main_arg1) = (m ((c : Thread nD τ).loc main_arg1)) :=
  (W2_of_ne m ρ c main_arg1 (by decide)).trans (w1_arg1 m ρ c)

theorem w2_v23_0 : W2 m ρ c (Proc.devRef .tc main_v23_0) = KT.projPa (m ((c : Thread nD τ).loc main_arg0)) (m ((c : Thread nD τ).loc main_arg2)) :=
  (W2_arr m ρ c 3).trans ((ProjRegion.pa_array (V1 m ρ) c).trans (by
    show Cert.AtomPair.mm (W1 m ρ c (Proc.devRef .tc main_arg0)) (W1 m ρ c (Proc.devRef .tc main_v7)) = _
    rw [w1_arg0, w1_v7]; rfl))

theorem w2_v23_1 : W2 m ρ c (Proc.devRef .tc main_v23_1) = KT.projAp (m ((c : Thread nD τ).loc main_arg0)) (m ((c : Thread nD τ).loc main_arg8)) :=
  (W2_arr m ρ c 4).trans ((ProjRegion.ap_array (V1 m ρ) c).trans (by
    show Cert.AtomPair.mm (W1 m ρ c (Proc.devRef .tc main_arg0)) (W1 m ρ c (Proc.devRef .tc main_v11)) = _
    rw [w1_arg0, w1_v11]; rfl))

/-! ## After the second host stretch: the three row gathers -/

theorem w3_v30 : W3 m ρ c (Proc.devRef .tc main_v30) = KT.gjpa (m ((c : Thread nD τ).loc main_arg0)) (m ((c : Thread nD τ).loc main_arg2)) (m ((c : Thread nD τ).loc main_arg13)) := by
  show StableHlo.after hostOps1 (W2 m ρ c) (Proc.devRef .tc main_v30) = _
  after_results
  rw [w2_v23_0, w2_v3]; rfl

theorem w3_v37 : W3 m ρ c (Proc.devRef .tc main_v37) = KT.gjap (m ((c : Thread nD τ).loc main_arg0)) (m ((c : Thread nD τ).loc main_arg8)) (m ((c : Thread nD τ).loc main_arg13)) := by
  show StableHlo.after hostOps1 (W2 m ρ c) (Proc.devRef .tc main_v37) = _
  after_results_simp
  rw [w2_v23_1, w2_v3]; rfl

theorem w3_v44 : W3 m ρ c (Proc.devRef .tc main_v44) = KT.giap (m ((c : Thread nD τ).loc main_arg0)) (m ((c : Thread nD τ).loc main_arg8)) (m ((c : Thread nD τ).loc main_arg13)) := by
  show StableHlo.after hostOps1 (W2 m ρ c) (Proc.devRef .tc main_v44) = _
  after_results_simp
  rw [w2_v23_1, w2_v1]; rfl

theorem w3_arg0 : W3 m ρ c (Proc.devRef .tc main_arg0) = (m ((c : Thread nD τ).loc main_arg0)) :=
  (keep1 m ρ c main_arg0 (by decide)).trans (w2_arg0 m ρ c)
theorem w3_arg1 : W3 m ρ c (Proc.devRef .tc main_arg1) = (m ((c : Thread nD τ).loc main_arg1)) :=
  (keep1 m ρ c main_arg1 (by decide)).trans (w2_arg1 m ρ c)
theorem w3_v5 : W3 m ρ c (Proc.devRef .tc main_v5) = KT.wpaP (m ((c : Thread nD τ).loc main_arg2)) :=
  (keep1 m ρ c main_v5 (by decide)).trans (w2_v5 m ρ c)
theorem w3_v9 : W3 m ρ c (Proc.devRef .tc main_v9) = KT.wapP (m ((c : Thread nD τ).loc main_arg8)) :=
  (keep1 m ρ c main_v9 (by decide)).trans (w2_v9 m ρ c)
theorem w3_v12 : W3 m ρ c (Proc.devRef .tc main_v12) = KT.wpp (m ((c : Thread nD τ).loc main_arg10)) :=
  (keep1 m ρ c main_v12 (by decide)).trans (w2_v12 m ρ c)
theorem w3_v14 : W3 m ρ c (Proc.devRef .tc main_v14) = KT.waoA (m ((c : Thread nD τ).loc main_arg4)) :=
  (keep1 m ρ c main_v14 (by decide)).trans (w2_v14 m ρ c)
theorem w3_v16 : W3 m ρ c (Proc.devRef .tc main_v16) = KT.waoP (m ((c : Thread nD τ).loc main_arg4)) :=
  (keep1 m ρ c main_v16 (by decide)).trans (w2_v16 m ρ c)
theorem w3_v17 : W3 m ρ c (Proc.devRef .tc main_v17) = KT.waa (m ((c : Thread nD τ).loc main_arg6)) :=
  (keep1 m ρ c main_v17 (by decide)).trans (w2_v17 m ρ c)
theorem w3_v18 : W3 m ρ c (Proc.devRef .tc main_v18) = KT.row32 (m ((c : Thread nD τ).loc main_arg3)) :=
  (keep1 m ρ c main_v18 (by decide)).trans (w2_v18 m ρ c)
theorem w3_v19 : W3 m ρ c (Proc.devRef .tc main_v19) = KT.row50 (m ((c : Thread nD τ).loc main_arg9)) :=
  (keep1 m ρ c main_v19 (by decide)).trans (w2_v19 m ρ c)
theorem w3_v20 : W3 m ρ c (Proc.devRef .tc main_v20) = KT.row50 (m ((c : Thread nD τ).loc main_arg11)) :=
  (keep1 m ρ c main_v20 (by decide)).trans (w2_v20 m ρ c)
theorem w3_v21 : W3 m ρ c (Proc.devRef .tc main_v21) = KT.row50 (m ((c : Thread nD τ).loc main_arg5)) :=
  (keep1 m ρ c main_v21 (by decide)).trans (w2_v21 m ρ c)
theorem w3_v22 : W3 m ρ c (Proc.devRef .tc main_v22) = KT.row50 (m ((c : Thread nD τ).loc main_arg7)) :=
  (keep1 m ρ c main_v22 (by decide)).trans (w2_v22 m ρ c)
theorem w3_v1 : W3 m ρ c (Proc.devRef .tc main_v1) = KT.colI (m ((c : Thread nD τ).loc main_arg13)) :=
  (keep1 m ρ c main_v1 (by decide)).trans (w2_v1 m ρ c)

/-! ## Through the second kernel: the messages and THE PAIR RESULT -/

theorem w4_v45_0 : W4 m ρ c (Proc.devRef .tc main_v45_0) = KT.msg (m ((c : Thread nD τ).loc main_arg0)) (m ((c : Thread nD τ).loc main_arg1)) (m ((c : Thread nD τ).loc main_arg2)) (m ((c : Thread nD τ).loc main_arg3)) (m ((c : Thread nD τ).loc main_arg13)) :=
  (W4_arr m ρ c 10).trans ((PairRegion.msg_array (V3 m ρ) c).trans (by
    show Cert.AtomPair.pairMsg (W3 m ρ c (Proc.devRef .tc main_arg1)) (W3 m ρ c (Proc.devRef .tc main_v30)) (W3 m ρ c (Proc.devRef .tc main_v5))
      (W3 m ρ c (Proc.devRef .tc main_v18)) = _
    rw [w3_arg1, w3_v30, w3_v5, w3_v18]; rfl))

theorem w4_v45_1 : W4 m ρ c (Proc.devRef .tc main_v45_1)
    = KT.pairRes (m ((c : Thread nD τ).loc main_arg0)) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg13)) :=
  (W4_arr m ρ c 11).trans ((PairRegion.pair_array (V3 m ρ) c).trans (by
    show Cert.AtomPair.pairOut (W3 m ρ c (Proc.devRef .tc main_arg1)) (W3 m ρ c (Proc.devRef .tc main_v37)) (W3 m ρ c (Proc.devRef .tc main_v44))
      (W3 m ρ c (Proc.devRef .tc main_v9)) (W3 m ρ c (Proc.devRef .tc main_v19)) (W3 m ρ c (Proc.devRef .tc main_v12)) (W3 m ρ c (Proc.devRef .tc main_v20)) = _
    rw [w3_arg1, w3_v37, w3_v44, w3_v9, w3_v19, w3_v12, w3_v20]; rfl))

theorem w4_arg0 : W4 m ρ c (Proc.devRef .tc main_arg0) = (m ((c : Thread nD τ).loc main_arg0)) :=
  (W4_of_ne m ρ c main_arg0 (by decide)).trans (w3_arg0 m ρ c)
theorem w4_v1 : W4 m ρ c (Proc.devRef .tc main_v1) = KT.colI (m ((c : Thread nD τ).loc main_arg13)) :=
  (W4_of_ne m ρ c main_v1 (by decide)).trans (w3_v1 m ρ c)
theorem w4_v14 : W4 m ρ c (Proc.devRef .tc main_v14) = KT.waoA (m ((c : Thread nD τ).loc main_arg4)) :=
  (W4_of_ne m ρ c main_v14 (by decide)).trans (w3_v14 m ρ c)
theorem w4_v16 : W4 m ρ c (Proc.devRef .tc main_v16) = KT.waoP (m ((c : Thread nD τ).loc main_arg4)) :=
  (W4_of_ne m ρ c main_v16 (by decide)).trans (w3_v16 m ρ c)
theorem w4_v21 : W4 m ρ c (Proc.devRef .tc main_v21) = KT.row50 (m ((c : Thread nD τ).loc main_arg5)) :=
  (W4_of_ne m ρ c main_v21 (by decide)).trans (w3_v21 m ρ c)
theorem w4_v17 : W4 m ρ c (Proc.devRef .tc main_v17) = KT.waa (m ((c : Thread nD τ).loc main_arg6)) :=
  (W4_of_ne m ρ c main_v17 (by decide)).trans (w3_v17 m ρ c)
theorem w4_v22 : W4 m ρ c (Proc.devRef .tc main_v22) = KT.row50 (m ((c : Thread nD τ).loc main_arg7)) :=
  (W4_of_ne m ρ c main_v22 (by decide)).trans (w3_v22 m ρ c)

/-! ## After the third host stretch: the messages summed into their source atoms -/

theorem w5_v49 : W5 m ρ c (Proc.devRef .tc main_v49) = KT.sums (m ((c : Thread nD τ).loc main_arg0)) (m ((c : Thread nD τ).loc main_arg1)) (m ((c : Thread nD τ).loc main_arg2)) (m ((c : Thread nD τ).loc main_arg3)) (m ((c : Thread nD τ).loc main_arg13)) := by
  show StableHlo.after hostOps2 (W4 m ρ c) (Proc.devRef .tc main_v49) = _
  after_results
  rw [w4_v1, w4_v45_0]; rfl

theorem w5_arg0 : W5 m ρ c (Proc.devRef .tc main_arg0) = (m ((c : Thread nD τ).loc main_arg0)) :=
  (keep2 m ρ c main_arg0 (by decide)).trans (w4_arg0 m ρ c)
theorem w5_v14 : W5 m ρ c (Proc.devRef .tc main_v14) = KT.waoA (m ((c : Thread nD τ).loc main_arg4)) :=
  (keep2 m ρ c main_v14 (by decide)).trans (w4_v14 m ρ c)
theorem w5_v16 : W5 m ρ c (Proc.devRef .tc main_v16) = KT.waoP (m ((c : Thread nD τ).loc main_arg4)) :=
  (keep2 m ρ c main_v16 (by decide)).trans (w4_v16 m ρ c)
theorem w5_v21 : W5 m ρ c (Proc.devRef .tc main_v21) = KT.row50 (m ((c : Thread nD τ).loc main_arg5)) :=
  (keep2 m ρ c main_v21 (by decide)).trans (w4_v21 m ρ c)
theorem w5_v17 : W5 m ρ c (Proc.devRef .tc main_v17) = KT.waa (m ((c : Thread nD τ).loc main_arg6)) :=
  (keep2 m ρ c main_v17 (by decide)).trans (w4_v17 m ρ c)
theorem w5_v22 : W5 m ρ c (Proc.devRef .tc main_v22) = KT.row50 (m ((c : Thread nD τ).loc main_arg7)) :=
  (keep2 m ρ c main_v22 (by decide)).trans (w4_v22 m ρ c)

theorem w5_v45_1 : W5 m ρ c (Proc.devRef .tc main_v45_1)
    = KT.pairRes (m ((c : Thread nD τ).loc main_arg0)) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg13)) :=
  (keep2 m ρ c main_v45_1 (by decide)).trans (w4_v45_1 m ρ c)

/-! ## Through the third kernel: the two results at the return -/

/-- THE ATOM RESULT, as the return leaves it. -/
theorem fold_atom : W6 m ρ c (Proc.devRef .tc main_v50)
    = KT.atomRes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg13)) :=
  (W6_arr m ρ c 7).trans ((AtomRegion.atom_array (V5 m ρ) c).trans (by
    show Cert.AtomPair.atomOut (W5 m ρ c (Proc.devRef .tc main_arg0)) (W5 m ρ c (Proc.devRef .tc main_v49)) (W5 m ρ c (Proc.devRef .tc main_v14))
      (W5 m ρ c (Proc.devRef .tc main_v16)) (W5 m ρ c (Proc.devRef .tc main_v21)) (W5 m ρ c (Proc.devRef .tc main_v17)) (W5 m ρ c (Proc.devRef .tc main_v22)) = _
    rw [w5_arg0, w5_v49, w5_v14, w5_v16, w5_v21, w5_v17, w5_v22]; rfl))

/-- THE PAIR RESULT, as the return leaves it. -/
theorem fold_pair : W6 m ρ c (Proc.devRef .tc main_v45_1)
    = KT.pairRes (m ((c : Thread nD τ).loc main_arg0)) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg13)) :=
  (W6_of_ne m ρ c main_v45_1 (by decide)).trans (w5_v45_1 m ρ c)

end Cert.KernelIdeal.KFold

end
-- ==== Proof.KValue.lean ====
/-
  The idealized kernel's run, with its two results at their functions of the launch memory.

  Every weakly fair execution terminates without a fault; the atom result ends at the third kernel's function of
  the atom features, the summed messages and the weights, the pair result at the second kernel's function of the
  pair features, the gathered products and the weights — each traced back through the host operations to the
  argument arrays —, and no argument array is changed.
-/
import proofs.«105599_j14705968022035_2_alg».proof.Proof.KRun
import proofs.«105599_j14705968022035_2_alg».proof.Proof.KFold

set_option maxRecDepth 16384

noncomputable section

namespace Cert.KernelIdeal.KValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The run, read: both results named, every argument as launched. -/
theorem run : θ_run defs (onTc (τ := τ) (main (F := Ideal))) ⟨m, fun _ => 0, ρ⟩ (fun r => ∀ c : Dev nD,
      r.2.mem ((c.tc : Thread nD τ).loc main_v50)
        = KT.atomRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13))
      ∧ r.2.mem ((c.tc : Thread nD τ).loc main_v45_1)
        = KT.pairRes (m ((c.tc : Thread nD τ).loc main_arg0)) (m ((c.tc : Thread nD τ).loc main_arg1)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_v50 (by decide))).trans (KFold.fold_atom m ρ c),
     (h c _ (mem_uc main_v45_1 (by decide))).trans (KFold.fold_pair m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c)⟩)
    (KRun.run_all m ρ)

end Cert.KernelIdeal.KValue

end
-- ==== Proof.LibRowGather.lean ====
/-
  A ROW GATHER read at an index.

  `x[idx]` of a table `x : [N, C]` at a column of integers `idx : [P, 1]` (one start index per result row) is
  StableHLO's gather with offset axis 1, collapsed axis 0, start-index map [0], the index vector on axis 1 and
  slices of one whole row. Result entry `(p, q)` is the table's entry `(ρ p, q)`, where `ρ p` is the start index
  `idx[p, 0]` read as a signed integer and clamped into `[0, N − 1]` — the same row for every column `q`, and the same
  row whatever the table's width `C`. That last fact is what lets a product on the right be taken before or after
  the gather: `(X · W)[ρ p, q] = ∑ k, X[ρ p, k] · W[k, q]`.
-/
import Idealize.ShloMosaic.PureOps.Ideal
import Idealize.ShloMosaic.Lib.ValueIdx

noncomputable section

namespace Cert.RowGather

open Idealize.ShloMosaic Idealize.ShloMosaic.ValueIdx

/-- The row of an `N`-row table that result row `p`'s start index selects: the 32-bit word read signed and clamped
    into `[0, N − 1]`. It does not depend on the table's width. -/
def rowOf (N : Nat) (hN : 0 < N) {P : Nat} (idx : (⟨2, ![P, 1]⟩ : Shape).Idx → BitVec 32) (p : Fin P) : Fin N :=
  ⟨min (idx (ix2 p 0)).toInt.toNat (N - 1), by omega⟩

/-- The dimension numbers of a row gather from `[N, C]` by `[P, 1]` start indices into `[P, C]`; their conditions
    `wf` are decided on a program's literal shapes. -/
abbrev rowDims (N P C : Nat)
    (wf : GatherDims.WF ⟨2, ![N, C]⟩ ⟨2, ![P, 1]⟩ ⟨2, ![P, C]⟩ [1] [0] [] [0] [] 1 ![1, C]) :
    GatherDims ⟨2, ![N, C]⟩ ⟨2, ![P, 1]⟩ ⟨2, ![P, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(p, q)`: the table at row `rowOf … p`, column `q`. -/
theorem gather_rows_apply {α : Type} {N P C : Nat} (hN : 0 < N)
    (wf : GatherDims.WF ⟨2, ![N, C]⟩ ⟨2, ![P, 1]⟩ ⟨2, ![P, C]⟩ [1] [0] [] [0] [] 1 ![1, C])
    (x : (⟨2, ![N, C]⟩ : Shape).Idx → α) (idx : IVec ⟨2, ![P, 1]⟩ 32) (p : Fin P) (q : Fin C) :
    Host.gather (rowDims N P C wf) x idx (ix2 p q) = x (ix2 (rowOf N hN idx p) q) := by
  unfold Host.gather
  congr 1
  funext a
  refine Fin.ext ?_
  match a with
  | ⟨0, _⟩ =>
    show (rowDims N P C wf).start (ix2 p q) idx 0 + (rowDims N P C wf).batchCoord (ix2 p q) 0
      + (rowDims N P C wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N P C wf).startIndexMap from List.mem_singleton.mpr rfl)]
    have hsi : (rowDims N P C wf).siIdx (ix2 p q) ⟨List.idxOf (0 : Fin 2) (rowDims N P C wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show (rowDims N P C wf).start (ix2 p q) idx 1 + (rowDims N P C wf).batchCoord (ix2 p q) 1
      + (rowDims N P C wf).offCoord (ix2 p q) 1 = _
    rw [GatherDims.batchCoord_eq_zero _ _ _ List.not_mem_nil]
    unfold GatherDims.start
    have h10 : ¬ (1 : Fin 2) ∈ [(0 : Fin 2)] := fun h =>
      absurd (congrArg Fin.val (List.mem_singleton.mp h)) Nat.one_ne_zero
    rw [dif_neg (show ¬ (1 : Fin 2) ∈ (rowDims N P C wf).startIndexMap from h10)]
    unfold GatherDims.offCoord
    rw [dif_pos (show (1 : Fin 2) ∈ (rowDims N P C wf).sKept from
      (GatherDims.mem_sKept _ _).mpr ⟨h10, List.not_mem_nil⟩)]
    simp only [Nat.add_zero, Nat.zero_add]
    rfl

end Cert.RowGather

end
-- ==== Proof.KReads.lean ====
/-
  The kernel program's host terms, read at an index.

  A stretch of rows of a weight matrix reads the matrix at the shifted row (the change of float format is the
  identity on extended reals); a bias vector reshaped to a row reads the vector at the column; and a row gather of a
  product `X · W` reads, at pair `p` and column `q`, the sum over the shared coordinate of the selected row of
  `X` against column `q` of `W` — the selected row being the same whatever the width of the gathered table.
-/
import proofs.«105599_j14705968022035_2_alg».proof.Proof.KTerms
import proofs.«105599_j14705968022035_2_alg».proof.Proof.LibRowGather
import Idealize.ShloMosaic.Lib.Pipeline.Value
import Idealize.ShloMosaic.Lib.ValueIdx
import Idealize.ShloMosaic.Lib.ValueLayout

noncomputable section

open scoped BigOperators

namespace Cert.KernelIdeal.KReads

open Cert.KernelIdeal Cert.KernelIdeal.Facts₀ Cert.KernelIdeal.KT Idealize.ShloMosaic Idealize.ShloMosaic.ValueIdx

/-! ## The weight matrices' stretches of rows -/

/-- Row `k` of the first 14 rows of the message weights is row `k` of the matrix. -/
theorem wpaP_at (x2 : FVec Ideal S89x32 .f32) (k : Fin 14) (q : Fin 32) :
    wpaP x2 (ix2 k q) = x2 (ix2 (⟨k.val, by omega⟩ : Fin 89) q) := by
  unfold wpaP
  show extractStridedSlice S14x32 ![0, 0] x2 slices_S89x32_S14x32_0_0 (ix2 k q) = _
  exact slice2_axis0_apply 0 x2 slices_S89x32_S14x32_0_0 k q ⟨k.val, by omega⟩ (Nat.zero_add _).symm

/-- Row `k` of the last 75 rows of the message weights is row `14 + k` of the matrix. -/
theorem wpaA_at (x2 : FVec Ideal S89x32 .f32) (k : Fin 75) (q : Fin 32) :
    wpaA x2 (ix2 k q) = x2 (ix2 (⟨14 + k.val, by omega⟩ : Fin 89) q) := by
  unfold wpaA
  show extractStridedSlice S75x32 ![14, 0] x2 slices_S89x32_S75x32_14_0 (ix2 k q) = _
  exact slice2_axis0_apply 14 x2 slices_S89x32_S75x32_14_0 k q ⟨14 + k.val, by omega⟩ rfl

/-- Row `k` of the first 14 rows of the pair-update weights is row `k` of the matrix. -/
theorem wapP_at (x8 : FVec Ideal S89x50 .f32) (k : Fin 14) (q : Fin 50) :
    wapP x8 (ix2 k q) = x8 (ix2 (⟨k.val, by omega⟩ : Fin 89) q) := by
  unfold wapP
  show extractStridedSlice S14x50 ![0, 0] x8 slices_S89x50_S14x50_0_0 (ix2 k q) = _
  exact slice2_axis0_apply 0 x8 slices_S89x50_S14x50_0_0 k q ⟨k.val, by omega⟩ (Nat.zero_add _).symm

/-- Row `k` of the last 75 rows of the pair-update weights is row `14 + k` of the matrix. -/
theorem wapA_at (x8 : FVec Ideal S89x50 .f32) (k : Fin 75) (q : Fin 50) :
    wapA x8 (ix2 k q) = x8 (ix2 (⟨14 + k.val, by omega⟩ : Fin 89) q) := by
  unfold wapA
  show extractStridedSlice S75x50 ![14, 0] x8 slices_S89x50_S75x50_14_0 (ix2 k q) = _
  exact slice2_axis0_apply 14 x8 slices_S89x50_S75x50_14_0 k q ⟨14 + k.val, by omega⟩ rfl

/-- Row `k` of the first 75 rows of the atom-update weights is row `k` of the matrix. -/
theorem waoA_at (x4 : FVec Ideal S107x50 .f32) (k : Fin 75) (q : Fin 50) :
    waoA x4 (ix2 k q) = x4 (ix2 (⟨k.val, by omega⟩ : Fin 107) q) := by
  unfold waoA
  show extractStridedSlice S75x50 ![0, 0] x4 slices_S107x50_S75x50_0_0 (ix2 k q) = _
  exact slice2_axis0_apply 0 x4 slices_S107x50_S75x50_0_0 k q ⟨k.val, by omega⟩ (Nat.zero_add _).symm

/-- Row `k` of the last 32 rows of the atom-update weights is row `75 + k` of the matrix. -/
theorem waoP_at (x4 : FVec Ideal S107x50 .f32) (k : Fin 32) (q : Fin 50) :
    waoP x4 (ix2 k q) = x4 (ix2 (⟨75 + k.val, by omega⟩ : Fin 107) q) := by
  unfold waoP
  show extractStridedSlice S32x50 ![75, 0] x4 slices_S107x50_S32x50_75_0 (ix2 k q) = _
  exact slice2_axis0_apply 75 x4 slices_S107x50_S32x50_75_0 k q ⟨75 + k.val, by omega⟩ rfl

/-- A change of float format is the identity on extended reals. -/
theorem wpp_at (x10 : FVec Ideal S14x50 .f32) (i : S14x50.Idx) : wpp x10 i = x10 i := rfl

/-- A change of float format is the identity on extended reals. -/
theorem waa_at (x6 : FVec Ideal S75x50 .f32) (i : S75x50.Idx) : waa x6 i = x6 i := rfl

/-! ## The bias rows -/

/-- A vector of 32 entries as a row reads the vector at the column. -/
theorem row32_at (x3 : FVec Ideal S32 .f32) (q : Fin 32) : row32 x3 (ix2 0 q) = x3 (ix1 q) := by
  unfold row32
  exact shapeCast_a_1a_apply x3 shapeCasts_S32_S1x32 0 q

/-- A vector of 50 entries as a row reads the vector at the column. -/
theorem row50_at (x : FVec Ideal S50 .f32) (q : Fin 50) : row50 x (ix2 0 q) = x (ix1 q) := by
  unfold row50
  exact shapeCast_a_1a_apply x shapeCasts_S50_S1x50 0 q

/-! ## The three gathered products -/

/-- The first product's row at pair `p`'s other atom: the selected atom's features against the atom rows of the
    message weights. -/
theorem gjpa_at (x0 : FVec Ideal S100000x75 .f32) (x2 : FVec Ideal S89x32 .f32) (x13 : IVec S1600000x2 32)
    (p : Fin 1600000) (q : Fin 32) :
    gjpa x0 x2 x13 (ix2 p q)
      = ∑ k : Fin 75, x0 (ix2 (Cert.RowGather.rowOf 100000 (by decide) (wrapIdx (colJ x13)) p) k)
          * x2 (ix2 (⟨14 + k.val, by omega⟩ : Fin 89) q) := by
  unfold gjpa projPa
  refine (Cert.RowGather.gather_rows_apply (N := 100000) (P := 1600000) (C := 32) (by decide)
    gather_S100000x32_S1600000x1_S1600000x32_1_0_n_n_0_1_132_wf _ _ p q).trans ?_
  unfold Cert.AtomPair.mm
  exact Finset.sum_congr rfl fun k _ => congrArg _ (wpaA_at x2 k q)

/-- The second product's row at pair `p`'s other atom. -/
theorem gjap_at (x0 : FVec Ideal S100000x75 .f32) (x8 : FVec Ideal S89x50 .f32) (x13 : IVec S1600000x2 32)
    (p : Fin 1600000) (q : Fin 50) :
    gjap x0 x8 x13 (ix2 p q)
      = ∑ k : Fin 75, x0 (ix2 (Cert.RowGather.rowOf 100000 (by decide) (wrapIdx (colJ x13)) p) k)
          * x8 (ix2 (⟨14 + k.val, by omega⟩ : Fin 89) q) := by
  unfold gjap projAp
  refine (Cert.RowGather.gather_rows_apply (N := 100000) (P := 1600000) (C := 50) (by decide)
    gather_S100000x50_S1600000x1_S1600000x50_1_0_n_n_0_1_150_wf _ _ p q).trans ?_
  unfold Cert.AtomPair.mm
  exact Finset.sum_congr rfl fun k _ => congrArg _ (wapA_at x8 k q)

/-- The second product's row at pair `p`'s source atom. -/
theorem giap_at (x0 : FVec Ideal S100000x75 .f32) (x8 : FVec Ideal S89x50 .f32) (x13 : IVec S1600000x2 32)
    (p : Fin 1600000) (q : Fin 50) :
    giap x0 x8 x13 (ix2 p q)
      = ∑ k : Fin 75, x0 (ix2 (Cert.RowGather.rowOf 100000 (by decide) (wrapIdx (colI x13)) p) k)
          * x8 (ix2 (⟨14 + k.val, by omega⟩ : Fin 89) q) := by
  unfold giap projAp
  refine (Cert.RowGather.gather_rows_apply (N := 100000) (P := 1600000) (C := 50) (by decide)
    gather_S100000x50_S1600000x1_S1600000x50_1_0_n_n_0_1_150_wf _ _ p q).trans ?_
  unfold Cert.AtomPair.mm
  exact Finset.sum_congr rfl fun k _ => congrArg _ (wapA_at x8 k q)

end Cert.KernelIdeal.KReads

end
-- ==== Proof.RefForms.lean ====
/-
  The reference program's three dense stages, each read at one index.

  Every stage is `relu (X · W + b)` where the row of `X` is a concatenation of two shorter rows; the sum over the
  joined axis is the sum over its two stretches, and on each stretch the concatenation reads one of its two pieces.
  A gathered piece is the atom table's row named by the pair's start index; the summed messages stay an opaque
  array. The bias is a vector added to every row, and `relu` is the maximum with the zero word.
-/
import proofs.«105599_j14705968022035_2_alg».proof.Proof.Gen.ReferenceIdeal.Read
import proofs.«105599_j14705968022035_2_alg».proof.Proof.Spec
import proofs.«105599_j14705968022035_2_alg».proof.Proof.LibRowGather
import Idealize.ShloMosaic.Lib.Pipeline.Value
import Idealize.ShloMosaic.Lib.ValueIdx
import Idealize.ShloMosaic.PureOps.Ideal.Laws

noncomputable section

open scoped BigOperators

namespace Cert.ReferenceIdeal.Forms

open Cert.ReferenceIdeal Cert.ReferenceIdeal.Gen Cert.ReferenceIdeal.Read Idealize.ShloMosaic Idealize.ShloMosaic.ValueIdx

/-! ## A two-piece concatenation along the columns, read on either side of the seam -/

/-- Left of the seam (column `k < a`) a concatenation of an `[P, a]` and a `[P, b]` array reads its first piece. -/
theorem cat_left {α : Type} {P a b c : Nat}
    (h : Shape.Concatenates [(⟨2, ![P, a]⟩ : Shape), ⟨2, ![P, b]⟩] ⟨2, ![P, c]⟩ 1)
    (x₁ : (⟨2, ![P, a]⟩ : Shape).Idx → α) (x₂ : (⟨2, ![P, b]⟩ : Shape).Idx → α) (p : Fin P) (k : Fin a)
    (hk : k.val < c) :
    concatenate ⟨2, ![P, c]⟩ 1 [⟨⟨2, ![P, a]⟩, x₁⟩, ⟨⟨2, ![P, b]⟩, x₂⟩] h (ix2 p (⟨k.val, hk⟩ : Fin c)) = x₁ (ix2 p k) :=
  concatenate_pair_apply_left (t := ⟨2, ![P, c]⟩) (s₁ := ⟨2, ![P, a]⟩) (s₂ := ⟨2, ![P, b]⟩) (1 : Fin 2) x₁ x₂ h _ rfl
    (ix2 p k) (by
      intro d
      match d with
      | ⟨0, _⟩ => rfl
      | ⟨1, _⟩ => rfl)

/-- At or past the seam (column `a + k`) it reads its second piece at column `k`. -/
theorem cat_right {α : Type} {P a b c : Nat}
    (h : Shape.Concatenates [(⟨2, ![P, a]⟩ : Shape), ⟨2, ![P, b]⟩] ⟨2, ![P, c]⟩ 1)
    (x₁ : (⟨2, ![P, a]⟩ : Shape).Idx → α) (x₂ : (⟨2, ![P, b]⟩ : Shape).Idx → α) (p : Fin P) (k : Fin b)
    (hk : a + k.val < c) :
    concatenate ⟨2, ![P, c]⟩ 1 [⟨⟨2, ![P, a]⟩, x₁⟩, ⟨⟨2, ![P, b]⟩, x₂⟩] h (ix2 p (⟨a + k.val, hk⟩ : Fin c)) = x₂ (ix2 p k) :=
  concatenate_pair_apply_right (t := ⟨2, ![P, c]⟩) (s₁ := ⟨2, ![P, a]⟩) (s₂ := ⟨2, ![P, b]⟩) (1 : Fin 2) x₁ x₂ h _ rfl rfl
    (ix2 p k) (by
      intro d hd
      match d with
      | ⟨0, _⟩ => rfl
      | ⟨1, _⟩ => exact absurd rfl hd) (by
      show k.val + a = a + k.val; omega)

/-- A sum over the joined axis of `c = a + b` columns is the sum over the first `a` plus the sum over the last `b`. -/
theorem sum_seam {a b c : Nat} (hc : c = a + b) (f : Fin c → EReal) :
    ∑ k : Fin c, f k
      = ∑ k : Fin a, f ⟨k.val, by have := k.isLt; omega⟩ + ∑ k : Fin b, f ⟨a + k.val, by have := k.isLt; omega⟩ := by
  subst hc
  exact Fin.sum_univ_add f

/-! ## The start rows of the two gathers -/

/-- The atom row a pair's SECOND integer column names (read signed, wrapped, clamped into the table). -/
abbrev rowJ (x13 : (⟨S1600000x2, .i32⟩ : BufTy).Contents (Elt Ideal)) (p : Fin 1600000) : Fin 100000 :=
  Cert.RowGather.rowOf 100000 (by decide) (val_main_v9 (F := Ideal) x13) p
/-- The atom row a pair's FIRST integer column names. -/
abbrev rowI (x13 : (⟨S1600000x2, .i32⟩ : BufTy).Contents (Elt Ideal)) (p : Fin 1600000) : Fin 100000 :=
  Cert.RowGather.rowOf 100000 (by decide) (val_main_v38 (F := Ideal) x13) p

/-- The first gather reads the atom table's row `rowJ p`. -/
theorem v10_at (x0 : (⟨S100000x75, .f32⟩ : BufTy).Contents (Elt Ideal)) (x13 : (⟨S1600000x2, .i32⟩ : BufTy).Contents (Elt Ideal)) (p : Fin 1600000) (k : Fin 75) :
    val_main_v10 (F := Ideal) x0 x13 (ix2 p k) = x0 (ix2 (rowJ x13 p) k) :=
  Cert.RowGather.gather_rows_apply (N := 100000) (P := 1600000) (C := 75) (by decide)
    gather_S100000x75_S1600000x1_S1600000x75_1_0_n_n_0_1_175_wf x0 (val_main_v9 (F := Ideal) x13) p k

/-- The second gather reads the atom table's row `rowI p`. -/
theorem v39_at (x0 : (⟨S100000x75, .f32⟩ : BufTy).Contents (Elt Ideal)) (x13 : (⟨S1600000x2, .i32⟩ : BufTy).Contents (Elt Ideal)) (p : Fin 1600000) (k : Fin 75) :
    val_main_v39 (F := Ideal) x0 x13 (ix2 p k) = x0 (ix2 (rowI x13 p) k) :=
  Cert.RowGather.gather_rows_apply (N := 100000) (P := 1600000) (C := 75) (by decide)
    gather_S100000x75_S1600000x1_S1600000x75_1_0_n_n_0_1_175_wf x0 (val_main_v38 (F := Ideal) x13) p k

/-- The sum of the two gathered rows. -/
theorem v40_at (x0 : (⟨S100000x75, .f32⟩ : BufTy).Contents (Elt Ideal)) (x13 : (⟨S1600000x2, .i32⟩ : BufTy).Contents (Elt Ideal)) (p : Fin 1600000) (k : Fin 75) :
    val_main_v40 (F := Ideal) x0 x13 (ix2 p k) = x0 (ix2 (rowI x13 p) k) + x0 (ix2 (rowJ x13 p) k) := by
  rw [val_main_v40_apply, Ideal.addf_def, v39_at, v10_at]

/-! ## The zero every relu compares with -/

theorem zero_call0 (i : S1600000x32.Idx) : val_main_call0_v0 (F := Ideal) i = Cert.AtomPair.z := by
  rw [val_main_call0_v0_apply]; rfl
theorem zero_call1 (i : S100000x50.Idx) : val_main_call1_v0 (F := Ideal) i = Cert.AtomPair.z := by
  rw [val_main_call1_v0_apply]; rfl
theorem zero_call2 (i : S100000x50.Idx) : val_main_call2_v0 (F := Ideal) i = Cert.AtomPair.z := by
  rw [val_main_call2_v0_apply]; rfl
theorem zero_call3 (i : S100000x50.Idx) : val_main_call3_v0 (F := Ideal) i = Cert.AtomPair.z := by
  rw [val_main_call3_v0_apply]; rfl
theorem zero_call4 (i : S1600000x50.Idx) : val_main_call4_v0 (F := Ideal) i = Cert.AtomPair.z := by
  rw [val_main_call4_v0_apply]; rfl
theorem zero_call5 (i : S1600000x50.Idx) : val_main_call5_v0 (F := Ideal) i = Cert.AtomPair.z := by
  rw [val_main_call5_v0_apply]; rfl
theorem zero_call6 (i : S1600000x50.Idx) : val_main_call6_v0 (F := Ideal) i = Cert.AtomPair.z := by
  rw [val_main_call6_v0_apply]; rfl

/-! ## A bias vector added to every row -/

theorem bias_v14 (x3 : (⟨S32, .f32⟩ : BufTy).Contents (Elt Ideal)) (p : Fin 1600000) (q : Fin 32) :
    val_main_v14 (F := Ideal) x3 (ix2 p q) = x3 (ix1 q) := by
  rw [val_main_v14_apply, val_main_v13_apply]
  exact congrArg x3 (funext fun a => by match a with | ⟨0, _⟩ => rfl)
theorem bias_v23 (x5 : (⟨S50, .f32⟩ : BufTy).Contents (Elt Ideal)) (p : Fin 100000) (q : Fin 50) :
    val_main_v23 (F := Ideal) x5 (ix2 p q) = x5 (ix1 q) := by
  rw [val_main_v23_apply, val_main_v22_apply]
  exact congrArg x5 (funext fun a => by match a with | ⟨0, _⟩ => rfl)
theorem bias_v28 (x7 : (⟨S50, .f32⟩ : BufTy).Contents (Elt Ideal)) (p : Fin 100000) (q : Fin 50) :
    val_main_v28 (F := Ideal) x7 (ix2 p q) = x7 (ix1 q) := by
  rw [val_main_v28_apply, val_main_v27_apply]
  exact congrArg x7 (funext fun a => by match a with | ⟨0, _⟩ => rfl)
theorem bias_v44 (x9 : (⟨S50, .f32⟩ : BufTy).Contents (Elt Ideal)) (p : Fin 1600000) (q : Fin 50) :
    val_main_v44 (F := Ideal) x9 (ix2 p q) = x9 (ix1 q) := by
  rw [val_main_v44_apply, val_main_v43_apply]
  exact congrArg x9 (funext fun a => by match a with | ⟨0, _⟩ => rfl)
theorem bias_v49 (x11 : (⟨S50, .f32⟩ : BufTy).Contents (Elt Ideal)) (p : Fin 1600000) (q : Fin 50) :
    val_main_v49 (F := Ideal) x11 (ix2 p q) = x11 (ix1 q) := by
  rw [val_main_v49_apply, val_main_v48_apply]
  exact congrArg x11 (funext fun a => by match a with | ⟨0, _⟩ => rfl)

/-! ## The two products with an unsplit row -/

/-- `(x0 · x6)[r, q]`. -/
theorem dot_v26 (x0 : (⟨S100000x75, .f32⟩ : BufTy).Contents (Elt Ideal)) (x6 : (⟨S75x50, .f32⟩ : BufTy).Contents (Elt Ideal)) (r : Fin 100000) (q : Fin 50) :
    val_main_v26 (F := Ideal) x0 x6 (ix2 r q) = ∑ k : Fin 75, x0 (ix2 r k) * x6 (ix2 k q) := by
  rw [val_main_v26_apply]
  refine Finset.sum_congr rfl fun k _ => ?_
  have el : lidx_main_v26 (ix2 r q) k = ix2 r k := funext fun a => by match a with | ⟨0, _⟩ => rfl | ⟨1, _⟩ => rfl
  have er : ridx_main_v26 (ix2 r q) k = ix2 k q := funext fun a => by match a with | ⟨0, _⟩ => rfl | ⟨1, _⟩ => rfl
  rw [el, er]

/-- `(x1 · x10)[p, q]`. -/
theorem dot_v47 (x1 : (⟨S1600000x14, .f32⟩ : BufTy).Contents (Elt Ideal)) (x10 : (⟨S14x50, .f32⟩ : BufTy).Contents (Elt Ideal)) (p : Fin 1600000) (q : Fin 50) :
    val_main_v47 (F := Ideal) x1 x10 (ix2 p q) = ∑ k : Fin 14, x1 (ix2 p k) * x10 (ix2 k q) := by
  rw [val_main_v47_apply]
  refine Finset.sum_congr rfl fun k _ => ?_
  have el : lidx_main_v47 (ix2 p q) k = ix2 p k := funext fun a => by match a with | ⟨0, _⟩ => rfl | ⟨1, _⟩ => rfl
  have er : ridx_main_v47 (ix2 p q) k = ix2 k q := funext fun a => by match a with | ⟨0, _⟩ => rfl | ⟨1, _⟩ => rfl
  rw [el, er]

/-! ## The concatenated rows on either side of the seam -/

/-- The message stage's row: pair features left of column 14. -/
theorem v11_left (x0 : (⟨S100000x75, .f32⟩ : BufTy).Contents (Elt Ideal)) (x1 : (⟨S1600000x14, .f32⟩ : BufTy).Contents (Elt Ideal)) (x13 : (⟨S1600000x2, .i32⟩ : BufTy).Contents (Elt Ideal)) (p : Fin 1600000) (k : Fin 14) (hk : k.val < 89) :
    val_main_v11 (F := Ideal) x0 x1 x13 (ix2 p (⟨k.val, hk⟩ : Fin 89)) = x1 (ix2 p k) :=
  cat_left concatenates_S1600000x14_S1600000x75_S1600000x89_d1 x1 (val_main_v10 (F := Ideal) x0 x13) p k hk

/-- The message stage's row: the gathered atom row from column 14 on. -/
theorem v11_right (x0 : (⟨S100000x75, .f32⟩ : BufTy).Contents (Elt Ideal)) (x1 : (⟨S1600000x14, .f32⟩ : BufTy).Contents (Elt Ideal)) (x13 : (⟨S1600000x2, .i32⟩ : BufTy).Contents (Elt Ideal)) (p : Fin 1600000) (k : Fin 75) (hk : 14 + k.val < 89) :
    val_main_v11 (F := Ideal) x0 x1 x13 (ix2 p (⟨14 + k.val, hk⟩ : Fin 89)) = x0 (ix2 (rowJ x13 p) k) :=
  (cat_right concatenates_S1600000x14_S1600000x75_S1600000x89_d1 x1 (val_main_v10 (F := Ideal) x0 x13) p k hk).trans
    (v10_at x0 x13 p k)

/-- The pair stage's row: pair features left of column 14. -/
theorem v41_left (x0 : (⟨S100000x75, .f32⟩ : BufTy).Contents (Elt Ideal)) (x1 : (⟨S1600000x14, .f32⟩ : BufTy).Contents (Elt Ideal)) (x13 : (⟨S1600000x2, .i32⟩ : BufTy).Contents (Elt Ideal)) (p : Fin 1600000) (k : Fin 14) (hk : k.val < 89) :
    val_main_v41 (F := Ideal) x0 x1 x13 (ix2 p (⟨k.val, hk⟩ : Fin 89)) = x1 (ix2 p k) :=
  cat_left concatenates_S1600000x14_S1600000x75_S1600000x89_d1 x1 (val_main_v40 (F := Ideal) x0 x13) p k hk

/-- The pair stage's row: the sum of the two gathered atom rows from column 14 on. -/
theorem v41_right (x0 : (⟨S100000x75, .f32⟩ : BufTy).Contents (Elt Ideal)) (x1 : (⟨S1600000x14, .f32⟩ : BufTy).Contents (Elt Ideal)) (x13 : (⟨S1600000x2, .i32⟩ : BufTy).Contents (Elt Ideal)) (p : Fin 1600000) (k : Fin 75) (hk : 14 + k.val < 89) :
    val_main_v41 (F := Ideal) x0 x1 x13 (ix2 p (⟨14 + k.val, hk⟩ : Fin 89))
      = x0 (ix2 (rowI x13 p) k) + x0 (ix2 (rowJ x13 p) k) :=
  (cat_right concatenates_S1600000x14_S1600000x75_S1600000x89_d1 x1 (val_main_v40 (F := Ideal) x0 x13) p k hk).trans
    (v40_at x0 x13 p k)

/-- The atom stage's row: atom features left of column 75. -/
theorem v20_left (x0 : (⟨S100000x75, .f32⟩ : BufTy).Contents (Elt Ideal)) (x1 : (⟨S1600000x14, .f32⟩ : BufTy).Contents (Elt Ideal)) (x2 : (⟨S89x32, .f32⟩ : BufTy).Contents (Elt Ideal)) (x3 : (⟨S32, .f32⟩ : BufTy).Contents (Elt Ideal)) (x13 : (⟨S1600000x2, .i32⟩ : BufTy).Contents (Elt Ideal)) (r : Fin 100000) (k : Fin 75) (hk : k.val < 107) :
    val_main_v20 (F := Ideal) x0 x1 x2 x3 x13 (ix2 r (⟨k.val, hk⟩ : Fin 107)) = x0 (ix2 r k) :=
  cat_left concatenates_S100000x75_S100000x32_S100000x107_d1 x0 (val_main_v19 (F := Ideal) x0 x1 x2 x3 x13) r k hk

/-- The atom stage's row: the summed messages from column 75 on. -/
theorem v20_right (x0 : (⟨S100000x75, .f32⟩ : BufTy).Contents (Elt Ideal)) (x1 : (⟨S1600000x14, .f32⟩ : BufTy).Contents (Elt Ideal)) (x2 : (⟨S89x32, .f32⟩ : BufTy).Contents (Elt Ideal)) (x3 : (⟨S32, .f32⟩ : BufTy).Contents (Elt Ideal)) (x13 : (⟨S1600000x2, .i32⟩ : BufTy).Contents (Elt Ideal)) (r : Fin 100000) (k : Fin 32) (hk : 75 + k.val < 107) :
    val_main_v20 (F := Ideal) x0 x1 x2 x3 x13 (ix2 r (⟨75 + k.val, hk⟩ : Fin 107))
      = val_main_v19 (F := Ideal) x0 x1 x2 x3 x13 (ix2 r k) :=
  cat_right concatenates_S100000x75_S100000x32_S100000x107_d1 x0 (val_main_v19 (F := Ideal) x0 x1 x2 x3 x13) r k hk

/-! ## The three products with a concatenated row, each as its two stretches -/

/-- `(concat(x1, gathered) · x2)[p, q]`. -/
theorem dot_v12 (x0 : (⟨S100000x75, .f32⟩ : BufTy).Contents (Elt Ideal)) (x1 : (⟨S1600000x14, .f32⟩ : BufTy).Contents (Elt Ideal)) (x2 : (⟨S89x32, .f32⟩ : BufTy).Contents (Elt Ideal)) (x13 : (⟨S1600000x2, .i32⟩ : BufTy).Contents (Elt Ideal)) (p : Fin 1600000) (q : Fin 32) :
    val_main_v12 (F := Ideal) x0 x1 x2 x13 (ix2 p q)
      = ∑ k : Fin 14, x1 (ix2 p k) * x2 (ix2 (⟨k.val, by omega⟩ : Fin 89) q)
        + ∑ k : Fin 75, x0 (ix2 (rowJ x13 p) k) * x2 (ix2 (⟨14 + k.val, by omega⟩ : Fin 89) q) := by
  rw [val_main_v12_apply, sum_seam (a := 14) (b := 75) rfl]
  refine congrArg₂ (· + ·) ?_ ?_
  · refine Finset.sum_congr rfl fun k _ => ?_
    have el : lidx_main_v12 (ix2 p q) (⟨k.val, by omega⟩ : Fin 89) = ix2 p (⟨k.val, by omega⟩ : Fin 89) := funext fun a => by match a with | ⟨0, _⟩ => rfl | ⟨1, _⟩ => rfl
    have er : ridx_main_v12 (ix2 p q) (⟨k.val, by omega⟩ : Fin 89) = ix2 (⟨k.val, by omega⟩ : Fin 89) q := funext fun a => by match a with | ⟨0, _⟩ => rfl | ⟨1, _⟩ => rfl
    rw [el, er, v11_left]
  · refine Finset.sum_congr rfl fun k _ => ?_
    have el : lidx_main_v12 (ix2 p q) (⟨14 + k.val, by omega⟩ : Fin 89) = ix2 p (⟨14 + k.val, by omega⟩ : Fin 89) := funext fun a => by match a with | ⟨0, _⟩ => rfl | ⟨1, _⟩ => rfl
    have er : ridx_main_v12 (ix2 p q) (⟨14 + k.val, by omega⟩ : Fin 89) = ix2 (⟨14 + k.val, by omega⟩ : Fin 89) q := funext fun a => by match a with | ⟨0, _⟩ => rfl | ⟨1, _⟩ => rfl
    rw [el, er, v11_right]

/-- `(concat(x1, gathered sum) · x8)[p, q]`. -/
theorem dot_v42 (x0 : (⟨S100000x75, .f32⟩ : BufTy).Contents (Elt Ideal)) (x1 : (⟨S1600000x14, .f32⟩ : BufTy).Contents (Elt Ideal)) (x8 : (⟨S89x50, .f32⟩ : BufTy).Contents (Elt Ideal)) (x13 : (⟨S1600000x2, .i32⟩ : BufTy).Contents (Elt Ideal)) (p : Fin 1600000) (q : Fin 50) :
    val_main_v42 (F := Ideal) x0 x1 x8 x13 (ix2 p q)
      = ∑ k : Fin 14, x1 (ix2 p k) * x8 (ix2 (⟨k.val, by omega⟩ : Fin 89) q)
        + ∑ k : Fin 75, (x0 (ix2 (rowI x13 p) k) + x0 (ix2 (rowJ x13 p) k))
            * x8 (ix2 (⟨14 + k.val, by omega⟩ : Fin 89) q) := by
  rw [val_main_v42_apply, sum_seam (a := 14) (b := 75) rfl]
  refine congrArg₂ (· + ·) ?_ ?_
  · refine Finset.sum_congr rfl fun k _ => ?_
    have el : lidx_main_v42 (ix2 p q) (⟨k.val, by omega⟩ : Fin 89) = ix2 p (⟨k.val, by omega⟩ : Fin 89) := funext fun a => by match a with | ⟨0, _⟩ => rfl | ⟨1, _⟩ => rfl
    have er : ridx_main_v42 (ix2 p q) (⟨k.val, by omega⟩ : Fin 89) = ix2 (⟨k.val, by omega⟩ : Fin 89) q := funext fun a => by match a with | ⟨0, _⟩ => rfl | ⟨1, _⟩ => rfl
    rw [el, er, v41_left]
  · refine Finset.sum_congr rfl fun k _ => ?_
    have el : lidx_main_v42 (ix2 p q) (⟨14 + k.val, by omega⟩ : Fin 89) = ix2 p (⟨14 + k.val, by omega⟩ : Fin 89) := funext fun a => by match a with | ⟨0, _⟩ => rfl | ⟨1, _⟩ => rfl
    have er : ridx_main_v42 (ix2 p q) (⟨14 + k.val, by omega⟩ : Fin 89) = ix2 (⟨14 + k.val, by omega⟩ : Fin 89) q := funext fun a => by match a with | ⟨0, _⟩ => rfl | ⟨1, _⟩ => rfl
    rw [el, er, v41_right]

/-- `(concat(x0, summed messages) · x4)[r, q]`. -/
theorem dot_v21 (x0 : (⟨S100000x75, .f32⟩ : BufTy).Contents (Elt Ideal)) (x1 : (⟨S1600000x14, .f32⟩ : BufTy).Contents (Elt Ideal)) (x2 : (⟨S89x32, .f32⟩ : BufTy).Contents (Elt Ideal)) (x3 : (⟨S32, .f32⟩ : BufTy).Contents (Elt Ideal)) (x4 : (⟨S107x50, .f32⟩ : BufTy).Contents (Elt Ideal)) (x13 : (⟨S1600000x2, .i32⟩ : BufTy).Contents (Elt Ideal)) (r : Fin 100000) (q : Fin 50) :
    val_main_v21 (F := Ideal) x0 x1 x2 x3 x4 x13 (ix2 r q)
      = ∑ k : Fin 75, x0 (ix2 r k) * x4 (ix2 (⟨k.val, by omega⟩ : Fin 107) q)
        + ∑ k : Fin 32, val_main_v19 (F := Ideal) x0 x1 x2 x3 x13 (ix2 r k)
            * x4 (ix2 (⟨75 + k.val, by omega⟩ : Fin 107) q) := by
  rw [val_main_v21_apply, sum_seam (a := 75) (b := 32) rfl]
  refine congrArg₂ (· + ·) ?_ ?_
  · refine Finset.sum_congr rfl fun k _ => ?_
    have el : lidx_main_v21 (ix2 r q) (⟨k.val, by omega⟩ : Fin 107) = ix2 r (⟨k.val, by omega⟩ : Fin 107) := funext fun a => by match a with | ⟨0, _⟩ => rfl | ⟨1, _⟩ => rfl
    have er : ridx_main_v21 (ix2 r q) (⟨k.val, by omega⟩ : Fin 107) = ix2 (⟨k.val, by omega⟩ : Fin 107) q := funext fun a => by match a with | ⟨0, _⟩ => rfl | ⟨1, _⟩ => rfl
    rw [el, er, v20_left]
  · refine Finset.sum_congr rfl fun k _ => ?_
    have el : lidx_main_v21 (ix2 r q) (⟨75 + k.val, by omega⟩ : Fin 107) = ix2 r (⟨75 + k.val, by omega⟩ : Fin 107) := funext fun a => by match a with | ⟨0, _⟩ => rfl | ⟨1, _⟩ => rfl
    have er : ridx_main_v21 (ix2 r q) (⟨75 + k.val, by omega⟩ : Fin 107) = ix2 (⟨75 + k.val, by omega⟩ : Fin 107) q := funext fun a => by match a with | ⟨0, _⟩ => rfl | ⟨1, _⟩ => rfl
    rw [el, er, v20_right]

/-! ## The three stages -/

/-- The message of pair `p`, channel `q`: `relu ((concat(x1, x0[rowJ]) · x2)[p, q] + x3[q])`. -/
theorem msg_apply (x0 : (⟨S100000x75, .f32⟩ : BufTy).Contents (Elt Ideal)) (x1 : (⟨S1600000x14, .f32⟩ : BufTy).Contents (Elt Ideal)) (x2 : (⟨S89x32, .f32⟩ : BufTy).Contents (Elt Ideal)) (x3 : (⟨S32, .f32⟩ : BufTy).Contents (Elt Ideal)) (x13 : (⟨S1600000x2, .i32⟩ : BufTy).Contents (Elt Ideal)) (p : Fin 1600000) (q : Fin 32) :
    val_main_v16 (F := Ideal) x0 x1 x2 x3 x13 (ix2 p q)
      = max ((∑ k : Fin 14, x1 (ix2 p k) * x2 (ix2 (⟨k.val, by omega⟩ : Fin 89) q)
              + ∑ k : Fin 75, x0 (ix2 (rowJ x13 p) k) * x2 (ix2 (⟨14 + k.val, by omega⟩ : Fin 89) q))
             + x3 (ix1 q)) Cert.AtomPair.z := by
  rw [val_main_v16_apply, val_main_v15_apply, Ideal.maximumf_def, Ideal.addf_def, zero_call0, dot_v12, bias_v14]

/-- The pair output at `(p, q)`. -/
theorem pair_apply (x0 : (⟨S100000x75, .f32⟩ : BufTy).Contents (Elt Ideal)) (x1 : (⟨S1600000x14, .f32⟩ : BufTy).Contents (Elt Ideal)) (x8 : (⟨S89x50, .f32⟩ : BufTy).Contents (Elt Ideal)) (x9 : (⟨S50, .f32⟩ : BufTy).Contents (Elt Ideal)) (x10 : (⟨S14x50, .f32⟩ : BufTy).Contents (Elt Ideal)) (x11 : (⟨S50, .f32⟩ : BufTy).Contents (Elt Ideal)) (x13 : (⟨S1600000x2, .i32⟩ : BufTy).Contents (Elt Ideal)) (p : Fin 1600000) (q : Fin 50) :
    val_main_v53 (F := Ideal) x0 x1 x8 x9 x10 x11 x13 (ix2 p q)
      = max (max ((∑ k : Fin 14, x1 (ix2 p k) * x8 (ix2 (⟨k.val, by omega⟩ : Fin 89) q)
                    + ∑ k : Fin 75, (x0 (ix2 (rowI x13 p) k) + x0 (ix2 (rowJ x13 p) k))
                        * x8 (ix2 (⟨14 + k.val, by omega⟩ : Fin 89) q))
                   + x9 (ix1 q)) Cert.AtomPair.z
             + max (∑ k : Fin 14, x1 (ix2 p k) * x10 (ix2 k q) + x11 (ix1 q)) Cert.AtomPair.z) Cert.AtomPair.z := by
  rw [val_main_v53_apply, val_main_v52_apply, val_main_v46_apply, val_main_v45_apply, val_main_v51_apply,
    val_main_v50_apply]
  simp only [Ideal.maximumf_def, Ideal.addf_def]
  rw [zero_call6, zero_call4, zero_call5, dot_v42, bias_v44, dot_v47, bias_v49]

/-- The atom output at `(r, q)`; the summed messages stay an opaque array. -/
theorem atom_apply (x0 : (⟨S100000x75, .f32⟩ : BufTy).Contents (Elt Ideal)) (x1 : (⟨S1600000x14, .f32⟩ : BufTy).Contents (Elt Ideal)) (x2 : (⟨S89x32, .f32⟩ : BufTy).Contents (Elt Ideal)) (x3 : (⟨S32, .f32⟩ : BufTy).Contents (Elt Ideal)) (x4 : (⟨S107x50, .f32⟩ : BufTy).Contents (Elt Ideal)) (x5 : (⟨S50, .f32⟩ : BufTy).Contents (Elt Ideal)) (x6 : (⟨S75x50, .f32⟩ : BufTy).Contents (Elt Ideal)) (x7 : (⟨S50, .f32⟩ : BufTy).Contents (Elt Ideal)) (x13 : (⟨S1600000x2, .i32⟩ : BufTy).Contents (Elt Ideal)) (r : Fin 100000) (q : Fin 50) :
    val_main_v32 (F := Ideal) x0 x1 x2 x3 x4 x5 x6 x7 x13 (ix2 r q)
      = max (max ((∑ k : Fin 75, x0 (ix2 r k) * x4 (ix2 (⟨k.val, by omega⟩ : Fin 107) q)
                    + ∑ k : Fin 32, val_main_v19 (F := Ideal) x0 x1 x2 x3 x13 (ix2 r k)
                        * x4 (ix2 (⟨75 + k.val, by omega⟩ : Fin 107) q))
                   + x5 (ix1 q)) Cert.AtomPair.z
             + max (∑ k : Fin 75, x0 (ix2 r k) * x6 (ix2 k q) + x7 (ix1 q)) Cert.AtomPair.z) Cert.AtomPair.z := by
  rw [val_main_v32_apply, val_main_v31_apply, val_main_v25_apply, val_main_v24_apply, val_main_v30_apply,
    val_main_v29_apply]
  simp only [Ideal.maximumf_def, Ideal.addf_def]
  rw [zero_call3, zero_call1, zero_call2, dot_v21, bias_v23, dot_v26, bias_v28]

end Cert.ReferenceIdeal.Forms

end
-- ==== Proof.Bridge.lean ====
/-
  The two programs compute one function.

  Entry by entry, the kernel's terms and the reference's stages are brought to the same sums.
   * Messages. The kernel adds `(X₁ · W[0:14])[p, q]`, the gathered product `(X₀ · W[14:89])[ρ p, q]` and the bias; the
     reference contracts the concatenated row `(X₁[p, ·], X₀[ρ p, ·])` with all 89 rows of `W`. A row gather commutes
     with a product on the right — both read row `ρ p` of `X₀` — and a sum over 89 terms is the sum of its first 14 and
     its last 75: the two are the same extended real, with no condition on the entries.
   * Summed messages. Both programs scatter-add the (now equal) messages by the same index column into the same
     zero array, with the same dimension numbers: one function of equal arguments.
   * Atom output. The same split of a sum over 107 = 75 + 32 terms, twice a bias, three `relu`s.
   * Pair output. The kernel adds the two gathered products `(X₀ · W')[ρᵢ p, q] + (X₀ · W')[ρⱼ p, q]` where the
     reference contracts the SUM of the two gathered rows: `∑ (u + v) · w = ∑ u · w + ∑ v · w`, which holds because the
     atom table's and the weight matrix's entries are real numbers (it fails at infinities of opposite sign).
-/
import proofs.«105599_j14705968022035_2_alg».proof.Proof.KTerms
import proofs.«105599_j14705968022035_2_alg».proof.Proof.KReads
import proofs.«105599_j14705968022035_2_alg».proof.Proof.RefForms

noncomputable section

open scoped BigOperators

namespace Cert.Bridge

open Idealize.ShloMosaic Idealize.ShloMosaic.ValueIdx Cert.AtomPair
open Cert.KernelIdeal.KT Cert.KernelIdeal.KReads
open Cert.ReferenceIdeal.Read Cert.ReferenceIdeal.Forms

variable (x0 : FVec Ideal Cert.KernelIdeal.S100000x75 .f32) (x1 : FVec Ideal Cert.KernelIdeal.S1600000x14 .f32) (x2 : FVec Ideal Cert.KernelIdeal.S89x32 .f32)
  (x3 : FVec Ideal Cert.KernelIdeal.S32 .f32) (x4 : FVec Ideal Cert.KernelIdeal.S107x50 .f32) (x5 : FVec Ideal Cert.KernelIdeal.S50 .f32)
  (x6 : FVec Ideal Cert.KernelIdeal.S75x50 .f32) (x7 : FVec Ideal Cert.KernelIdeal.S50 .f32) (x8 : FVec Ideal Cert.KernelIdeal.S89x50 .f32)
  (x9 : FVec Ideal Cert.KernelIdeal.S50 .f32) (x10 : FVec Ideal Cert.KernelIdeal.S14x50 .f32) (x11 : FVec Ideal Cert.KernelIdeal.S50 .f32)
  (x13 : IVec Cert.KernelIdeal.S1600000x2 32)

/-! ## The messages -/

/-- The kernel's messages (widened back, the identity on extended reals) are the reference's, entry by entry. -/
theorem msg_eq :
    (extf .f32 (msg x0 x1 x2 x3 x13) Cert.KernelIdeal.Facts₀.bitsLt_bf16_f32 : FVec Ideal Cert.KernelIdeal.S1600000x32 .f32)
      = val_main_v16 (F := Ideal) x0 x1 x2 x3 x13 := by
  funext i
  obtain ⟨p, q, rfl⟩ : ∃ (p : Fin 1600000) (q : Fin 32), i = ix2 p q := ⟨i 0, i 1, eq_ix2 i⟩
  rw [msg_apply]
  show pairMsg x1 (gjpa x0 x2 x13) (wpaP x2) (row32 x3) (ix2 p q) = _
  unfold pairMsg mm
  refine congrArg (fun u => max u z) ?_
  refine congrArg₂ (· + ·)
    (congrArg₂ (· + ·) (Finset.sum_congr rfl fun k _ => congrArg₂ (· * ·) rfl (wpaP_at x2 k q)) ?_)
    (row32_at x3 q)
  exact gjpa_at x0 x2 x13 p q

/-! ## The summed messages -/

/-- Both programs sum equal messages by the same indices into the same zero array. -/
theorem sums_eq : sums x0 x1 x2 x3 x13 = val_main_v19 (F := Ideal) x0 x1 x2 x3 x13 := by
  show Host.scatterAdd Cert.ReferenceIdeal.scatter_S100000x32_S1600000x1_S1600000x32_1_0_0_1
      (val_main_v17 (F := Ideal)) (val_main_v18 (F := Ideal) x13)
      (extf .f32 (msg x0 x1 x2 x3 x13) Cert.KernelIdeal.Facts₀.bitsLt_bf16_f32 : FVec Ideal Cert.KernelIdeal.S1600000x32 .f32)
    = Host.scatterAdd Cert.ReferenceIdeal.scatter_S100000x32_S1600000x1_S1600000x32_1_0_0_1
      (val_main_v17 (F := Ideal)) (val_main_v18 (F := Ideal) x13) (val_main_v16 (F := Ideal) x0 x1 x2 x3 x13)
  rw [msg_eq]

/-! ## The atom output -/

/-- The kernel's atom result is the reference's, entry by entry. -/
theorem atom_eq :
    atomRes x0 x1 x2 x3 x4 x5 x6 x7 x13 = val_main_v32 (F := Ideal) x0 x1 x2 x3 x4 x5 x6 x7 x13 := by
  funext i
  obtain ⟨r, q, rfl⟩ : ∃ (r : Fin 100000) (q : Fin 50), i = ix2 r q := ⟨i 0, i 1, eq_ix2 i⟩
  rw [atom_apply]
  show atomOut x0 (sums x0 x1 x2 x3 x13) (waoA x4) (waoP x4) (row50 x5) (waa x6) (row50 x7) (ix2 r q) = _
  rw [sums_eq]
  unfold atomOut mm
  refine congrArg (fun u => max u z) ?_
  refine congrArg₂ (· + ·)
    (congrArg (fun u => max u z)
      (congrArg₂ (· + ·)
        (congrArg₂ (· + ·) (Finset.sum_congr rfl fun k _ => congrArg₂ (· * ·) rfl (waoA_at x4 k q))
          (Finset.sum_congr rfl fun k _ => congrArg₂ (· * ·) rfl (waoP_at x4 k q)))
        (row50_at x5 q)))
    (congrArg (fun u => max u z)
      (congrArg₂ (· + ·) (Finset.sum_congr rfl fun k _ => congrArg₂ (· * ·) rfl (waa_at x6 _)) (row50_at x7 q)))

/-! ## The pair output -/

/-- The atom-side part of the pair update: the two gathered products added are the product with the sum of the two
    gathered rows, the entries being real numbers. -/
theorem pair_inner (h0 : ∀ i, x0 i ≠ ⊤ ∧ x0 i ≠ ⊥) (h8 : ∀ i, x8 i ≠ ⊤ ∧ x8 i ≠ ⊥) (p : Fin 1600000) (q : Fin 50) :
    (∑ k : Fin 14, x1 (ix2 p k) * wapP x8 (ix2 k q)) + giap x0 x8 x13 (ix2 p q) + gjap x0 x8 x13 (ix2 p q)
      = ∑ k : Fin 14, x1 (ix2 p k) * x8 (ix2 (⟨k.val, by omega⟩ : Fin 89) q)
        + ∑ k : Fin 75, (x0 (ix2 (rowI x13 p) k) + x0 (ix2 (rowJ x13 p) k)) * x8 (ix2 (⟨14 + k.val, by omega⟩ : Fin 89) q) := by
  have key : ∑ k : Fin 75, (x0 (ix2 (rowI x13 p) k) + x0 (ix2 (rowJ x13 p) k)) * x8 (ix2 (⟨14 + k.val, by omega⟩ : Fin 89) q)
      = ∑ k : Fin 75, x0 (ix2 (rowI x13 p) k) * x8 (ix2 (⟨14 + k.val, by omega⟩ : Fin 89) q)
        + ∑ k : Fin 75, x0 (ix2 (rowJ x13 p) k) * x8 (ix2 (⟨14 + k.val, by omega⟩ : Fin 89) q) :=
    sum_add_mul_of_real (fun k : Fin 75 => x0 (ix2 (rowI x13 p) k)) (fun k : Fin 75 => x0 (ix2 (rowJ x13 p) k))
      (fun k : Fin 75 => x8 (ix2 (⟨14 + k.val, by omega⟩ : Fin 89) q)) (fun k => h0 _) (fun k => h0 _) (fun k => h8 _)
  rw [key, ← add_assoc]
  refine congrArg₂ (· + ·)
    (congrArg₂ (· + ·) (Finset.sum_congr rfl fun k _ => congrArg₂ (· * ·) rfl (wapP_at x8 k q)) ?_) ?_
  · exact giap_at x0 x8 x13 p q
  · exact gjap_at x0 x8 x13 p q

/-- The kernel's pair result is the reference's, entry by entry, when the atom table and the pair-update weights are
    real. -/
theorem pair_eq (h0 : ∀ i, x0 i ≠ ⊤ ∧ x0 i ≠ ⊥) (h8 : ∀ i, x8 i ≠ ⊤ ∧ x8 i ≠ ⊥) :
    pairRes x0 x1 x8 x9 x10 x11 x13 = val_main_v53 (F := Ideal) x0 x1 x8 x9 x10 x11 x13 := by
  funext i
  obtain ⟨p, q, rfl⟩ : ∃ (p : Fin 1600000) (q : Fin 50), i = ix2 p q := ⟨i 0, i 1, eq_ix2 i⟩
  rw [pair_apply]
  show pairOut x1 (gjap x0 x8 x13) (giap x0 x8 x13) (wapP x8) (row50 x9) (wpp x10) (row50 x11) (ix2 p q) = _
  unfold pairOut mm
  refine congrArg (fun u => max u z) ?_
  refine congrArg₂ (· + ·)
    (congrArg (fun u => max u z) (congrArg₂ (· + ·) (pair_inner x0 x1 x8 x13 h0 h8 p q) (row50_at x9 q)))
    (congrArg (fun u => max u z)
      (congrArg₂ (· + ·) (Finset.sum_congr rfl fun k _ => congrArg₂ (· * ·) rfl (wpp_at x10 _)) (row50_at x11 q)))

end Cert.Bridge

end
-- ==== Proof.FinitePre.lean ====
/-
  From the finiteness precondition to "these entries are real numbers".

  The precondition is a conjunction, one conjunct per float argument, each saying that every entry `x` of the
  argument satisfies `|x| < +∞`, the comparison taken in the extended reals and the conjunction over the entries taken
  by a reduction with `and` from the constant true. An extended real whose absolute value `max x (-x)` lies strictly
  below `⊤` is neither `⊤` nor `⊥` (the negative of `⊥` is `⊤`). Two of the conjuncts are read back here: the
  atom table's and the 89 × 50 weight matrix's.
-/
import proofs.«105599_j14705968022035_2_alg».proof.Pre_finite_inputs
import Idealize.ShloMosaic.Lib.ReduceAll
import Idealize.ShloMosaic.Lib.ValueIdx
import Idealize.ShloMosaic.PureOps.Ideal

noncomputable section

namespace Cert.FinitePre

open Cert.Pre_finite_inputs Idealize.ShloMosaic

/-- The rank-0 shape has one index. -/
instance : Subsingleton S_.Idx := ⟨fun a b => funext fun d => d.elim0⟩

/-- The word `0x7F800000` denotes `+∞`. -/
theorem inf_word : Ideal.ofBits .f32 0x7F800000#32 = (⊤ : EReal) := by
  simp [Ideal.ofBits, Ideal.ieee]

/-- An extended real whose absolute value compares strictly below `+∞` is a real number. -/
theorem real_of_abs_lt (x : EReal)
    (h : Ideal.cmp .olt (max x (-x)) (Ideal.ofBits .f32 0x7F800000#32) = 1#1) : x ≠ ⊤ ∧ x ≠ ⊥ := by
  rw [inf_word] at h
  have h' : max x (-x) < ⊤ := by
    by_contra hn
    simp [Ideal.cmp, hn] at h
  rw [max_lt_iff] at h'
  refine ⟨ne_of_lt h'.1, fun e => ?_⟩
  rw [e, EReal.neg_bot] at h'
  exact lt_irrefl _ h'.2

/-- One conjunct of the precondition read back: if the `and` over all entries of `|a| < +∞` came out true, every
    entry of `a` is a real number. -/
theorem reals_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ValueIdx.ix0 = 1#1) :
    ∀ i, a i ≠ ⊤ ∧ a i ≠ ⊥ := fun i =>
  real_of_abs_lt (a i) (Host.reduce_andi_all _ _ hr hu _ e i)

/-- A conjunction of two `i1` arrays is true at an index only where both are. -/
theorem both_of_and {s : Shape} (x y : IVec s 1) (i : s.Idx) (h : andi x y i = 1#1) : x i = 1#1 ∧ y i = 1#1 :=
  IntOp.andi_eq_one.1 h

/-- THE PRECONDITION READ BACK for the atom table and the 89 × 50 weight matrix: all their entries are real. -/
theorem reals_of_pre [Cert.Pre_finite_inputs.Facts]
    (a0 : FVec Ideal S100000x75 .f32) (a1 : FVec Ideal S1600000x14 .f32) (a2 : FVec Ideal S89x32 .f32)
    (a3 : FVec Ideal S32 .f32) (a4 : FVec Ideal S107x50 .f32) (a5 : FVec Ideal S50 .f32)
    (a6 : FVec Ideal S75x50 .f32) (a7 : FVec Ideal S50 .f32) (a8 : FVec Ideal S89x50 .f32)
    (a9 : FVec Ideal S50 .f32) (a10 : FVec Ideal S14x50 .f32) (a11 : FVec Ideal S50 .f32)
    (a12 : IVec S1600000 32) (a13 : IVec S1600000x2 32)
    (h : Cert.Pre_finite_inputs.fn (F := Ideal) a0 a1 a2 a3 a4 a5 a6 a7 a8 a9 a10 a11 a12 a13 = fun _ => 1#1) :
    (∀ i, a0 i ≠ ⊤ ∧ a0 i ≠ ⊥) ∧ (∀ i, a8 i ≠ ⊤ ∧ a8 i ≠ ⊥) := by
  have h0 := congrFun h ValueIdx.ix0
  dsimp only [fn, fn_part1, fn_part2, fn_part3] at h0
  -- the conjunction is nested to the left: peel the conjuncts of arguments 11, 10, 9 off, keep argument 8's …
  obtain ⟨h0, -⟩ := both_of_and _ _ _ h0
  obtain ⟨h0, -⟩ := both_of_and _ _ _ h0
  obtain ⟨h0, -⟩ := both_of_and _ _ _ h0
  obtain ⟨h0, r8⟩ := both_of_and _ _ _ h0
  -- … peel arguments 7 … 1 off, and what is left is argument 0's
  obtain ⟨h0, -⟩ := both_of_and _ _ _ h0
  obtain ⟨h0, -⟩ := both_of_and _ _ _ h0
  obtain ⟨h0, -⟩ := both_of_and _ _ _ h0
  obtain ⟨h0, -⟩ := both_of_and _ _ _ h0
  obtain ⟨h0, -⟩ := both_of_and _ _ _ h0
  obtain ⟨h0, -⟩ := both_of_and _ _ _ h0
  obtain ⟨r0, -⟩ := both_of_and _ _ _ h0
  exact ⟨reals_of_all a0 _ _ _ r0, reals_of_all a8 _ _ _ r8⟩

end Cert.FinitePre

end
-- ==== Proof.lean ====
/-
  A graph layer over atoms and pairs: the kernel against its reference, at the exact values.

  Both programs take an atom table, a pair table, five dense layers' weights and biases and, for each pair, its two
  atoms; both return the updated atom table and the updated pair table, every stage a `relu (X · W + b)`.

  The reference gathers atom rows and then multiplies: a pair's message contracts the concatenated row (pair
  features, the other atom's features) with the whole weight matrix; the pair update contracts (pair features, the
  SUM of the two atoms' features). The kernel multiplies and then gathers: a first kernel forms the products of the
  atom table with the atom rows of the two weight matrices, the host gathers rows of those products, a second
  kernel adds them to the product of the pair features with the pair rows of the weights. The messages are summed
  into their source atoms by the same scatter-add in both programs, and a third kernel computes the atom update with
  the atom-update weights split in the same way.

  At the exact values the two agree entry by entry: a row gather commutes with a product on the right; a sum over
  a concatenated row is the sum over its two stretches; a change of float format is the identity; and the one law
  that needs the inputs to be real numbers — the product with a sum of two rows is the sum of the two products —
  is where the finiteness precondition is used. The kernels' frames and the reference's run are the generated
  modules'; the idealization rewrote nothing, so there is nothing to preserve.
-/
import proofs.«105599_j14705968022035_2_alg».proof.Defs
import proofs.«105599_j14705968022035_2_alg».proof.Proof.Gen.Kernel
import proofs.«105599_j14705968022035_2_alg».proof.Proof.Gen.Kernel.Frame
import proofs.«105599_j14705968022035_2_alg».proof.Proof.Gen.KernelIdeal
import proofs.«105599_j14705968022035_2_alg».proof.Proof.Gen.KernelIdeal.Frame
import proofs.«105599_j14705968022035_2_alg».proof.Proof.Gen.ReferenceIdeal
import proofs.«105599_j14705968022035_2_alg».proof.Proof.Gen.Pre_finite_inputs
import proofs.«105599_j14705968022035_2_alg».proof.Proof.Gen.ReferenceIdeal.Run
import proofs.«105599_j14705968022035_2_alg».proof.Proof.Gen.ReferenceIdeal.Read
import proofs.«105599_j14705968022035_2_alg».proof.Proof.KValue
import proofs.«105599_j14705968022035_2_alg».proof.Proof.Bridge
import proofs.«105599_j14705968022035_2_alg».proof.Proof.FinitePre
import Idealize.ShloMosaic.Adequacy
import Idealize.ShloMosaic.Init

noncomputable section

namespace Cert.Proof

open Idealize.ShloMosaic Idealize.SL.Sem

/-- The kernel as printed runs and leaves its arguments: the generated frame. -/
theorem frame_kernel : Cert.frame_Kernel := fun m ρ _ => Cert.Kernel.Gen.frame m ρ

/-- The idealized kernel runs and leaves its arguments: the generated frame. -/
theorem frame_kernelIdeal : Cert.frame_KernelIdeal := fun m ρ _ => Cert.KernelIdeal.Gen.frame m ρ

/-- The idealized reference runs and leaves its arguments: its generated run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments both programs run, the atom tables they return are equal and so are
    the pair tables: the kernel's run ends at its named terms, the reference's at its stages, and the two are one
    function of the arguments — for the pair table under the precondition, which makes the atom features and the
    pair-update weights real numbers. -/
theorem algebraic : Cert.algebraic_KernelIdeal_ReferenceIdeal := by
  intro m ρ m' ρ' hpre hagree
  refine ⟨_, _, Cert.KernelIdeal.KValue.run m ρ, ?_⟩
  refine (θ_run Cert.ReferenceIdeal.defs _ _).mono (fun r h c => ⟨?_, ?_, (h c).2.2⟩)
    (Cert.ReferenceIdeal.Value.run (F := Ideal) m' ρ')
  · obtain ⟨e0, e1, e2, e3, e4, e5, e6, e7, e8, e9, e10, e11, e12, e13⟩ := hagree c
    rw [(h c).1, Cert.ReferenceIdeal.Read.val_main_v32_eq, e0, e1, e2, e3, e4, e5, e6, e7, e13]
    exact (Cert.Bridge.atom_eq _ _ _ _ _ _ _ _ _).symm
  · obtain ⟨e0, e1, e2, e3, e4, e5, e6, e7, e8, e9, e10, e11, e12, e13⟩ := hagree c
    have hfin := Cert.FinitePre.reals_of_pre _ _ _ _ _ _ _ _ _ _ _ _ _ _ (hpre c)
    rw [(h c).2.1, Cert.ReferenceIdeal.Read.val_main_v53_eq, e0, e1, e8, e9, e10, e11, e13]
    exact (Cert.Bridge.pair_eq _ _ _ _ _ _ _ hfin.1 hfin.2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
